-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S100000x256 : Shape := ⟨2, ![100000, 256]⟩
abbrev S2x500000 : Shape := ⟨2, ![2, 500000]⟩
abbrev S2x800000 : Shape := ⟨2, ![2, 800000]⟩
abbrev S1024x4096 : Shape := ⟨2, ![1024, 4096]⟩
abbrev S1024 : Shape := ⟨1, ![1024]⟩
abbrev S128x1 : Shape := ⟨2, ![128, 1]⟩
abbrev S128 : Shape := ⟨1, ![128]⟩
abbrev S128x256 : Shape := ⟨2, ![128, 256]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg21 : FVec F S1 .f32) (main_v83 : IVec S_ 1) (main_v84 : FVec F S1x128 .f32) (main_cst_32 : FVec F S_ .f32) : IVec S_ 1 :=
  let main_v85 : FVec F S1x128 .f32 := broadcastInDim S1x128 ![] bcast_S_S1x128 main_cst_32
  let main_v86 : IVec S1x128 1 := cmpf .olt main_v84 main_v85
  let main_c_33 : IVec S_ 1 := constantI S_ 1 1#1
  let main_v87 : IVec S_ 1 := (fun x v => Host.reduce IntOp.andi x v reducesTo_S1x128_S_d0_1 h_S_) main_v86 main_c_33
  let main_v88 : IVec S_ 1 := andi main_v83 main_v87
  let main_v89 : FVec F S1 .f32 := Host.absf main_arg21
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg17 : FVec F S128 .f32) (main_arg18 : FVec F S128x256 .f32) (main_arg19 : FVec F S128 .f32) (main_arg20 : FVec F S1x128 .f32) (main_arg21 : FVec F S1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x256 .f32 := Host.absf main_arg18
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S1x128 .f32 := Host.absf main_arg20
  let main_cst_32 : FVec F S_ .f32 := constant S_ .f32 0x7F800000#32
  fn_part5 (F := F) main_arg21 main_v83 main_v84 main_cst_32

def fn_part3 {F : FTy → Type} [FloatOps F] (main_arg14 : FVec F S128 .f32) (main_arg15 : FVec F S128x256 .f32) (main_arg16 : FVec F S128x128 .f32) (main_arg17 : FVec F S128 .f32) (main_arg18 : FVec F S128x256 .f32) (main_arg19 : FVec F S128 .f32) (main_arg20 : FVec F S1x128 .f32) (main_arg21 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg15
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_arg20 main_arg21 main_v63 main_v67

def fn_part2 {F : FTy → Type} [FloatOps F] (main_arg10 : FVec F S128x1 .f32) (main_arg11 : FVec F S128 .f32) (main_arg12 : FVec F S128x128 .f32) (main_arg13 : FVec F S128x128 .f32) (main_arg14 : FVec F S128 .f32) (main_arg15 : FVec F S128x256 .f32) (main_arg16 : FVec F S128x128 .f32) (main_arg17 : FVec F S128 .f32) (main_arg18 : FVec F S128x256 .f32) (main_arg19 : FVec F S128 .f32) (main_arg20 : FVec F S1x128 .f32) (main_arg21 : FVec F S1 .f32) (main_v33 : IVec S_ 1) : IVec S_ 1 :=
  let main_v34 : FVec F S128x1 .f32 := Host.absf main_arg10
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_arg19 main_arg20 main_arg21 main_v48 main_v49 main_v50

def fn_part1 {F : FTy → Type} [FloatOps F] (main_arg7 : FVec F S128x1 .f32) (main_arg8 : FVec F S128 .f32) (main_arg9 : FVec F S128x256 .f32) (main_arg10 : FVec F S128x1 .f32) (main_arg11 : FVec F S128 .f32) (main_arg12 : FVec F S128x128 .f32) (main_arg13 : FVec F S128x128 .f32) (main_arg14 : FVec F S128 .f32) (main_arg15 : FVec F S128x256 .f32) (main_arg16 : FVec F S128x128 .f32) (main_arg17 : FVec F S128 .f32) (main_arg18 : FVec F S128x256 .f32) (main_arg19 : FVec F S128 .f32) (main_arg20 : FVec F S1x128 .f32) (main_arg21 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S128x1 .f32 := Host.absf main_arg7
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg9
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_v33

def fn {F : FTy → Type} [FloatOps F] (main_arg0 : FVec F S1x4096 .f32) (main_arg1 : FVec F S100000x256 .f32) (main_arg2 : IVec S2x500000 32) (main_arg3 : IVec S2x500000 32) (main_arg4 : IVec S2x800000 32) (main_arg5 : FVec F S1024x4096 .f32) (main_arg6 : FVec F S1024 .f32) (main_arg7 : FVec F S128x1 .f32) (main_arg8 : FVec F S128 .f32) (main_arg9 : FVec F S128x256 .f32) (main_arg10 : FVec F S128x1 .f32) (main_arg11 : FVec F S128 .f32) (main_arg12 : FVec F S128x128 .f32) (main_arg13 : FVec F S128x128 .f32) (main_arg14 : FVec F S128 .f32) (main_arg15 : FVec F S128x256 .f32) (main_arg16 : FVec F S128x128 .f32) (main_arg17 : FVec F S128 .f32) (main_arg18 : FVec F S128x256 .f32) (main_arg19 : FVec F S128 .f32) (main_arg20 : FVec F S1x128 .f32) (main_arg21 : FVec F S1 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S1024x4096 .f32 := Host.absf main_arg5
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024 .f32 := Host.absf main_arg6
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_v13 main_v16
-- ==== Kernel.lean ====
abbrev S1x4096 : Shape := ⟨2, ![1, 4096]⟩
abbrev S100000x256 : Shape := ⟨2, ![100000, 256]⟩
abbrev S2x500000 : Shape := ⟨2, ![2, 500000]⟩
abbrev S2x800000 : Shape := ⟨2, ![2, 800000]⟩
abbrev S1024x4096 : Shape := ⟨2, ![1024, 4096]⟩
abbrev S1024 : Shape := ⟨1, ![1024]⟩
abbrev S128x1 : Shape := ⟨2, ![128, 1]⟩
abbrev S128 : Shape := ⟨1, ![128]⟩
abbrev S128x256 : Shape := ⟨2, ![128, 256]⟩
abbrev S128x128 : Shape := ⟨2, ![128, 128]⟩
abbrev S1x128 : Shape := ⟨2, ![1, 128]⟩
abbrev S1 : Shape := ⟨1, ![1]⟩
abbrev S4096x1024 : Shape := ⟨2, ![4096, 1024]⟩
abbrev S1x1024 : Shape := ⟨2, ![1, 1024]⟩
abbrev S1024x1 : Shape := ⟨2, ![1024, 1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S100000x1 : Shape := ⟨2, ![100000, 1]⟩
abbrev S100000 : Shape := ⟨1, ![100000]⟩
abbrev S100000x128 : Shape := ⟨2, ![100000, 128]⟩
abbrev S5000x1 : Shape := ⟨2, ![5000, 1]⟩
abbrev S5000x256 : Shape := ⟨2, ![5000, 256]⟩
abbrev S5000x128 : Shape := ⟨2, ![5000, 128]⟩
abbrev S256x128 : Shape := ⟨2, ![256, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x1 : Shape := ⟨2, ![1, 1]⟩
abbrev S8000x128 : Shape := ⟨2, ![8000, 128]⟩
abbrev S8000x1 : Shape := ⟨2, ![8000, 1]⟩

abbrev nBuf : Space → Nat
  | .hbm => 153
  | .vmem => 40
  | .smem => 0
  | _ => 0

abbrev hbmTy0_0 (i : Nat) : BufTy := match i % 128 with
  | 0 => ⟨S1x4096, .f32⟩
  | 1 => ⟨S100000x256, .f32⟩
  | 2 => ⟨S2x500000, .i32⟩
  | 3 => ⟨S2x500000, .i32⟩
  | 4 => ⟨S2x800000, .i32⟩
  | 5 => ⟨S1024x4096, .f32⟩
  | 6 => ⟨S1024, .f32⟩
  | 7 => ⟨S128x1, .f32⟩
  | 8 => ⟨S128, .f32⟩
  | 9 => ⟨S128x256, .f32⟩
  | 10 => ⟨S128x1, .f32⟩
  | 11 => ⟨S128, .f32⟩
  | 12 => ⟨S128x128, .f32⟩
  | 13 => ⟨S128x128, .f32⟩
  | 14 => ⟨S128, .f32⟩
  | 15 => ⟨S128x256, .f32⟩
  | 16 => ⟨S128x128, .f32⟩
  | 17 => ⟨S128, .f32⟩
  | 18 => ⟨S128x256, .f32⟩
  | 19 => ⟨S128, .f32⟩
  | 20 => ⟨S1x128, .f32⟩
  | 21 => ⟨S1, .f32⟩
  | 22 => ⟨S4096x1024, .f32⟩
  | 23 => ⟨S1x1024, .f32⟩
  | 24 => ⟨S1x1024, .f32⟩
  | 25 => ⟨S1x1024, .f32⟩
  | 26 => ⟨S1024x1, .f32⟩
  | 27 => ⟨S1x500000, .i32⟩
  | 28 => ⟨S500000, .i32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x1, .f32⟩
  | 40 => ⟨S_, .f32⟩
  | 41 => ⟨S100000x1, .f32⟩
  | 42 => ⟨S500000x1, .i32⟩
  | 43 => ⟨S100000x1, .f32⟩
  | 44 => ⟨S_, .f32⟩
  | 45 => ⟨S500000, .f32⟩
  | 46 => ⟨S_, .f32⟩
  | 47 => ⟨S100000, .f32⟩
  | 48 => ⟨S500000x1, .i32⟩
  | 49 => ⟨S100000, .f32⟩
  | 50 => ⟨S_, .f32⟩
  | 51 => ⟨S_, .f32⟩
  | 52 => ⟨S100000, .f32⟩
  | 53 => ⟨S100000, .f32⟩
  | 54 => ⟨S100000x1, .f32⟩
  | 55 => ⟨S100000x1, .f32⟩
  | 56 => ⟨S1x128, .f32⟩
  | 57 => ⟨S1x128, .f32⟩
  | 58 => ⟨S100000x128, .f32⟩
  | 59 => ⟨S1x500000, .i32⟩
  | 60 => ⟨S500000, .i32⟩
  | 61 => ⟨S1x500000, .i32⟩
  | 62 => ⟨S500000, .i32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x1, .f32⟩
  | 72 => ⟨S_, .f32⟩
  | 73 => ⟨S100000x1, .f32⟩
  | 74 => ⟨S500000x1, .i32⟩
  | 75 => ⟨S100000x1, .f32⟩
  | 76 => ⟨S_, .f32⟩
  | 77 => ⟨S500000, .f32⟩
  | 78 => ⟨S_, .f32⟩
  | 79 => ⟨S100000, .f32⟩
  | 80 => ⟨S500000x1, .i32⟩
  | 81 => ⟨S100000, .f32⟩
  | 82 => ⟨S_, .f32⟩
  | 83 => ⟨S_, .f32⟩
  | 84 => ⟨S100000, .f32⟩
  | 85 => ⟨S100000, .f32⟩
  | 86 => ⟨S100000x1, .f32⟩
  | 87 => ⟨S100000x1, .f32⟩
  | 88 => ⟨S1x128, .f32⟩
  | 89 => ⟨S1x128, .f32⟩
  | 90 => ⟨S100000x128, .bf16⟩
  | 91 => ⟨S1x800000, .i32⟩
  | 92 => ⟨S800000, .i32⟩
  | 93 => ⟨S1x800000, .i32⟩
  | 94 => ⟨S800000, .i32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .bf16⟩
  | 104 => ⟨S800000x128, .f32⟩
  | 105 => ⟨S_, .f32⟩
  | 106 => ⟨S100000x128, .f32⟩
  | 107 => ⟨S800000x1, .i32⟩
  | 108 => ⟨S100000x128, .f32⟩
  | 109 => ⟨S_, .f32⟩
  | 110 => ⟨S800000, .f32⟩
  | 111 => ⟨S_, .f32⟩
  | 112 => ⟨S100000, .f32⟩
  | 113 => ⟨S800000x1, .i32⟩
  | 114 => ⟨S100000, .f32⟩
  | 115 => ⟨S_, .f32⟩
  | 116 => ⟨S_, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S1x128, .f32⟩
  | 123 => ⟨S1x128, .f32⟩
  | 124 => ⟨S100000x128, .bf16⟩
  | 125 => ⟨S1x800000, .i32⟩
  | 126 => ⟨S800000, .i32⟩
  | 127 => ⟨S1x800000, .i32⟩
  | _ => ⟨S1x4096, .f32⟩

abbrev hbmTy0_1 (i : Nat) : BufTy := match i % 128 with
  | 0 => ⟨S800000, .i32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .bf16⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .bf16⟩
  | 19 => ⟨S128x128, .f32⟩
  | 20 => ⟨S128x128, .f32⟩
  | 21 => ⟨S1x128, .f32⟩
  | 22 => ⟨S1x1, .f32⟩
  | 23 => ⟨S800000x1, .f32⟩
  | 24 => ⟨S800000, .f32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | .local _ .vmem, ⟨0, _⟩ => ⟨S5000x1, .f32⟩
  | .local _ .vmem, ⟨1, _⟩ => ⟨S5000x1, .f32⟩
  | .local _ .vmem, ⟨2, _⟩ => ⟨S5000x256, .f32⟩
  | .local _ .vmem, ⟨3, _⟩ => ⟨S5000x256, .f32⟩
  | .local _ .vmem, ⟨4, _⟩ => ⟨S1x128, .f32⟩
  | .local _ .vmem, ⟨5, _⟩ => ⟨S128x256, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .f32⟩
  | .local _ .vmem, ⟨19, _⟩ => ⟨S5000x128, .f32⟩
  | .local _ .vmem, ⟨20, _⟩ => ⟨S5000x256, .f32⟩
  | .local _ .vmem, ⟨21, _⟩ => ⟨S5000x256, .f32⟩
  | .local _ .vmem, ⟨22, _⟩ => ⟨S128x128, .f32⟩
  | .local _ .vmem, ⟨23, _⟩ => ⟨S128x256, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S5000x128, .bf16⟩
  | .local _ .vmem, ⟨28, _⟩ => ⟨S5000x128, .bf16⟩
  | .local _ .vmem, ⟨29, _⟩ => ⟨S8000x128, .bf16⟩
  | .local _ .vmem, ⟨30, _⟩ => ⟨S8000x128, .bf16⟩
  | .local _ .vmem, ⟨31, _⟩ => ⟨S8000x128, .bf16⟩
  | .local _ .vmem, ⟨32, _⟩ => ⟨S8000x128, .bf16⟩
  | .local _ .vmem, ⟨33, _⟩ => ⟨S128x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x1, .f32⟩
  | .local _ .vmem, ⟨38, _⟩ => ⟨S8000x1, .f32⟩
  | .local _ .vmem, ⟨39, _⟩ => ⟨S8000x1, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_call0_v0 : Ref sig .tc := ⟨.hbm, 51, rfl⟩
abbrev main_call0_v1 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_4 : Ref sig .tc := ⟨.hbm, 63, rfl⟩
abbrev main_v33 : Ref sig .tc := ⟨.hbm, 64, rfl⟩
abbrev main_v34 : Ref sig .tc := ⟨.hbm, 65, rfl⟩
abbrev main_c_5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_6 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_9 : Ref sig .tc := ⟨.hbm, 82, rfl⟩
abbrev main_call1_v0 : Ref sig .tc := ⟨.hbm, 83, rfl⟩
abbrev main_call1_v1 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_10 : Ref sig .tc := ⟨.hbm, 95, rfl⟩
abbrev main_v57 : Ref sig .tc := ⟨.hbm, 96, rfl⟩
abbrev main_v58 : Ref sig .tc := ⟨.hbm, 97, rfl⟩
abbrev main_c_11 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_12 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_13 : Ref sig .tc := ⟨.hbm, 109, rfl⟩
abbrev main_v68 : Ref sig .tc := ⟨.hbm, 110, rfl⟩
abbrev main_cst_14 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_15 : Ref sig .tc := ⟨.hbm, 115, rfl⟩
abbrev main_call2_v0 : Ref sig .tc := ⟨.hbm, 116, rfl⟩
abbrev main_call2_v1 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_c_16 : Ref sig .tc := ⟨.hbm, 129, rfl⟩
abbrev main_v83 : Ref sig .tc := ⟨.hbm, 130, rfl⟩
abbrev main_v84 : Ref sig .tc := ⟨.hbm, 131, rfl⟩
abbrev main_c_17 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_18 : Ref sig .tc := ⟨.hbm, 138, rfl⟩
abbrev main_v90 : Ref sig .tc := ⟨.hbm, 139, rfl⟩
abbrev main_v91 : Ref sig .tc := ⟨.hbm, 140, rfl⟩
abbrev main_c_19 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S8000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  transposes_S1024x4096_S4096x1024_1_0 : S1024x4096.Transposes [1, 0] S4096x1024
  bcast_S1024_S1x1024_1 : S1024.BroadcastsInDim S1x1024 (![1] : Fin 1 → Fin S1x1024.rank)
  shapeCasts_S1x1024_S1024x1 : S1x1024.ShapeCasts S1024x1
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x1 : S_.BroadcastsInDim S100000x1 (![] : Fin 0 → Fin S100000x1.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S128_S1x128 : S128.ShapeCasts S1x128
  shapeCasts_S128x1_S1x128 : S128x1.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  packedbf16_S5000x128_S5000x128_0_0 : (Rect.unit (s := S5000x128) ![0, 0] S5000x128.size inb_S5000x128_S5000x128_0_0).PackedRows (EltTy.packing .bf16)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S128x256_S128x128_0_0 : S128x256.Slices ![0, 0] S128x128
  slices_S128x256_S128x128_0_128 : S128x256.Slices ![0, 128] S128x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  shapeCasts_S128x128_S128x128 : S128x128.ShapeCasts S128x128
  broadcasts_S1x128_S8000x128 : S1x128.Broadcasts S8000x128
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S800000x1_S800000 : S800000x1.ShapeCasts S800000
  dot_S1x4096_S4096x1024_S1x1024_1_0_0_1_n_n_wf : DotDims.WF S1x4096 S4096x1024 S1x1024 [1] [0] [0] [1] [] []
  gather_S1024x1_S500000x1_S500000x1_1_0_n_n_0_1_11_wf : GatherDims.WF S1024x1 S500000x1 S500000x1 [1] [0] [] [0] [] 1 ![1, 1]
  scatter_S100000x1_S500000x1_S500000x1_1_0_0_1_wf : ScatterDims.WF S100000x1 S500000x1 S500000x1 [1] [0] [0] 1
  scatter_S100000_S500000x1_S500000_n_0_0_1_wf : ScatterDims.WF S100000 S500000x1 S500000 [] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S100000x256.size a
  hwx0_1 : ∀ i : grid0.Coords, EltTy.bits .f32 = 32 ∨ (Rect.block (s := S100000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S100000x1.size a
  hwx1_0 : ∀ i : grid1.Coords, EltTy.bits .f32 = 32 ∨ (Rect.block (s := S100000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S100000x256.size a
  hwx2_1 : ∀ i : grid2.Coords, EltTy.bits .f32 = 32 ∨ (Rect.block (s := S100000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .bf16 = 32 ∨ (Rect.block (s := S100000x128) S5000x128.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S800000x128.size a
  hwx3_0 : ∀ i : grid3.Coords, EltTy.bits .bf16 = 32 ∨ (Rect.block (s := S800000x128) S8000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S800000x128.size a
  hwx3_1 : ∀ i : grid3.Coords, EltTy.bits .bf16 = 32 ∨ (Rect.block (s := S800000x128) S8000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8000x1.size a ≤ S800000x1.size a
  hwx3_7 : ∀ i : grid3.Coords, EltTy.bits .f32 = 32 ∨ (Rect.block (s := S800000x1) S8000x1.size (cc3_transform_7 i) (hinb3_7 i)).WholeWords (EltTy.packing .f32)

variable [Facts₀]

def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf
def gather_S1024x1_S500000x1_S500000x1_1_0_n_n_0_1_11 : GatherDims S1024x1 S500000x1 S500000x1 where
  offsetDims := [1]
  collapsedSliceDims := [0]
  operandBatchingDims := []
  startIndicesBatchingDims := []
  startIndexMap := [0]
  indexVectorDim := 1
  sliceSizes := ![1, 1]
  wf := gather_S1024x1_S500000x1_S500000x1_1_0_n_n_0_1_11_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_v25) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v75) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v77) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v78) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v89) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v96) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v97) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v98) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v99) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg20) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v100) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v101) S8000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S1x4096 : Shape := ⟨2, ![1, 4096]⟩
abbrev S100000x256 : Shape := ⟨2, ![100000, 256]⟩
abbrev S2x500000 : Shape := ⟨2, ![2, 500000]⟩
abbrev S2x800000 : Shape := ⟨2, ![2, 800000]⟩
abbrev S1024x4096 : Shape := ⟨2, ![1024, 4096]⟩
abbrev S1024 : Shape := ⟨1, ![1024]⟩
abbrev S128x1 : Shape := ⟨2, ![128, 1]⟩
abbrev S128 : Shape := ⟨1, ![128]⟩
abbrev S128x256 : Shape := ⟨2, ![128, 256]⟩
abbrev S128x128 : Shape := ⟨2, ![128, 128]⟩
abbrev S1x128 : Shape := ⟨2, ![1, 128]⟩
abbrev S1 : Shape := ⟨1, ![1]⟩
abbrev S4096x1024 : Shape := ⟨2, ![4096, 1024]⟩
abbrev S1x1024 : Shape := ⟨2, ![1, 1024]⟩
abbrev S1024x1 : Shape := ⟨2, ![1024, 1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S100000x1 : Shape := ⟨2, ![100000, 1]⟩
abbrev S100000 : Shape := ⟨1, ![100000]⟩
abbrev S100000x128 : Shape := ⟨2, ![100000, 128]⟩
abbrev S256x128 : Shape := ⟨2, ![256, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S800000x256 : Shape := ⟨2, ![800000, 256]⟩
abbrev S1x1 : Shape := ⟨2, ![1, 1]⟩

abbrev nBuf : Space → Nat
  | .hbm => 190
  | .vmem => 0
  | .smem => 0
  | _ => 0

abbrev hbmTy0_0 (i : Nat) : BufTy := match i % 128 with
  | 0 => ⟨S1x4096, .f32⟩
  | 1 => ⟨S100000x256, .f32⟩
  | 2 => ⟨S2x500000, .i32⟩
  | 3 => ⟨S2x500000, .i32⟩
  | 4 => ⟨S2x800000, .i32⟩
  | 5 => ⟨S1024x4096, .f32⟩
  | 6 => ⟨S1024, .f32⟩
  | 7 => ⟨S128x1, .f32⟩
  | 8 => ⟨S128, .f32⟩
  | 9 => ⟨S128x256, .f32⟩
  | 10 => ⟨S128x1, .f32⟩
  | 11 => ⟨S128, .f32⟩
  | 12 => ⟨S128x128, .f32⟩
  | 13 => ⟨S128x128, .f32⟩
  | 14 => ⟨S128, .f32⟩
  | 15 => ⟨S128x256, .f32⟩
  | 16 => ⟨S128x128, .f32⟩
  | 17 => ⟨S128, .f32⟩
  | 18 => ⟨S128x256, .f32⟩
  | 19 => ⟨S128, .f32⟩
  | 20 => ⟨S1x128, .f32⟩
  | 21 => ⟨S1, .f32⟩
  | 22 => ⟨S4096x1024, .f32⟩
  | 23 => ⟨S1x1024, .f32⟩
  | 24 => ⟨S1x1024, .f32⟩
  | 25 => ⟨S1x1024, .f32⟩
  | 26 => ⟨S1024x1, .f32⟩
  | 27 => ⟨S1x500000, .i32⟩
  | 28 => ⟨S500000, .i32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x1, .f32⟩
  | 40 => ⟨S_, .f32⟩
  | 41 => ⟨S100000x1, .f32⟩
  | 42 => ⟨S500000x1, .i32⟩
  | 43 => ⟨S100000x1, .f32⟩
  | 44 => ⟨S_, .f32⟩
  | 45 => ⟨S500000, .f32⟩
  | 46 => ⟨S_, .f32⟩
  | 47 => ⟨S100000, .f32⟩
  | 48 => ⟨S500000x1, .i32⟩
  | 49 => ⟨S100000, .f32⟩
  | 50 => ⟨S_, .f32⟩
  | 51 => ⟨S_, .f32⟩
  | 52 => ⟨S100000, .f32⟩
  | 53 => ⟨S100000, .f32⟩
  | 54 => ⟨S100000x1, .f32⟩
  | 55 => ⟨S100000x1, .f32⟩
  | 56 => ⟨S1x128, .f32⟩
  | 57 => ⟨S100000x128, .f32⟩
  | 58 => ⟨S1x128, .f32⟩
  | 59 => ⟨S100000x128, .f32⟩
  | 60 => ⟨S100000x128, .f32⟩
  | 61 => ⟨S256x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S1x500000, .i32⟩
  | 68 => ⟨S500000, .i32⟩
  | 69 => ⟨S1x500000, .i32⟩
  | 70 => ⟨S500000, .i32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x1, .f32⟩
  | 80 => ⟨S_, .f32⟩
  | 81 => ⟨S100000x1, .f32⟩
  | 82 => ⟨S500000x1, .i32⟩
  | 83 => ⟨S100000x1, .f32⟩
  | 84 => ⟨S_, .f32⟩
  | 85 => ⟨S500000, .f32⟩
  | 86 => ⟨S_, .f32⟩
  | 87 => ⟨S100000, .f32⟩
  | 88 => ⟨S500000x1, .i32⟩
  | 89 => ⟨S100000, .f32⟩
  | 90 => ⟨S_, .f32⟩
  | 91 => ⟨S_, .f32⟩
  | 92 => ⟨S100000, .f32⟩
  | 93 => ⟨S100000, .f32⟩
  | 94 => ⟨S100000x1, .f32⟩
  | 95 => ⟨S100000x1, .f32⟩
  | 96 => ⟨S1x128, .f32⟩
  | 97 => ⟨S100000x128, .f32⟩
  | 98 => ⟨S1x128, .f32⟩
  | 99 => ⟨S100000x128, .f32⟩
  | 100 => ⟨S100000x128, .f32⟩
  | 101 => ⟨S128x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S1x800000, .i32⟩
  | 108 => ⟨S800000, .i32⟩
  | 109 => ⟨S1x800000, .i32⟩
  | 110 => ⟨S800000, .i32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S100000x128, .f32⟩
  | 122 => ⟨S800000x1, .i32⟩
  | 123 => ⟨S100000x128, .f32⟩
  | 124 => ⟨S_, .f32⟩
  | 125 => ⟨S800000, .f32⟩
  | 126 => ⟨S_, .f32⟩
  | 127 => ⟨S100000, .f32⟩
  | _ => ⟨S1x4096, .f32⟩

abbrev hbmTy0_1 (i : Nat) : BufTy := match i % 128 with
  | 0 => ⟨S800000x1, .i32⟩
  | 1 => ⟨S100000, .f32⟩
  | 2 => ⟨S_, .f32⟩
  | 3 => ⟨S_, .f32⟩
  | 4 => ⟨S100000, .f32⟩
  | 5 => ⟨S100000, .f32⟩
  | 6 => ⟨S100000x1, .f32⟩
  | 7 => ⟨S100000x128, .f32⟩
  | 8 => ⟨S100000x128, .f32⟩
  | 9 => ⟨S128x128, .f32⟩
  | 10 => ⟨S100000x128, .f32⟩
  | 11 => ⟨S1x128, .f32⟩
  | 12 => ⟨S100000x128, .f32⟩
  | 13 => ⟨S100000x128, .f32⟩
  | 14 => ⟨S256x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S128x128, .f32⟩
  | 21 => ⟨S100000x128, .f32⟩
  | 22 => ⟨S1x128, .f32⟩
  | 23 => ⟨S100000x128, .f32⟩
  | 24 => ⟨S100000x128, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S800000x256, .f32⟩
  | 48 => ⟨S256x128, .f32⟩
  | 49 => ⟨S800000x128, .f32⟩
  | 50 => ⟨S1x128, .f32⟩
  | 51 => ⟨S800000x128, .f32⟩
  | 52 => ⟨S800000x128, .f32⟩
  | 53 => ⟨S_, .f32⟩
  | 54 => ⟨S800000x128, .f32⟩
  | 55 => ⟨S800000x128, .f32⟩
  | 56 => ⟨S128x1, .f32⟩
  | 57 => ⟨S800000x1, .f32⟩
  | 58 => ⟨S1x1, .f32⟩
  | 59 => ⟨S800000x1, .f32⟩
  | 60 => ⟨S800000x1, .f32⟩
  | 61 => ⟨S800000, .f32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_call0_v0 : Ref sig .tc := ⟨.hbm, 51, rfl⟩
abbrev main_call0_v1 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call1_cst : Ref sig .tc := ⟨.hbm, 64, rfl⟩
abbrev main_call1_v0 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_4 : Ref sig .tc := ⟨.hbm, 71, rfl⟩
abbrev main_v39 : Ref sig .tc := ⟨.hbm, 72, rfl⟩
abbrev main_v40 : Ref sig .tc := ⟨.hbm, 73, rfl⟩
abbrev main_c_5 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_6 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_7 : Ref sig .tc := ⟨.hbm, 84, rfl⟩
abbrev main_v49 : Ref sig .tc := ⟨.hbm, 85, rfl⟩
abbrev main_cst_8 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_9 : Ref sig .tc := ⟨.hbm, 90, rfl⟩
abbrev main_call2_v0 : Ref sig .tc := ⟨.hbm, 91, rfl⟩
abbrev main_call2_v1 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call3_cst : Ref sig .tc := ⟨.hbm, 104, rfl⟩
abbrev main_call3_v0 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_10 : Ref sig .tc := ⟨.hbm, 111, rfl⟩
abbrev main_v69 : Ref sig .tc := ⟨.hbm, 112, rfl⟩
abbrev main_v70 : Ref sig .tc := ⟨.hbm, 113, rfl⟩
abbrev main_c_11 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_12 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_13 : Ref sig .tc := ⟨.hbm, 124, rfl⟩
abbrev main_v79 : Ref sig .tc := ⟨.hbm, 125, rfl⟩
abbrev main_cst_14 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_15 : Ref sig .tc := ⟨.hbm, 130, rfl⟩
abbrev main_call4_v0 : Ref sig .tc := ⟨.hbm, 131, rfl⟩
abbrev main_call4_v1 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_call5_cst : Ref sig .tc := ⟨.hbm, 145, rfl⟩
abbrev main_call5_v0 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_c_16 : Ref sig .tc := ⟨.hbm, 157, rfl⟩
abbrev main_v105 : Ref sig .tc := ⟨.hbm, 158, rfl⟩
abbrev main_v106 : Ref sig .tc := ⟨.hbm, 159, rfl⟩
abbrev main_c_17 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_18 : Ref sig .tc := ⟨.hbm, 166, rfl⟩
abbrev main_v112 : Ref sig .tc := ⟨.hbm, 167, rfl⟩
abbrev main_v113 : Ref sig .tc := ⟨.hbm, 168, rfl⟩
abbrev main_c_19 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_call6_cst : Ref sig .tc := ⟨.hbm, 181, rfl⟩
abbrev main_call6_v0 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩

abbrev nD : Nat := 1
abbrev τ : Topo := Topo.v7x

variable {F : FTy → Type} [FloatOps F]

class Facts₀ : Prop where
  transposes_S1024x4096_S4096x1024_1_0 : S1024x4096.Transposes [1, 0] S4096x1024
  bcast_S1024_S1x1024_1 : S1024.BroadcastsInDim S1x1024 (![1] : Fin 1 → Fin S1x1024.rank)
  shapeCasts_S1x1024_S1024x1 : S1x1024.ShapeCasts S1024x1
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x1 : S_.BroadcastsInDim S100000x1 (![] : Fin 0 → Fin S100000x1.rank)
  bcast_S_S100000 : S_.BroadcastsInDim S100000 (![] : Fin 0 → Fin S100000.rank)
  bcast_S100000_S100000x1_0 : S100000.BroadcastsInDim S100000x1 (![0] : Fin 1 → Fin S100000x1.rank)
  transposes_S128x1_S1x128_1_0 : S128x1.Transposes [1, 0] S1x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x256_S256x128_1_0 : S128x256.Transposes [1, 0] S256x128
  bcast_S_S100000x128 : S_.BroadcastsInDim S100000x128 (![] : Fin 0 → Fin S100000x128.rank)
  transposes_S128x128_S128x128_1_0 : S128x128.Transposes [1, 0] S128x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S100000x1_S100000x128_0_1 : S100000x1.BroadcastsInDim S100000x128 (![0, 1] : Fin 2 → Fin S100000x128.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  dot_S1x4096_S4096x1024_S1x1024_1_0_0_1_n_n_wf : DotDims.WF S1x4096 S4096x1024 S1x1024 [1] [0] [0] [1] [] []
  gather_S1024x1_S500000x1_S500000x1_1_0_n_n_0_1_11_wf : GatherDims.WF S1024x1 S500000x1 S500000x1 [1] [0] [] [0] [] 1 ![1, 1]
  scatter_S100000x1_S500000x1_S500000x1_1_0_0_1_wf : ScatterDims.WF S100000x1 S500000x1 S500000x1 [1] [0] [0] 1
  scatter_S100000_S500000x1_S500000_n_0_0_1_wf : ScatterDims.WF S100000 S500000x1 S500000 [] [0] [0] 1
  dot_S100000x1_S1x128_S100000x128_1_0_0_1_n_n_wf : DotDims.WF S100000x1 S1x128 S100000x128 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []

variable [Facts₀]

def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf
def gather_S1024x1_S500000x1_S500000x1_1_0_n_n_0_1_11 : GatherDims S1024x1 S500000x1 S500000x1 where
  offsetDims := [1]
  collapsedSliceDims := [0]
  operandBatchingDims := []
  startIndicesBatchingDims := []
  startIndexMap := [0]
  indexVectorDim := 1
  sliceSizes := ![1, 1]
  wf := gather_S1024x1_S500000x1_S500000x1_1_0_n_n_0_1_11_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.Run.lean ====
/-
  The idealized kernel's run, with every buffer's final contents named.

  The program is four kernel regions among stretches of host operations. Its run is a fold: from the launch
  contents, each stretch of host operations applies its operations in order, and each region replaces its
  output array by what its grid points wrote back and leaves every other buffer as it found it. The fold's last
  stage gives the contents of every buffer that outlives the regions when the program returns. Every weakly fair
  execution terminates, faults nowhere, and ends with each such buffer at that stage's contents; in particular the
  returned array is the last stretch's reshape of the fourth region's output, and the argument arrays are what
  was launched, since no operation and no region writes them.
-/
import proofs.«138091_j59785944760477_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer that is not scoped to
    a region ends at the contents the fold's last stage gives it. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' initial element itself, and no ghost resource is dealt to a core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        -- the last stretch leaves the buffers, the generator register and the empty debt: regroup them
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      -- at launch a core holds its unscoped buffers at the launch memory, its generator register, and owes nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      -- holding every unscoped buffer at the last stage's contents, the final state's memory agrees with them
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The same run read at the buffers the claims speak of: the returned array at the fold's last stage, and every
    argument array as launched. -/
theorem run_result : θ_run defs (onTc (τ := τ) (main (F := F))) ⟨m, fun _ => 0, ρ⟩ (fun r => ∀ c : Dev nD,
      r.2.mem ((c.tc : Thread nD τ).loc main_v102) = W15 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨h c _ (mem_uc main_v102 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c),
     (h c _ (mem_uc main_arg17 (by decide))).trans (W15_main_arg17 m ρ c),
     (h c _ (mem_uc main_arg18 (by decide))).trans (W15_main_arg18 m ρ c),
     (h c _ (mem_uc main_arg19 (by decide))).trans (W15_main_arg19 m ρ c),
     (h c _ (mem_uc main_arg20 (by decide))).trans (W15_main_arg20 m ρ c),
     (h c _ (mem_uc main_arg21 (by decide))).trans (W15_main_arg21 m ρ c)⟩) (run_all m ρ)

end Cert.KernelIdeal.Run

end
-- ==== Proof.FoldBase.lean ====
/-
  Names for the fold through the idealized kernel's run.

  `A m c k` is the launch contents of buffer `k` on core `c`: for an argument of the program, the argument array
  itself. The stages of the fold (the buffer contents at each boundary between a stretch of host operations and a
  kernel region) are read back to these.
-/
import proofs.«138091_j59785944760477_2_alg».proof.Proof.Gen.KernelIdeal.Frame
import Idealize.ShloMosaic.PureOps.Ideal

noncomputable section

namespace Cert.KernelIdeal.Fold

open Cert.KernelIdeal Idealize.ShloMosaic Idealize.ShloMosaic.TcCoe Idealize.SL.Sem

/-- The launch contents of buffer `k` on core `c`. -/
abbrev A (m : (ℓ : Loc nD τ sig) → Buf (Elt Ideal) ℓ) (c : Dev nD) (k : Ref sig .tc) :
    Buf (Elt Ideal) ((c.tc : Thread nD τ).loc k) := m ((c.tc : Thread nD τ).loc k)

end Cert.KernelIdeal.Fold

end
-- ==== Proof.Layers.lean ====
/-
  The layers of the network, as index-by-index functions of whole arrays on the extended reals.

  Three shapes of layer occur. With M the number of rows (graph nodes, or edges for the decoder):

    rank1Dense  : entry (r, q) = max ( (a(r,0) · u(0,q) + Σ_k x(r,k) · w(q,k)) + b(0,q) ) 0
        a one-column aggregate a times a weight row u (a rank-one outer product), plus a dense branch x·wᵀ, plus a
        bias row, rectified;
    hidden2     : entry (r, q) = max ( ((Σ_k a(r,k) · wl(q,k)) + (Σ_k x(r,k) · wr(q,k))) + b(0,q) ) 0
        two dense branches a·wlᵀ + x·wrᵀ plus a bias row, rectified;
    proj        : entry (r, q) = (Σ_j h(r,j) · w(q,j)) + b(0,q)
        one dense layer h·wᵀ plus a bias row, not rectified.

  Every row of a result depends on the same row of the row-indexed operands alone, which is what lets a program
  compute it block of rows by block of rows. The weights are indexed (output feature, input feature), as the
  network stores them: the transposes the programs apply are absorbed in the index order here. Only sums, products
  and maxima of extended reals occur; nothing is assumed finite.
-/
import Idealize.ShloMosaic.Lib.ValueIdx
import Idealize.ShloMosaic.PureOps.Ideal

noncomputable section

namespace Cert.Layers

open Idealize.ShloMosaic Idealize.ShloMosaic.ValueIdx

/-- A one-column aggregate times a weight row, plus a dense branch, plus a bias row, rectified. -/
def rank1Dense (M K : Nat)
    (a : (⟨2, ![M, 1]⟩ : Shape).Idx → EReal) (x : (⟨2, ![M, K]⟩ : Shape).Idx → EReal)
    (u : (⟨2, ![1, 128]⟩ : Shape).Idx → EReal) (w : (⟨2, ![128, K]⟩ : Shape).Idx → EReal)
    (b : (⟨2, ![1, 128]⟩ : Shape).Idx → EReal) : (⟨2, ![M, 128]⟩ : Shape).Idx → EReal :=
  fun i => max ((a (ix2 (i 0) (0 : Fin 1)) * u (ix2 (0 : Fin 1) (i 1))
      + ∑ k : Fin K, x (ix2 (i 0) k) * w (ix2 (i 1) k)) + b (ix2 (0 : Fin 1) (i 1))) 0

/-- Two dense branches plus a bias row, rectified. -/
def hidden2 (M Ka Kb : Nat)
    (a : (⟨2, ![M, Ka]⟩ : Shape).Idx → EReal) (x : (⟨2, ![M, Kb]⟩ : Shape).Idx → EReal)
    (wl : (⟨2, ![128, Ka]⟩ : Shape).Idx → EReal) (wr : (⟨2, ![128, Kb]⟩ : Shape).Idx → EReal)
    (b : (⟨2, ![1, 128]⟩ : Shape).Idx → EReal) : (⟨2, ![M, 128]⟩ : Shape).Idx → EReal :=
  fun i => max (((∑ k : Fin Ka, a (ix2 (i 0) k) * wl (ix2 (i 1) k))
      + ∑ k : Fin Kb, x (ix2 (i 0) k) * wr (ix2 (i 1) k)) + b (ix2 (0 : Fin 1) (i 1))) 0

/-- One dense layer plus a bias row. -/
def proj (M N : Nat)
    (h : (⟨2, ![M, 128]⟩ : Shape).Idx → EReal) (w : (⟨2, ![N, 128]⟩ : Shape).Idx → EReal)
    (b : (⟨2, ![1, N]⟩ : Shape).Idx → EReal) : (⟨2, ![M, N]⟩ : Shape).Idx → EReal :=
  fun i => (∑ j : Fin 128, h (ix2 (i 0) j) * w (ix2 (i 1) j)) + b (ix2 (0 : Fin 1) (i 1))

theorem rank1Dense_ix2 (M K : Nat) (a x u w b) (r : Fin M) (q : Fin 128) :
    rank1Dense M K a x u w b (ix2 r q)
      = max ((a (ix2 r (0 : Fin 1)) * u (ix2 (0 : Fin 1) q) + ∑ k : Fin K, x (ix2 r k) * w (ix2 q k))
          + b (ix2 (0 : Fin 1) q)) 0 := rfl

theorem hidden2_ix2 (M Ka Kb : Nat) (a x wl wr b) (r : Fin M) (q : Fin 128) :
    hidden2 M Ka Kb a x wl wr b (ix2 r q)
      = max (((∑ k : Fin Ka, a (ix2 r k) * wl (ix2 q k)) + ∑ k : Fin Kb, x (ix2 r k) * wr (ix2 q k))
          + b (ix2 (0 : Fin 1) q)) 0 := rfl

theorem proj_ix2 (M N : Nat) (h w b) (r : Fin M) (q : Fin N) :
    proj M N h w b (ix2 r q) = (∑ j : Fin 128, h (ix2 r j) * w (ix2 q j)) + b (ix2 (0 : Fin 1) q) := rfl

end Cert.Layers

end
-- ==== Proof.Region0.lean ====
/-
  The first layer of the network, computed block of rows by block of rows, is the layer on the whole arrays.

  The layer is  out(r, q) = max ( (a(r,0) · u(0,q) + Σ_k x(r,k) · w(q,k)) + b(0,q) ) 0  where a is one
  column of 100000 rows, x is 100000 rows by 256, u and b are rows of 128 entries and w is 128 rows by 256. The program cuts the rows into
  20 blocks of 5000 and, on block t, forms the same expression from rows 5000·t … 5000·t + 4999 of a and x and from
  all of u, w and b: the outer product a ⊗ u by two broadcasts and an entrywise product, the dense branch as the
  matrix product of the block of x with the transpose of w, the bias by a row broadcast, and the maximum with zero.
  Three steps: the block's arithmetic read at one entry (p, q) is the expression above over the block's rows; row p of
  block t is row 5000·t + p of the arrays, so what block t writes is rows 5000·t … of the layer; every row r lies in
  block r / 5000, so the blocks written fill the result. Only sums, products and maxima of extended reals occur and
  nothing is assumed finite.
-/
import proofs.«138091_j59785944760477_2_alg».proof.Proof.Gen.KernelIdeal.Frame
import proofs.«138091_j59785944760477_2_alg».proof.Proof.Layers
import Idealize.ShloMosaic.Lib.StackMember
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The block's arithmetic at one entry -/

/-- A column of shape [a,1] broadcast along the columns of [a,b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction the block's product is taken along: the columns of the left factor against the rows of the
    right one, nothing batched. -/
theorem dot_eq_plain : dot_S5000x256_S256x128_S5000x128_1_0_0_1_n_n = DotDims.plain 5000 256 128 := rfl

/-- The product of a 5000×256 by a 256×128 matrix added to the zero block, at entry (p, q): the sum over the
    contracted coordinate of the products of the entries. -/
theorem matmul_entry (A : FVec Ideal S5000x256 .bf16) (B : FVec Ideal S256x128 .bf16) (p : Fin 5000) (q : Fin 128) :
    matmul dot_S5000x256_S256x128_S5000x128_1_0_0_1_n_n none A B (constant (F := Ideal) S5000x128 .f32 0x00000000#32) (ix2 p q)
      = ∑ k : Fin 256, A (ix2 p k) * B (ix2 k q) := by
  rw [dot_eq_plain, matmul_zero_eq_dotGeneral, StackMember.dotGeneral_plain_apply]

/-- The dense weight transposed inside the body, at entry (k, q): the weight as stored, at (q, k). -/
theorem transpose_entry (W : FVec Ideal S128x256 .bf16) (k : Fin 256) (q : Fin 128) :
    transpose S256x128 [1, 0] W transposes_S128x256_p1_0_S256x128 (ix2 k q) = W (ix2 q k) :=
  transpose_ix2_apply W transposes_S128x256_p1_0_S256x128 k q

/-- The float zero the rectifier compares with is the extended real zero. -/
theorem zero_word : Scalar.ofBits (F := Ideal) .f32 0x00000000#32 = (0 : EReal) := Ideal.ofBits_zero_f32

/-- What the body stores, at entry (p, q), from the five blocks it loads: x0 the column block, x1 the dense
    branch's block, x2 the weight row, x3 the dense weight (stored output feature by input feature), x4 the bias
    row. -/
theorem payload_entry (x0 : Vec Ideal S5000x1 .f32) (x1 : Vec Ideal S5000x256 .f32) (x2 : Vec Ideal S1x128 .f32)
    (x3 : Vec Ideal S128x256 .f32) (x4 : Vec Ideal S1x128 .f32) (p : Fin 5000) (q : Fin 128) :
    k0_pay1 (F := Ideal) x1 x3 x0 x2 x4 (ix2 p q)
      = max ((x0 (ix2 p (0 : Fin 1)) * x2 (ix2 (0 : Fin 1) q) + ∑ k : Fin 256, x1 (ix2 p k) * x3 (ix2 q k))
          + x4 (ix2 (0 : Fin 1) q)) 0 := by
  unfold k0_pay1
  simp only [maximumf_apply, addf_apply, mulf_apply, broadcast_apply, broadcastTo_a1_ab_apply, broadcastTo_1b_ab_apply,
    shapeCast_self, matmul_entry, truncf_apply, zero_word]
  refine congrArg (fun s => max ((x0 (ix2 p (0 : Fin 1)) * x2 (ix2 (0 : Fin 1) q) + s) + x4 (ix2 (0 : Fin 1) q)) 0) ?_
  exact Finset.sum_congr rfl fun k _ => congrArg (x1 (ix2 p k) * ·) (transpose_entry _ k q)

/-! ## A block of rows of the layer -/

/-- The block's arithmetic on rows T·5000 … T·5000 + 4999 of the column a and of the matrix x, and on all of u, w and
    b, is those rows of the layer: entry j of the block is entry i of the layer whenever i's row is row (j 0) of
    block T and the columns agree. -/
theorem block_entry (x0 : Vec Ideal S5000x1 .f32) (x1 : Vec Ideal S5000x256 .f32) (x2 : Vec Ideal S1x128 .f32)
    (x3 : Vec Ideal S128x256 .f32) (x4 : Vec Ideal S1x128 .f32)
    (a : S100000x1.Idx → EReal) (x : S100000x256.Idx → EReal) (u : S1x128.Idx → EReal) (w : S128x256.Idx → EReal)
    (b : S1x128.Idx → EReal) (T : Nat)
    (h0 : ∀ (y : S5000x1.Idx) (k : S100000x1.Idx), (k 0).val = T * 5000 + (y 0).val → x0 y = a k)
    (h1 : ∀ (y : S5000x256.Idx) (k : S100000x256.Idx), (k 0).val = T * 5000 + (y 0).val → (k 1).val = (y 1).val →
      x1 y = x k)
    (h2 : x2 = u) (h3 : x3 = w) (h4 : x4 = b)
    (j : S5000x128.Idx) (i : S100000x128.Idx) (hi0 : (i 0).val = T * 5000 + (j 0).val) (hi1 : (i 1).val = (j 1).val) :
    k0_pay1 (F := Ideal) x1 x3 x0 x2 x4 j = Cert.Layers.rank1Dense 100000 256 a x u w b i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hr : r.val = T * 5000 + p.val := hi0
  obtain rfl : q = q' := Fin.ext hi1.symm
  subst h2 h3 h4
  rw [payload_entry, Cert.Layers.rank1Dense_ix2, h0 (ix2 p (0 : Fin 1)) (ix2 r (0 : Fin 1)) hr]
  refine congrArg (fun s => max ((a (ix2 r (0 : Fin 1)) * x2 (ix2 (0 : Fin 1) q) + s) + x4 (ix2 (0 : Fin 1) q)) 0) ?_
  exact Finset.sum_congr rfl fun k _ => congrArg (· * x3 (ix2 q k)) (h1 (ix2 p k) (ix2 r k) hr rfl)

/-! ## Each window's block at a grid point, read off its whole array -/

/-- The zero offsets every whole-buffer load and store is taken at. -/
theorem hz : (![0, 0] : Fin 2 → Nat) = fun _ => 0 := funext fun a => by fin_cases a <;> rfl

/-- The index maps, decided over the 20 grid points: the column, the dense branch's operand and the result move
    one block of rows per point; the weight row, the dense weight and the bias row stay at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row p of the column's block at point t is row t·5000 + p of the column. -/
theorem column_block (c : Dev nD) (t : Fin cfg0.N) (y : S5000x1.Idx) (k : S100000x1.Idx)
    (hk : (k 0).val = t.val * 5000 + (y 0).val) :
    (iblk0 V c 0 t : Vec Ideal S5000x1 .f32) y = (V c main_v25 : S100000x1.Idx → EReal) k := by
  obtain ⟨e0, e1, -⟩ := index_facts t
  show (V c main_v25 : S100000x1.Idx → EReal) (((cfg0.win 0).blk t).view.emb y) = _
  refine congrArg _ (funext fun ax => Fin.ext ?_)
  have hy : (y 1).val < 1 := (y 1).isLt
  have hk1 : (k 1).val < 1 := (k 1).isLt
  match ax with
  | ⟨0, _⟩ => show win0_0.index t (0 : Fin 2) * 5000 + 1 * (y 0).val = (k 0).val; omega
  | ⟨1, _⟩ => show win0_0.index t (1 : Fin 2) * 1 + 1 * (y 1).val = (k 1).val; omega

/-- Row p of the dense branch's operand block at point t is row t·5000 + p of the operand. -/
theorem operand_block (c : Dev nD) (t : Fin cfg0.N) (y : S5000x256.Idx) (k : S100000x256.Idx)
    (hk0 : (k 0).val = t.val * 5000 + (y 0).val) (hk1 : (k 1).val = (y 1).val) :
    (iblk0 V c 1 t : Vec Ideal S5000x256 .f32) y = (V c main_arg1 : S100000x256.Idx → EReal) k := by
  obtain ⟨-, -, e0, e1, -⟩ := index_facts t
  show (V c main_arg1 : S100000x256.Idx → EReal) (((cfg0.win 1).blk t).view.emb y) = _
  refine congrArg _ (funext fun ax => Fin.ext ?_)
  match ax with
  | ⟨0, _⟩ => show win0_1.index t (0 : Fin 2) * 5000 + 1 * (y 0).val = (k 0).val; omega
  | ⟨1, _⟩ => show win0_1.index t (1 : Fin 2) * 256 + 1 * (y 1).val = (k 1).val; omega

/-- The weight row's block at every point is the whole row. -/
theorem weightRow_block (c : Dev nD) (t : Fin cfg0.N) :
    (iblk0 V c 2 t : Vec Ideal S1x128 .f32) = (V c main_v27 : S1x128.Idx → EReal) := by
  obtain ⟨-, -, -, -, e0, e1, -⟩ := index_facts t
  funext y
  show (V c main_v27 : S1x128.Idx → EReal) (((cfg0.win 2).blk t).view.emb y) = _
  refine congrArg _ (funext fun ax => Fin.ext ?_)
  match ax with
  | ⟨0, _⟩ => show win0_2.index t (0 : Fin 2) * 1 + 1 * (y 0).val = (y 0).val; omega
  | ⟨1, _⟩ => show win0_2.index t (1 : Fin 2) * 128 + 1 * (y 1).val = (y 1).val; omega

/-- The dense weight's block at every point is the whole weight. -/
theorem weight_block (c : Dev nD) (t : Fin cfg0.N) :
    (iblk0 V c 3 t : Vec Ideal S128x256 .f32) = (V c main_arg9 : S128x256.Idx → EReal) := by
  obtain ⟨-, -, -, -, -, -, e0, e1, -⟩ := index_facts t
  funext y
  show (V c main_arg9 : S128x256.Idx → EReal) (((cfg0.win 3).blk t).view.emb y) = _
  refine congrArg _ (funext fun ax => Fin.ext ?_)
  match ax with
  | ⟨0, _⟩ => show win0_3.index t (0 : Fin 2) * 128 + 1 * (y 0).val = (y 0).val; omega
  | ⟨1, _⟩ => show win0_3.index t (1 : Fin 2) * 256 + 1 * (y 1).val = (y 1).val; omega

/-- The bias row's block at every point is the whole row. -/
theorem bias_block (c : Dev nD) (t : Fin cfg0.N) :
    (iblk0 V c 4 t : Vec Ideal S1x128 .f32) = (V c main_v26 : S1x128.Idx → EReal) := by
  obtain ⟨-, -, -, -, -, -, -, -, e0, e1, -⟩ := index_facts t
  funext y
  show (V c main_v26 : S1x128.Idx → EReal) (((cfg0.win 4).blk t).view.emb y) = _
  refine congrArg _ (funext fun ax => Fin.ext ?_)
  match ax with
  | ⟨0, _⟩ => show win0_4.index t (0 : Fin 2) * 1 + 1 * (y 0).val = (y 0).val; omega
  | ⟨1, _⟩ => show win0_4.index t (1 : Fin 2) * 128 + 1 * (y 1).val = (y 1).val; omega

/-! ## What each point writes back, the cover, and the array after the run -/

/-- What point t writes back is rows t·5000 … t·5000 + 4999 of the layer on the whole arrays. -/
theorem written_block (c : Dev nD) (t : Fin cfg0.N) :
    (dat0 V c).flushed 5 t = ((cfg0.win 5).blk t).view.read (Elt Ideal)
      (Cert.Layers.rank1Dense 100000 256 (V c main_v25) (V c main_arg1) (V c main_v27) (V c main_arg9) (V c main_v26)) := by
  show (cfg0.win 5).cut (grid0.coords t) ((dat0 V c).after 5 t) = _
  rw [after0_5]
  unfold out0_5
  rw [View.canon_unit_zero hz]
  simp only [View.ld_unit_zero (S := S5000x256) hz, View.ld_unit_zero (S := S128x256) hz,
    View.ld_unit_zero (S := S5000x1) hz, View.ld_unit_zero (S := S1x128) hz]
  obtain ⟨-, -, -, -, -, -, -, -, -, -, e0, e1⟩ := index_facts t
  funext j
  show k0_pay1 (F := Ideal) (iblk0 V c 1 t) (iblk0 V c 3 t) (iblk0 V c 0 t) (iblk0 V c 2 t) (iblk0 V c 4 t) j
    = Cert.Layers.rank1Dense 100000 256 (V c main_v25) (V c main_arg1) (V c main_v27) (V c main_arg9) (V c main_v26)
        (((cfg0.win 5).blk t).view.emb j)
  refine block_entry (iblk0 V c 0 t) (iblk0 V c 1 t) (iblk0 V c 2 t) (iblk0 V c 3 t) (iblk0 V c 4 t)
    (V c main_v25) (V c main_arg1) (V c main_v27) (V c main_arg9) (V c main_v26) t.val
    (fun y k hk => column_block V c t y k hk) (fun y k hk0 hk1 => operand_block V c t y k hk0 hk1)
    (weightRow_block V c t) (weight_block V c t) (bias_block V c t) j _ ?_ ?_
  · show win0_5.index t (0 : Fin 2) * 5000 + 1 * (j 0).val = t.val * 5000 + (j 0).val; omega
  · show win0_5.index t (1 : Fin 2) * 128 + 1 * (j 1).val = (j 1).val; omega

/-- An entry of the result is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- Row r of the result is in the block of point r / 5000, and every point writes its block back. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := index_facts t
  refine ⟨t, flush0_5 t, ?_⟩
  rw [mem_block]
  intro ax
  match ax with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- The result array after the region's 20 points: the layer on the whole arrays as the region finds them. -/
theorem arr (c : Dev nD) :
    (Gen.dat0 (F := Ideal) V c).arrAt 5 cfg0.N
      = Cert.Layers.rank1Dense 100000 256 (V c main_v25) (V c main_arg1) (V c main_v27) (V c main_arg9) (V c main_v26) :=
  (dat0 V c).arrAt_eq_of_cover 5 _ (fun t _ => written_block V c t) covered

end Cert.KernelIdeal.Region0

end
-- ==== Proof.RefLayers12.lean ====
/-
  The first two layers of the reference network are the rank-one-plus-dense layer of the specification.

  Each of the two layers of the reference computes, at row r and feature q,

      max ( ((a(r,0) · Wl(q,0) + bl(q)) + Σ_k x(r,k) · Wr(q,k)) , 0 ),

  one array operation at a time: the column weight Wl [128,1] transposed to a row and contracted with the one-column
  aggregate a [M,1] over an axis of extent one (a one-term sum); the bias vector bl broadcast to a row and then down
  the rows; the dense weight Wr [128,K] transposed and contracted with x over K terms; the two additions; the maximum
  with the zero array. The specification's layer groups the same three summands as (a·u + Σ) + b, with the weight row u
  and the bias row b given as [1,128] arrays that agree with Wl and bl entry by entry. The two groupings differ by
  commutativity and associativity of addition on the extended reals, which hold with no finiteness assumption.

  Layer 1 has x the input features (K = 256); layer 2 has x the result of layer 1 (K = 128).
-/
import proofs.«138091_j59785944760477_2_alg».proof.Proof.Gen.ReferenceIdeal.Read
import proofs.«138091_j59785944760477_2_alg».proof.Proof.Layers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefLayers12

open Cert.ReferenceIdeal Idealize.ShloMosaic Idealize.ShloMosaic.ValueIdx

/-! ## Where each operation of the two layers reads its operands, at an index given by its coordinates

  A contraction's result at (r, q) reads its left operand at (r, k) and its right operand at (k, q); a transpose's result
  at (k, q) reads (q, k); the bias row repeated down the rows reads (0, q) at (r, q); the bias vector made a row reads q
  at (z, q). -/

theorem lidx_col1 (r : Fin 100000) (q : Fin 128) (k : Fin 1) : Read.lidx_main_v27 (ix2 r q) k = ix2 r k :=
  funext fun a => by match a with | ⟨0, _⟩ => rfl | ⟨1, _⟩ => rfl

theorem ridx_col1 (r : Fin 100000) (q : Fin 128) (k : Fin 1) : Read.ridx_main_v27 (ix2 r q) k = ix2 k q :=
  funext fun a => by match a with | ⟨0, _⟩ => rfl | ⟨1, _⟩ => rfl

theorem idx_tcol1 (k : Fin 1) (q : Fin 128) : Read.idx_main_v26 (ix2 k q) = ix2 q k :=
  funext fun a => by match a with | ⟨0, _⟩ => rfl | ⟨1, _⟩ => rfl

theorem idx_rows1 (r : Fin 100000) (q : Fin 128) : Read.idx_main_v29 (ix2 r q) = ix2 (0 : Fin 1) q :=
  funext fun a => by match a with | ⟨0, _⟩ => rfl | ⟨1, _⟩ => rfl

theorem idx_row1 (z : Fin 1) (q : Fin 128) : Read.idx_main_v28 (ix2 z q) = ix1 q :=
  funext fun a => by match a with | ⟨0, _⟩ => rfl

theorem lidx_dense1 (r : Fin 100000) (q : Fin 128) (k : Fin 256) : Read.lidx_main_v32 (ix2 r q) k = ix2 r k :=
  funext fun a => by match a with | ⟨0, _⟩ => rfl | ⟨1, _⟩ => rfl

theorem ridx_dense1 (r : Fin 100000) (q : Fin 128) (k : Fin 256) : Read.ridx_main_v32 (ix2 r q) k = ix2 k q :=
  funext fun a => by match a with | ⟨0, _⟩ => rfl | ⟨1, _⟩ => rfl

theorem idx_tdense1 (k : Fin 256) (q : Fin 128) : Read.idx_main_v31 (ix2 k q) = ix2 q k :=
  funext fun a => by match a with | ⟨0, _⟩ => rfl | ⟨1, _⟩ => rfl

theorem lidx_col2 (r : Fin 100000) (q : Fin 128) (k : Fin 1) : Read.lidx_main_v57 (ix2 r q) k = ix2 r k :=
  funext fun a => by match a with | ⟨0, _⟩ => rfl | ⟨1, _⟩ => rfl

theorem ridx_col2 (r : Fin 100000) (q : Fin 128) (k : Fin 1) : Read.ridx_main_v57 (ix2 r q) k = ix2 k q :=
  funext fun a => by match a with | ⟨0, _⟩ => rfl | ⟨1, _⟩ => rfl

theorem idx_tcol2 (k : Fin 1) (q : Fin 128) : Read.idx_main_v56 (ix2 k q) = ix2 q k :=
  funext fun a => by match a with | ⟨0, _⟩ => rfl | ⟨1, _⟩ => rfl

theorem idx_rows2 (r : Fin 100000) (q : Fin 128) : Read.idx_main_v59 (ix2 r q) = ix2 (0 : Fin 1) q :=
  funext fun a => by match a with | ⟨0, _⟩ => rfl | ⟨1, _⟩ => rfl

theorem idx_row2 (z : Fin 1) (q : Fin 128) : Read.idx_main_v58 (ix2 z q) = ix1 q :=
  funext fun a => by match a with | ⟨0, _⟩ => rfl

theorem lidx_dense2 (r : Fin 100000) (q : Fin 128) (k : Fin 128) : Read.lidx_main_v62 (ix2 r q) k = ix2 r k :=
  funext fun a => by match a with | ⟨0, _⟩ => rfl | ⟨1, _⟩ => rfl

theorem ridx_dense2 (r : Fin 100000) (q : Fin 128) (k : Fin 128) : Read.ridx_main_v62 (ix2 r q) k = ix2 k q :=
  funext fun a => by match a with | ⟨0, _⟩ => rfl | ⟨1, _⟩ => rfl

theorem idx_tdense2 (k : Fin 128) (q : Fin 128) : Read.idx_main_v61 (ix2 k q) = ix2 q k :=
  funext fun a => by match a with | ⟨0, _⟩ => rfl | ⟨1, _⟩ => rfl

/-! ## Layer 1 -/

/-- The reference's first layer is the specification's rank-one-plus-dense layer of the first one-column aggregate and
    the input features. -/
theorem layer1 (x0 : (⟨S1x4096, .f32⟩ : BufTy).Contents (Elt Ideal)) (x1 : (⟨S100000x256, .f32⟩ : BufTy).Contents (Elt Ideal))
    (x2 : (⟨S2x500000, .i32⟩ : BufTy).Contents (Elt Ideal)) (x5 : (⟨S1024x4096, .f32⟩ : BufTy).Contents (Elt Ideal))
    (x6 : (⟨S1024, .f32⟩ : BufTy).Contents (Elt Ideal)) (x7 : (⟨S128x1, .f32⟩ : BufTy).Contents (Elt Ideal))
    (x8 : (⟨S128, .f32⟩ : BufTy).Contents (Elt Ideal)) (x9 : (⟨S128x256, .f32⟩ : BufTy).Contents (Elt Ideal))
    (u b : S1x128.Idx → EReal)
    (hu : ∀ q : Fin 128, u (ix2 (0 : Fin 1) q) = x7 (ix2 q (0 : Fin 1)))
    (hb : ∀ q : Fin 128, b (ix2 (0 : Fin 1) q) = x8 (ix1 q)) :
    Read.val_main_v34 (F := Ideal) x0 x1 x2 x5 x6 x7 x8 x9
      = Cert.Layers.rank1Dense 100000 256 (Read.val_main_v25 (F := Ideal) x0 x2 x5 x6) x1 u x9 b := by
  funext i
  obtain ⟨r, q, rfl⟩ : ∃ (r : Fin 100000) (q : Fin 128), i = ix2 r q := ⟨i 0, i 1, eq_ix2 i⟩
  rw [Cert.Layers.rank1Dense_ix2, hu q, hb q]
  -- the dense branch: Σ_k x(r,k) · Wr(q,k)
  have hdense : Read.val_main_v32 (F := Ideal) x1 x9 (ix2 r q) = ∑ k : Fin 256, x1 (ix2 r k) * x9 (ix2 q k) := by
    rw [Read.val_main_v32_apply]
    refine Finset.sum_congr rfl fun k _ => ?_
    rw [Read.val_main_v31_apply, lidx_dense1, ridx_dense1, idx_tdense1]
  -- the rank-one branch: the one-term sum a(r,0) · Wl(q,0)
  have hcol : Read.val_main_v27 (F := Ideal) x0 x2 x5 x6 x7 (ix2 r q)
      = Read.val_main_v25 (F := Ideal) x0 x2 x5 x6 (ix2 r (0 : Fin 1)) * x7 (ix2 q (0 : Fin 1)) := by
    rw [Read.val_main_v27_apply, Fin.sum_univ_one, Read.val_main_v26_apply, lidx_col1, ridx_col1, idx_tcol1]
  -- the bias: bl(q)
  have hbias : Read.val_main_v29 (F := Ideal) x8 (ix2 r q) = x8 (ix1 q) := by
    rw [Read.val_main_v29_apply, Read.val_main_v28_apply, idx_rows1, idx_row1]
  -- the rectifier's constant is the zero word
  have hzero : Read.val_main_call1_v0 (F := Ideal) (ix2 r q) = 0 := by
    rw [Read.val_main_call1_v0_apply, Read.val_main_call1_cst_apply, Ideal.ofBits_def, Ideal.ofBits_zero_f32]
  rw [Read.val_main_v34_apply, Read.val_main_v33_apply, Read.val_main_v30_apply, hdense, hcol, hbias, hzero,
    Ideal.maximumf_def, Ideal.addf_def, Ideal.addf_def, add_right_comm]

/-! ## Layer 2 -/

/-- The reference's second layer is the specification's rank-one-plus-dense layer of the second one-column aggregate and
    the first layer's result. -/
theorem layer2 (x0 : (⟨S1x4096, .f32⟩ : BufTy).Contents (Elt Ideal)) (x1 : (⟨S100000x256, .f32⟩ : BufTy).Contents (Elt Ideal))
    (x2 x3 : (⟨S2x500000, .i32⟩ : BufTy).Contents (Elt Ideal)) (x5 : (⟨S1024x4096, .f32⟩ : BufTy).Contents (Elt Ideal))
    (x6 : (⟨S1024, .f32⟩ : BufTy).Contents (Elt Ideal)) (x7 : (⟨S128x1, .f32⟩ : BufTy).Contents (Elt Ideal))
    (x8 : (⟨S128, .f32⟩ : BufTy).Contents (Elt Ideal)) (x9 : (⟨S128x256, .f32⟩ : BufTy).Contents (Elt Ideal))
    (x10 : (⟨S128x1, .f32⟩ : BufTy).Contents (Elt Ideal)) (x11 : (⟨S128, .f32⟩ : BufTy).Contents (Elt Ideal))
    (x12 : (⟨S128x128, .f32⟩ : BufTy).Contents (Elt Ideal))
    (u b : S1x128.Idx → EReal)
    (hu : ∀ q : Fin 128, u (ix2 (0 : Fin 1) q) = x10 (ix2 q (0 : Fin 1)))
    (hb : ∀ q : Fin 128, b (ix2 (0 : Fin 1) q) = x11 (ix1 q)) :
    Read.val_main_v64 (F := Ideal) x0 x1 x2 x3 x5 x6 x7 x8 x9 x10 x11 x12
      = Cert.Layers.rank1Dense 100000 128 (Read.val_main_v55 (F := Ideal) x0 x3 x5 x6)
          (Read.val_main_v34 (F := Ideal) x0 x1 x2 x5 x6 x7 x8 x9) u x12 b := by
  funext i
  obtain ⟨r, q, rfl⟩ : ∃ (r : Fin 100000) (q : Fin 128), i = ix2 r q := ⟨i 0, i 1, eq_ix2 i⟩
  rw [Cert.Layers.rank1Dense_ix2, hu q, hb q]
  -- the dense branch: Σ_k h(r,k) · Wr(q,k), over the first layer's result h
  have hdense : Read.val_main_v62 (F := Ideal) x0 x1 x2 x5 x6 x7 x8 x9 x12 (ix2 r q)
      = ∑ k : Fin 128, Read.val_main_v34 (F := Ideal) x0 x1 x2 x5 x6 x7 x8 x9 (ix2 r k) * x12 (ix2 q k) := by
    rw [Read.val_main_v62_apply]
    refine Finset.sum_congr rfl fun k _ => ?_
    rw [Read.val_main_v61_apply, lidx_dense2, ridx_dense2, idx_tdense2]
  -- the rank-one branch: the one-term sum a(r,0) · Wl(q,0)
  have hcol : Read.val_main_v57 (F := Ideal) x0 x3 x5 x6 x10 (ix2 r q)
      = Read.val_main_v55 (F := Ideal) x0 x3 x5 x6 (ix2 r (0 : Fin 1)) * x10 (ix2 q (0 : Fin 1)) := by
    rw [Read.val_main_v57_apply, Fin.sum_univ_one, Read.val_main_v56_apply, lidx_col2, ridx_col2, idx_tcol2]
  -- the bias: bl(q)
  have hbias : Read.val_main_v59 (F := Ideal) x11 (ix2 r q) = x11 (ix1 q) := by
    rw [Read.val_main_v59_apply, Read.val_main_v58_apply, idx_rows2, idx_row2]
  -- the rectifier's constant is the zero word
  have hzero : Read.val_main_call3_v0 (F := Ideal) (ix2 r q) = 0 := by
    rw [Read.val_main_call3_v0_apply, Read.val_main_call3_cst_apply, Ideal.ofBits_def, Ideal.ofBits_zero_f32]
  rw [Read.val_main_v64_apply, Read.val_main_v63_apply, Read.val_main_v60_apply, hdense, hcol, hbias, hzero,
    Ideal.maximumf_def, Ideal.addf_def, Ideal.addf_def, add_right_comm]

end Cert.ReferenceIdeal.RefLayers12

end
-- ==== Proof.Reads.lean ====
/-
  Three layout operations read at an index, for matrices with a unit axis and for column slices.

  A column [a,1] reshaped to a row [1,a] keeps its entries in order: the row's entry (0,q) is the column's entry
  (q,0), both at row-major position q. A slice of the columns o … o+n-1 of a matrix reads, at (j,k), the matrix at
  (j, o+k). A one-element vector reshaped to [1,1] reads its element.
-/
import Idealize.ShloMosaic.Lib.ValueIdx
import Idealize.ShloMosaic.Lib.ValueLayout
import Idealize.ShloMosaic.Lib.Pipeline.Value

noncomputable section

namespace Cert.Reads

open Idealize.ShloMosaic Idealize.ShloMosaic.ValueIdx

variable {α : Type}

/-- A column [a,1] cast to a row [1,a] reads, at (u,q), the column at (q,0). -/
theorem shapeCast_a1_1a_apply {a : ℕ} (x : (⟨2, ![a, 1]⟩ : Shape).Idx → α)
    (h : (⟨2, ![a, 1]⟩ : Shape).ShapeCasts ⟨2, ![1, a]⟩) (u : Fin 1) (q : Fin a) :
    shapeCast ⟨2, ![1, a]⟩ x h (ix2 u q) = x (ix2 q (0 : Fin 1)) :=
  shapeCast_apply x h _ _ (by
    have hu : u.val = 0 := by omega
    rw [Shape.rowMajor_val_two, Shape.rowMajor_val_two]
    show q.val * 1 + 0 = u.val * a + q.val
    rw [hu, Nat.zero_mul, Nat.zero_add, Nat.mul_one, Nat.add_zero])

/-- The columns o … o+n-1 of a matrix, read at (j,k), are the matrix at (j, o+k). -/
theorem slice_cols_apply {a b n : ℕ} (o : ℕ) (x : (⟨2, ![a, b]⟩ : Shape).Idx → α)
    (h : (⟨2, ![a, b]⟩ : Shape).Slices ![0, o] ⟨2, ![a, n]⟩) (j : Fin a) (k : Fin n) (k' : Fin b)
    (hk : k'.val = o + k.val) :
    extractStridedSlice ⟨2, ![a, n]⟩ ![0, o] x h (ix2 j k) = x (ix2 j k') :=
  extractStridedSlice_apply _ x h _ _ fun ax => by
    match ax with
    | ⟨0, _⟩ => show j.val = 0 + j.val; rw [Nat.zero_add]
    | ⟨1, _⟩ => exact hk

end Cert.Reads

end
-- ==== Proof.Stage0.lean ====
/-
  The first region's result is the reference's first layer.

  Before its first region the program computes, by host operations on its arguments, the one-column aggregate a (a
  gather of a projected table, its scatter-sum over the edges' targets, divided by the in-degree clipped below at
  one), and recasts the column weight [128,1] and the bias vector [128] as rows [1,128]; the region then writes the
  rank-one-plus-dense layer of a, the input features, those two rows and the dense weight. The host operations are the
  reference's own, in the reference's order, on the same arguments, so the aggregate the region reads IS the
  reference's aggregate; a column [128,1] recast as a row keeps its entries in order, and so does a vector recast as a
  row, so the two rows agree entry by entry with the weight column and the bias vector; and the reference's first layer
  is that same layer of the same operands. Hence the region's result is the reference's first layer.
-/
import proofs.«138091_j59785944760477_2_alg».proof.Proof.Gen.KernelIdeal.Frame
import proofs.«138091_j59785944760477_2_alg».proof.Proof.Gen.ReferenceIdeal.Read
import proofs.«138091_j59785944760477_2_alg».proof.Proof.FoldBase
import proofs.«138091_j59785944760477_2_alg».proof.Proof.Region0
import proofs.«138091_j59785944760477_2_alg».proof.Proof.RefLayers12
import proofs.«138091_j59785944760477_2_alg».proof.Proof.Reads
import Idealize.ShloMosaic.Lib.StableHlo.Run
import Idealize.ShloMosaic.Lib.ValueIdx
import Idealize.ShloMosaic.Lib.ValueLayout

set_option maxRecDepth 16384

noncomputable section

namespace Cert.KernelIdeal.Stage0

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx

/-! ## The first stretch of host operations, from the launch contents

  The scatter-sum of the gathered column, the in-degree count, and the constant one, each as the reference computes
  it from the arguments. -/

theorem w1_v18 (m : (ℓ : Loc nD τ sig) → Buf (Elt Ideal) ℓ) (ρ : Dev nD → PrngReg) (c : Dev nD) :
    W1 m ρ c (Proc.devRef .tc main_v18)
      = Cert.ReferenceIdeal.Read.val_main_v18 (F := Ideal) (A m c main_arg0) (A m c main_arg2) (A m c main_arg5)
          (A m c main_arg6) := by
  show StableHlo.after hostOps0 (W0 m ρ c) (Proc.devRef .tc main_v18) = _
  after_results_simp
  rfl

theorem w1_v22 (m : (ℓ : Loc nD τ sig) → Buf (Elt Ideal) ℓ) (ρ : Dev nD → PrngReg) (c : Dev nD) :
    W1 m ρ c (Proc.devRef .tc main_v22) = Cert.ReferenceIdeal.Read.val_main_v22 (F := Ideal) (A m c main_arg2) := by
  show StableHlo.after hostOps0 (W0 m ρ c) (Proc.devRef .tc main_v22) = _
  after_results_simp
  rfl

theorem w1_cst_3 (m : (ℓ : Loc nD τ sig) → Buf (Elt Ideal) ℓ) (ρ : Dev nD → PrngReg) (c : Dev nD) :
    W1 m ρ c (Proc.devRef .tc main_cst_3) = Cert.ReferenceIdeal.Read.val_main_cst_3 (F := Ideal) := by
  show StableHlo.after hostOps0 (W0 m ρ c) (Proc.devRef .tc main_cst_3) = _
  after_results_simp
  rfl

/-! ## The clip and the last stretch, from any contents -/

/-- The clip: the maximum of the constant, repeated along the rows, and the count. -/
theorem clip0 (Wp : Valuation τ sig (Elt Ideal)) :
    (StableHlo.after hostOps0_1 Wp (Proc.devRef .tc main_v23) : S100000.Idx → EReal)
      = maximumf (F := Ideal) (φ := .f32)
          (broadcastInDim S100000 ![] bcast_S_S100000 (Wp (Proc.devRef .tc main_cst_3) : S_.Idx → EReal))
          (Wp (Proc.devRef .tc main_v22) : S100000.Idx → EReal) := by
  after_results_simp; rfl

/-- The clip leaves the scatter-sum as it was. -/
theorem clip0_v18 (Wp : Valuation τ sig (Elt Ideal)) :
    StableHlo.after hostOps0_1 Wp (Proc.devRef .tc main_v18) = Wp (Proc.devRef .tc main_v18) := by
  after_results_simp

/-- The aggregate: the scatter-sum divided by the clipped count made a column. -/
theorem tail0_v25 (Wp : Valuation τ sig (Elt Ideal)) :
    (StableHlo.after hostOps0_2 Wp (Proc.devRef .tc main_v25) : S100000x1.Idx → EReal)
      = Host.divf (F := Ideal) (φ := .f32) (Wp (Proc.devRef .tc main_v18) : S100000x1.Idx → EReal)
          (broadcastInDim S100000x1 ![0] bcast_S100000_S100000x1_0
            (Wp (Proc.devRef .tc main_v23) : S100000.Idx → EReal)) := by
  after_results_simp

/-- The bias vector recast as a row. -/
theorem tail0_v26 (Wp : Valuation τ sig (Elt Ideal)) :
    (StableHlo.after hostOps0_2 Wp (Proc.devRef .tc main_v26) : S1x128.Idx → EReal)
      = shapeCast S1x128 (Wp (Proc.devRef .tc main_arg8) : S128.Idx → EReal) shapeCasts_S128_S1x128 := by
  after_results_simp; rfl

/-- The column weight recast as a row. -/
theorem tail0_v27 (Wp : Valuation τ sig (Elt Ideal)) :
    (StableHlo.after hostOps0_2 Wp (Proc.devRef .tc main_v27) : S1x128.Idx → EReal)
      = shapeCast S1x128 (Wp (Proc.devRef .tc main_arg7) : S128x1.Idx → EReal) shapeCasts_S128x1_S1x128 := by
  after_results_simp; rfl

/-- A buffer that none of the three stretches writes holds, at the region's entry, its launch contents. -/
theorem w3_arg (m : (ℓ : Loc nD τ sig) → Buf (Elt Ideal) ℓ) (ρ : Dev nD → PrngReg) (c : Dev nD) (k : Ref sig .tc)
    (h0 : ∀ Wp : Valuation τ sig (Elt Ideal), StableHlo.after hostOps0 Wp (Proc.devRef .tc k) = Wp (Proc.devRef .tc k))
    (h1 : ∀ Wp : Valuation τ sig (Elt Ideal), StableHlo.after hostOps0_1 Wp (Proc.devRef .tc k) = Wp (Proc.devRef .tc k))
    (h2 : ∀ Wp : Valuation τ sig (Elt Ideal), StableHlo.after hostOps0_2 Wp (Proc.devRef .tc k) = Wp (Proc.devRef .tc k)) :
    W3 m ρ c (Proc.devRef .tc k) = A m c k := by
  show StableHlo.after hostOps0_2 (StableHlo.after hostOps0_1 (StableHlo.after hostOps0 (W0 m ρ c)))
    (Proc.devRef .tc k) = _
  rw [h2, h1, h0]

/-! ## The region's five operands at its entry -/

theorem v3_arg1 (m : (ℓ : Loc nD τ sig) → Buf (Elt Ideal) ℓ) (ρ : Dev nD → PrngReg) (c : Dev nD) : V3 m ρ c main_arg1 = A m c main_arg1 :=
  w3_arg m ρ c main_arg1 (fun Wp => by after_results_simp) (fun Wp => by after_results_simp)
    (fun Wp => by after_results_simp)

theorem v3_arg9 (m : (ℓ : Loc nD τ sig) → Buf (Elt Ideal) ℓ) (ρ : Dev nD → PrngReg) (c : Dev nD) : V3 m ρ c main_arg9 = A m c main_arg9 :=
  w3_arg m ρ c main_arg9 (fun Wp => by after_results_simp) (fun Wp => by after_results_simp)
    (fun Wp => by after_results_simp)

theorem w2_arg7 (m : (ℓ : Loc nD τ sig) → Buf (Elt Ideal) ℓ) (ρ : Dev nD → PrngReg) (c : Dev nD) : W2 m ρ c (Proc.devRef .tc main_arg7) = A m c main_arg7 := by
  show StableHlo.after hostOps0_1 (StableHlo.after hostOps0 (W0 m ρ c)) (Proc.devRef .tc main_arg7) = _
  after_results_simp

theorem w2_arg8 (m : (ℓ : Loc nD τ sig) → Buf (Elt Ideal) ℓ) (ρ : Dev nD → PrngReg) (c : Dev nD) : W2 m ρ c (Proc.devRef .tc main_arg8) = A m c main_arg8 := by
  show StableHlo.after hostOps0_1 (StableHlo.after hostOps0 (W0 m ρ c)) (Proc.devRef .tc main_arg8) = _
  after_results_simp

theorem v3_v27 (m : (ℓ : Loc nD τ sig) → Buf (Elt Ideal) ℓ) (ρ : Dev nD → PrngReg) (c : Dev nD) :
    (V3 m ρ c main_v27 : S1x128.Idx → EReal)
      = shapeCast S1x128 (A m c main_arg7 : S128x1.Idx → EReal) shapeCasts_S128x1_S1x128 := by
  show (StableHlo.after hostOps0_2 (W2 m ρ c) (Proc.devRef .tc main_v27) : S1x128.Idx → EReal) = _
  rw [tail0_v27, w2_arg7]

theorem v3_v26 (m : (ℓ : Loc nD τ sig) → Buf (Elt Ideal) ℓ) (ρ : Dev nD → PrngReg) (c : Dev nD) :
    (V3 m ρ c main_v26 : S1x128.Idx → EReal)
      = shapeCast S1x128 (A m c main_arg8 : S128.Idx → EReal) shapeCasts_S128_S1x128 := by
  show (StableHlo.after hostOps0_2 (W2 m ρ c) (Proc.devRef .tc main_v26) : S1x128.Idx → EReal) = _
  rw [tail0_v26, w2_arg8]

/-- The aggregate the region reads is the reference's aggregate. -/
theorem v3_v25 (m : (ℓ : Loc nD τ sig) → Buf (Elt Ideal) ℓ) (ρ : Dev nD → PrngReg) (c : Dev nD) :
    (V3 m ρ c main_v25 : S100000x1.Idx → EReal)
      = Cert.ReferenceIdeal.Read.val_main_v25 (F := Ideal) (A m c main_arg0) (A m c main_arg2) (A m c main_arg5)
          (A m c main_arg6) := by
  show (StableHlo.after hostOps0_2 (StableHlo.after hostOps0_1 (W1 m ρ c)) (Proc.devRef .tc main_v25)
    : S100000x1.Idx → EReal) = _
  rw [tail0_v25, clip0_v18, clip0, w1_v18, w1_v22, w1_cst_3]
  rfl

/-! ## The region's result -/

/-- The first region leaves, in its output array, the reference's first layer of the arguments. -/
theorem out0 (m : (ℓ : Loc nD τ sig) → Buf (Elt Ideal) ℓ) (ρ : Dev nD → PrngReg) (c : Dev nD) :
    W4 m ρ c (Proc.devRef .tc main_v28)
      = Cert.ReferenceIdeal.Read.val_main_v34 (F := Ideal) (A m c main_arg0) (A m c main_arg1) (A m c main_arg2)
          (A m c main_arg5) (A m c main_arg6) (A m c main_arg7) (A m c main_arg8) (A m c main_arg9) := by
  refine (Gen.W4_arr m ρ c (5 : Fin cfg0.W)).trans ?_
  refine (Cert.KernelIdeal.Region0.arr (V3 m ρ) c).trans ?_
  rw [v3_v25, v3_arg1, v3_arg9, v3_v27, v3_v26]
  exact (Cert.ReferenceIdeal.RefLayers12.layer1 (A m c main_arg0) (A m c main_arg1) (A m c main_arg2)
    (A m c main_arg5) (A m c main_arg6) (A m c main_arg7) (A m c main_arg8) (A m c main_arg9) _ _
    (fun q => Cert.Reads.shapeCast_a1_1a_apply _ _ (0 : Fin 1) q)
    (fun q => shapeCast_a_1a_apply _ _ (0 : Fin 1) q)).symm

end Cert.KernelIdeal.Stage0

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.Region1.lean ====
/-
  The layer `Layers.rank1Dense` with a dense branch of 128 columns, as the tiled program computes it: block of rows
  by block of rows.

  The result has 100000 rows and 128 columns. The grid has 20 points; point t computes rows 5000·t … 5000·t + 4999
  from the same rows of the one-column operand a and of the dense operand x, and from the whole of the weight row u,
  the weight matrix w and the bias row b:

      entry (p, q) of the block = max ( (a(p,0) · u(0,q) + Σ_k x(p,k) · w(q,k)) + b(0,q) ) 0.

  The weight matrix is transposed inside the body before the product, so the sum runs over w's second coordinate.
  Changes of float format are the identity on the extended reals, and adding the product to a zero accumulator adds
  nothing. Every row of the result lies in the block of the point (row / 5000), so the blocks together are the whole
  array, which is therefore the layer's function of the five arrays.
-/
import proofs.«138091_j59785944760477_2_alg».proof.Proof.Gen.KernelIdeal.Frame
import proofs.«138091_j59785944760477_2_alg».proof.Proof.Layers
import proofs.«138091_j59785944760477_2_alg».proof.Proof.LibRowBlockDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Idealize.ShloMosaic Idealize.ShloMosaic.ValueIdx Idealize.ShloMosaic.TcCoe Idealize.SL.Sem
open Idealize.ShloMosaic.Pipeline (Dat)

/-! ## One block of rows, entry by entry -/

/-- A column [a,1] laid along every column of [a,b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The dense branch of a block: the block of features times the transposed weights, added to zero, is at (p, q)
    the sum over k of x(p,k) · w(q,k). -/
theorem dense_ix2 (x : FVec Ideal S5000x128 .f32) (w : FVec Ideal S128x128 .f32)
    (hc : S5000x128.ShapeCasts S5000x128) (hb : FTy.bits .bf16 < FTy.bits .f32)
    (ht : S128x128.Transposes [1, 0] S128x128) (p : Fin 5000) (q : Fin 128) :
    matmul dot_S5000x128_S128x128_S5000x128_1_0_0_1_n_n none (truncf .bf16 (shapeCast S5000x128 x hc) hb)
        (transpose S128x128 [1, 0] (truncf .bf16 w hb) ht) (constant (F := Ideal) S5000x128 .f32 0x00000000#32) (ix2 p q)
      = ∑ k : Fin 128, x (ix2 p k) * w (ix2 q k) := by
  show matmul (DotDims.plain 5000 128 128) none _ _ _ (ix2 p q) = _
  rw [matmul_zero_eq_dotGeneral, StackMember.dotGeneral_plain_apply]
  refine Finset.sum_congr rfl fun k _ => ?_
  rw [truncf_apply, shapeCast_self, transpose_ix2_apply, truncf_apply]

/-- What the body stores, at entry (p, q) of its block, from the five blocks it loads. -/
theorem payload_ix2 (x : Vec Ideal S5000x128 .f32) (w : Vec Ideal S128x128 .f32) (a : Vec Ideal S5000x1 .f32)
    (u : Vec Ideal S1x128 .f32) (b : Vec Ideal S1x128 .f32) (p : Fin 5000) (q : Fin 128) :
    Gen.k1_pay1 (F := Ideal) x w a u b (ix2 p q)
      = max ((a (ix2 p (0 : Fin 1)) * u (ix2 (0 : Fin 1) q) + ∑ k : Fin 128, x (ix2 p k) * w (ix2 q k))
          + b (ix2 (0 : Fin 1) q)) 0 := by
  unfold Gen.k1_pay1
  dsimp only
  rw [truncf_apply, maximumf_apply, broadcast_apply, addf_apply, addf_apply, mulf_apply, dense_ix2,
    broadcastTo_a1_ab_apply, broadcastTo_1b_ab_apply, broadcastTo_1b_ab_apply, shapeCast_self, shapeCast_self,
    shapeCast_self]
  show max _ (Ideal.ofBits .f32 0x00000000#32) = _
  rw [Ideal.ofBits_zero_f32]

/-- The same entry as the layer's function of the whole arrays, when the five blocks are rows
    5000·T … 5000·T + 4999 of the row-indexed arrays and the whole of the others. -/
theorem point_eq (a : S100000x1.Idx → EReal) (x : S100000x128.Idx → EReal) (u : S1x128.Idx → EReal)
    (w : S128x128.Idx → EReal) (b : S1x128.Idx → EReal)
    (x0 : Vec Ideal S5000x1 .f32) (x1 : Vec Ideal S5000x128 .f32) (x2 : Vec Ideal S1x128 .f32)
    (x3 : Vec Ideal S128x128 .f32) (x4 : Vec Ideal S1x128 .f32) (T : Nat)
    (h0 : ∀ (p : Fin 5000) (r : Fin 100000), r.val = T * 5000 + p.val → x0 (ix2 p (0 : Fin 1)) = a (ix2 r (0 : Fin 1)))
    (h1 : ∀ (p : Fin 5000) (r : Fin 100000) (k : Fin 128), r.val = T * 5000 + p.val → x1 (ix2 p k) = x (ix2 r k))
    (h2 : ∀ q : Fin 128, x2 (ix2 (0 : Fin 1) q) = u (ix2 (0 : Fin 1) q))
    (h3 : ∀ q k : Fin 128, x3 (ix2 q k) = w (ix2 q k))
    (h4 : ∀ q : Fin 128, x4 (ix2 (0 : Fin 1) q) = b (ix2 (0 : Fin 1) q))
    (j : S5000x128.Idx) (i : S100000x128.Idx)
    (hi0 : (i 0).val = T * 5000 + (j 0).val) (hi1 : (i 1).val = (j 1).val) :
    Gen.k1_pay1 (F := Ideal) x1 x3 x0 x2 x4 j = Cert.Layers.rank1Dense 100000 128 a x u w b i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hr : r.val = T * 5000 + p.val := hi0
  obtain rfl : q' = q := Fin.ext hi1
  rw [payload_ix2, Cert.Layers.rank1Dense_ix2, h0 p r hr, h2, h4]
  refine congrArg (fun s => max ((a (ix2 r (0 : Fin 1)) * u (ix2 (0 : Fin 1) q') + s) + b (ix2 (0 : Fin 1) q')) 0)
    (Finset.sum_congr rfl fun k _ => ?_)
  rw [h1 p r k hr, h3]

/-! ## From the blocks to the array -/

variable (V : (c : Dev nD) → (b : Ref sig .tc) → Buf (Elt Ideal) ((c : Thread nD τ).loc b))

/-- The layer's result as one function of the five arrays the region finds. -/
def layer (c : Dev nD) : S100000x128.Idx → EReal :=
  Cert.Layers.rank1Dense 100000 128 (V c main_v49) (V c main_v28) (V c main_v51) (V c main_arg12) (V c main_v50)

/-- It is `Layers.rank1Dense` of those five arrays. -/
theorem layer_eq (c : Dev nD) :
    layer V c
      = Cert.Layers.rank1Dense 100000 128 (V c main_v49) (V c main_v28) (V c main_v51) (V c main_arg12) (V c main_v50) :=
  rfl

attribute [irreducible] layer

/-- A block of a whole array, read through its rectangle, is the array at the rectangle's entries. -/
theorem read_whole_slice {Val : EltTy → Type} {κ : Kind} (b : Ref sig κ) (r : Rect b.ty.shape)
    (G : b.ty.Contents Val) (y : r.shape.Idx) : ((View.whole b).slice r).read Val G y = G (r.emb y) := rfl

/-- The zero offsets of a whole block. -/
theorem hz : (![0, 0] : Fin 2 → Nat) = fun _ => 0 := funext fun a => by fin_cases a <;> rfl

/-- Where each window's block sits at grid point t: the row-indexed arrays and the result at block row t, the weights
    and the bias rows at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point t writes back is block t of the layer's result. -/
theorem flushed_eq (c : Dev nD) (t : Fin cfg1.N) :
    (Gen.dat1 (F := Ideal) V c).flushed 5 t = ((cfg1.win 5).blk t).view.read (Elt Ideal) (layer V c) := by
  show (cfg1.win 5).cut (grid1.coords t) ((Gen.dat1 (F := Ideal) V c).after 5 t) = _
  rw [Gen.after1_5]
  unfold Gen.out1_5
  rw [View.canon_unit_zero hz]
  simp only [View.ld_unit_zero (S := S5000x128) hz, View.ld_unit_zero (S := S128x128) hz,
    View.ld_unit_zero (S := S5000x1) hz, View.ld_unit_zero (S := S1x128) hz]
  obtain ⟨e00, e01, e10, e11, e20, e21, e30, e31, e40, e41, e50, e51⟩ := idx_facts t
  funext j
  refine Eq.trans ?_ (read_whole_slice (Val := Elt Ideal) main_v52 (win1_5.rect t) (layer V c) j).symm
  rw [layer_eq]
  refine point_eq (V c main_v49) (V c main_v28) (V c main_v51) (V c main_arg12) (V c main_v50)
    (Gen.iblk1 V c 0 t) (Gen.iblk1 V c 1 t) (Gen.iblk1 V c 2 t) (Gen.iblk1 V c 3 t) (Gen.iblk1 V c 4 t) t.val
    ?_ ?_ ?_ ?_ ?_ ((cfg1.win 5).xinj (grid1.coords t) j) ((win1_5.rect t).emb j) ?_ ?_
  · intro p r hr
    show V c main_v49 (((cfg1.win 0).blk t).view.emb (ix2 p (0 : Fin 1))) = V c main_v49 (ix2 r (0 : Fin 1))
    refine congrArg (V c main_v49) (funext fun ax => Fin.ext ?_)
    match ax with
    | ⟨0, _⟩ => show win1_0.index t (0 : Fin 2) * 5000 + 1 * p.val = r.val; rw [e00, hr]; omega
    | ⟨1, _⟩ => show win1_0.index t (1 : Fin 2) * 1 + 1 * 0 = 0; rw [e01]
  · intro p r k hr
    show V c main_v28 (((cfg1.win 1).blk t).view.emb (ix2 p k)) = V c main_v28 (ix2 r k)
    refine congrArg (V c main_v28) (funext fun ax => Fin.ext ?_)
    match ax with
    | ⟨0, _⟩ => show win1_1.index t (0 : Fin 2) * 5000 + 1 * p.val = r.val; rw [e10, hr]; omega
    | ⟨1, _⟩ => show win1_1.index t (1 : Fin 2) * 128 + 1 * k.val = k.val; rw [e11]; omega
  · intro q
    show V c main_v51 (((cfg1.win 2).blk t).view.emb (ix2 (0 : Fin 1) q)) = V c main_v51 (ix2 (0 : Fin 1) q)
    refine congrArg (V c main_v51) (funext fun ax => Fin.ext ?_)
    match ax with
    | ⟨0, _⟩ => show win1_2.index t (0 : Fin 2) * 1 + 1 * 0 = 0; rw [e20]
    | ⟨1, _⟩ => show win1_2.index t (1 : Fin 2) * 128 + 1 * q.val = q.val; rw [e21]; omega
  · intro q k
    show V c main_arg12 (((cfg1.win 3).blk t).view.emb (ix2 q k)) = V c main_arg12 (ix2 q k)
    refine congrArg (V c main_arg12) (funext fun ax => Fin.ext ?_)
    match ax with
    | ⟨0, _⟩ => show win1_3.index t (0 : Fin 2) * 128 + 1 * q.val = q.val; rw [e30]; omega
    | ⟨1, _⟩ => show win1_3.index t (1 : Fin 2) * 128 + 1 * k.val = k.val; rw [e31]; omega
  · intro q
    show V c main_v50 (((cfg1.win 4).blk t).view.emb (ix2 (0 : Fin 1) q)) = V c main_v50 (ix2 (0 : Fin 1) q)
    refine congrArg (V c main_v50) (funext fun ax => Fin.ext ?_)
    match ax with
    | ⟨0, _⟩ => show win1_4.index t (0 : Fin 2) * 1 + 1 * 0 = 0; rw [e40]
    | ⟨1, _⟩ => show win1_4.index t (1 : Fin 2) * 128 + 1 * q.val = q.val; rw [e41]; omega
  · show win1_5.index t (0 : Fin 2) * 5000 + 1 * (j 0).val = t.val * 5000 + (j 0).val
    rw [e50]; omega
  · show win1_5.index t (1 : Fin 2) * 128 + 1 * (j 1).val = (j 1).val
    rw [e51]; omega

/-- An entry of the result is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v52).slice (win1_5.rect t)).set ↔ _
  rw [View.set_slice_whole, Rect.mem_set_unit]
  exact Iff.rfl

/-- Every entry of the result is in some point's block: row r in the block of point r / 5000. -/
theorem covered (i : S100000x128.Idx) :
    ∃ t : Fin cfg1.N, (cfg1.win 5).flush t = true ∧ i ∈ ((cfg1.win 5).blk t).view.set := by
  have hN : cfg1.N = 20 := Gen.N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, -, -, -, e50, e51⟩ := idx_facts t
  refine ⟨t, Gen.flush1_5 t, ?_⟩
  rw [mem_blk]
  intro ax
  match ax with
  | ⟨0, _⟩ =>
    show win1_5.index t (0 : Fin 2) * 5000 ≤ (i 0).val ∧ (i 0).val < win1_5.index t (0 : Fin 2) * 5000 + 5000
    rw [e50, ht]; omega
  | ⟨1, _⟩ =>
    show win1_5.index t (1 : Fin 2) * 128 ≤ (i 1).val ∧ (i 1).val < win1_5.index t (1 : Fin 2) * 128 + 128
    rw [e51]; omega

/-- The result array after the region is the layer's function of the five arrays the region finds. -/
theorem arr (c : Dev nD) :
    (Gen.dat1 (F := Ideal) V c).arrAt 5 cfg1.N
      = Cert.Layers.rank1Dense 100000 128 (V c main_v49) (V c main_v28) (V c main_v51) (V c main_arg12) (V c main_v50) := by
  rw [← layer_eq V c]
  exact (Gen.dat1 (F := Ideal) V c).arrAt_eq_of_cover 5 (layer V c) (fun t _ => flushed_eq V c t) covered

end Cert.KernelIdeal.Region1

end
-- ==== Proof.Stage1.lean ====
/-
  The second layer of the network, read off the idealized program's run.

  Between its first and second tiled layers the program prepares the second layer's operands with the reference's own
  array operations. From a table of 1024 entries (computed before the first layer) and an index array with two rows of
  500000 entries it gathers the table at the first row's indices, adds the gathered values up at the positions the
  second row names among 100000, counts how many land at each position, takes the maximum of the count with one and
  divides the sums by it: a one-column array a. It reshapes the layer's column weight [128,1] and its bias vector [128]
  to rows u, b of shape [1,128]; the dense operand is the first layer's result and the dense weight is the program's
  argument. The tiled layer then leaves `Layers.rank1Dense` of these five arrays in its result, and that is the
  reference's second layer, whose rank-one branch contracts a with the transposed column weight over an axis of extent
  one and whose bias is the bias vector laid along every row: the row u read at (0,q) is the column weight at (q,0),
  and the row b read at (0,q) is the bias vector at q.
-/
import proofs.«138091_j59785944760477_2_alg».proof.Proof.Gen.KernelIdeal.Frame
import proofs.«138091_j59785944760477_2_alg».proof.Proof.Gen.ReferenceIdeal.Read
import proofs.«138091_j59785944760477_2_alg».proof.Proof.FoldBase
import proofs.«138091_j59785944760477_2_alg».proof.Proof.Region1
import proofs.«138091_j59785944760477_2_alg».proof.Proof.RefLayers12
import proofs.«138091_j59785944760477_2_alg».proof.Proof.Reads
import Idealize.ShloMosaic.Lib.ValueIdx
import Idealize.ShloMosaic.Lib.ValueLayout

set_option maxRecDepth 16384

noncomputable section

namespace Cert.KernelIdeal.Stage1

open Cert.KernelIdeal Cert.KernelIdeal.Gen Cert.KernelIdeal.Fold
open Idealize.ShloMosaic Idealize.ShloMosaic.ValueIdx Idealize.ShloMosaic.TcCoe Idealize.SL.Sem Idealize.ShloMosaic.StableHlo

/-! ## The operations before the second tiled layer, over any contents of the buffers they read -/

/-- The constant one the count is compared with. -/
theorem one_eq (Wp : Valuation τ sig (Elt Ideal)) :
    (StableHlo.after hostOps1 Wp (Proc.devRef .tc main_cst_9) : S_.Idx → EReal)
      = Cert.ReferenceIdeal.Read.val_main_cst_9 (F := Ideal) := by
  after_results_simp; rfl

/-- How many of the 500000 entries land at each of the 100000 positions. -/
theorem count_eq (Wp : Valuation τ sig (Elt Ideal)) :
    (StableHlo.after hostOps1 Wp (Proc.devRef .tc main_v46) : S100000.Idx → EReal)
      = Cert.ReferenceIdeal.Read.val_main_v52 (F := Ideal)
          (Wp (Proc.devRef .tc main_arg3) : S2x500000.Idx → BitVec 32) := by
  after_results_simp; rfl

/-- The gathered table entries added up at each position. -/
theorem sum_eq (Wp : Valuation τ sig (Elt Ideal))
    (x0 : S1x4096.Idx → EReal) (x5 : S1024x4096.Idx → EReal) (x6 : S1024.Idx → EReal)
    (h4 : (Wp (Proc.devRef .tc main_v4) : S1024x1.Idx → EReal)
      = Cert.ReferenceIdeal.Read.val_main_v4 (F := Ideal) x0 x5 x6) :
    (StableHlo.after hostOps1 Wp (Proc.devRef .tc main_v42) : S100000x1.Idx → EReal)
      = Cert.ReferenceIdeal.Read.val_main_v48 (F := Ideal) x0
          (Wp (Proc.devRef .tc main_arg3) : S2x500000.Idx → BitVec 32) x5 x6 := by
  after_results_simp
  rw [h4]
  rfl

/-- The count, no smaller than one. -/
theorem clip_eq (Wp : Valuation τ sig (Elt Ideal)) :
    (StableHlo.after hostOps1_1 Wp (Proc.devRef .tc main_v47) : S100000.Idx → EReal)
      = maximumf (F := Ideal) (φ := .f32)
          (broadcastInDim S100000 ![] bcast_S_S100000 (Wp (Proc.devRef .tc main_cst_9) : S_.Idx → EReal))
          (Wp (Proc.devRef .tc main_v46) : S100000.Idx → EReal) := by
  after_results_simp; rfl

/-- Taking that maximum leaves the sum as it was. -/
theorem clip_sum (Wp : Valuation τ sig (Elt Ideal)) :
    StableHlo.after hostOps1_1 Wp (Proc.devRef .tc main_v42) = Wp (Proc.devRef .tc main_v42) := by
  after_results_simp

/-- The mean: the sum divided by the count laid out as a column. -/
theorem mean_eq (Wp : Valuation τ sig (Elt Ideal)) :
    (StableHlo.after hostOps1_2 Wp (Proc.devRef .tc main_v49) : S100000x1.Idx → EReal)
      = Host.divf (F := Ideal) (φ := .f32) (Wp (Proc.devRef .tc main_v42) : S100000x1.Idx → EReal)
          (broadcastInDim S100000x1 ![0] bcast_S100000_S100000x1_0
            (Wp (Proc.devRef .tc main_v47) : S100000.Idx → EReal)) := by
  after_results_simp

/-- The bias vector as a row. -/
theorem biasRow_eq (Wp : Valuation τ sig (Elt Ideal)) :
    (StableHlo.after hostOps1_2 Wp (Proc.devRef .tc main_v50) : S1x128.Idx → EReal)
      = shapeCast S1x128 (Wp (Proc.devRef .tc main_arg11) : S128.Idx → EReal) shapeCasts_S128_S1x128 := by
  after_results_simp; rfl

/-- The column weight as a row. -/
theorem weightRow_eq (Wp : Valuation τ sig (Elt Ideal)) :
    (StableHlo.after hostOps1_2 Wp (Proc.devRef .tc main_v51) : S1x128.Idx → EReal)
      = shapeCast S1x128 (Wp (Proc.devRef .tc main_arg10) : S128x1.Idx → EReal) shapeCasts_S128x1_S1x128 := by
  after_results_simp; rfl

/-- None of these operations writes the first layer's result, -/
theorem keep_v28 (Wp : Valuation τ sig (Elt Ideal)) :
    StableHlo.after hostOps1_2 (StableHlo.after hostOps1_1 (StableHlo.after hostOps1 Wp)) (Proc.devRef .tc main_v28)
      = Wp (Proc.devRef .tc main_v28) := by
  after_results_simp

/-- nor the dense weight, -/
theorem keep_arg12 (Wp : Valuation τ sig (Elt Ideal)) :
    StableHlo.after hostOps1_2 (StableHlo.after hostOps1_1 (StableHlo.after hostOps1 Wp)) (Proc.devRef .tc main_arg12)
      = Wp (Proc.devRef .tc main_arg12) := by
  after_results_simp

/-- nor, before the reshapes, the column weight -/
theorem keep_arg10 (Wp : Valuation τ sig (Elt Ideal)) :
    StableHlo.after hostOps1_1 (StableHlo.after hostOps1 Wp) (Proc.devRef .tc main_arg10)
      = Wp (Proc.devRef .tc main_arg10) := by
  after_results_simp

/-- and the bias vector. -/
theorem keep_arg11 (Wp : Valuation τ sig (Elt Ideal)) :
    StableHlo.after hostOps1_1 (StableHlo.after hostOps1 Wp) (Proc.devRef .tc main_arg11)
      = Wp (Proc.devRef .tc main_arg11) := by
  after_results_simp

/-! ## The second layer's result -/

/-- After the second tiled layer its result array holds the reference's second layer of the program's arguments, given
    that the first layer's result and the table are the reference's and the arguments are as launched. -/
theorem out1 (m : (ℓ : Loc nD τ sig) → Buf (Elt Ideal) ℓ) (ρ : Dev nD → PrngReg) (c : Dev nD)
    (h28 : W4 m ρ c (Proc.devRef .tc main_v28) = Cert.ReferenceIdeal.Read.val_main_v34 (F := Ideal) (A m c main_arg0) (A m c main_arg1) (A m c main_arg2) (A m c main_arg5) (A m c main_arg6) (A m c main_arg7) (A m c main_arg8) (A m c main_arg9))
    (h4 : W4 m ρ c (Proc.devRef .tc main_v4) = Cert.ReferenceIdeal.Read.val_main_v4 (F := Ideal) (A m c main_arg0) (A m c main_arg5) (A m c main_arg6))
    (h3 : W4 m ρ c (Proc.devRef .tc main_arg3) = A m c main_arg3) (h10 : W4 m ρ c (Proc.devRef .tc main_arg10) = A m c main_arg10)
    (h11 : W4 m ρ c (Proc.devRef .tc main_arg11) = A m c main_arg11) (h12 : W4 m ρ c (Proc.devRef .tc main_arg12) = A m c main_arg12) :
    W8 m ρ c (Proc.devRef .tc main_v52) = Cert.ReferenceIdeal.Read.val_main_v64 (F := Ideal) (A m c main_arg0) (A m c main_arg1) (A m c main_arg2) (A m c main_arg3) (A m c main_arg5) (A m c main_arg6) (A m c main_arg7) (A m c main_arg8) (A m c main_arg9) (A m c main_arg10) (A m c main_arg11) (A m c main_arg12) := by
  -- the five operands of the tiled layer
  have e49 : (V7 m ρ c main_v49 : S100000x1.Idx → EReal)
      = Cert.ReferenceIdeal.Read.val_main_v55 (F := Ideal) (A m c main_arg0) (A m c main_arg3) (A m c main_arg5) (A m c main_arg6) := by
    show StableHlo.after hostOps1_2 (StableHlo.after hostOps1_1 (StableHlo.after hostOps1 (W4 m ρ c))) (Proc.devRef .tc main_v49) = _
    rw [mean_eq, clip_sum, clip_eq, sum_eq (W4 m ρ c) _ _ _ h4, count_eq, one_eq, h3]
    unfold Cert.ReferenceIdeal.Read.val_main_v55 Cert.ReferenceIdeal.Read.val_main_v54 Cert.ReferenceIdeal.Read.val_main_v53
      Cert.ReferenceIdeal.Read.val_main_call2_v1 Cert.ReferenceIdeal.Read.val_main_call2_v0
    rfl
  have e28 : (V7 m ρ c main_v28 : S100000x128.Idx → EReal)
      = Cert.ReferenceIdeal.Read.val_main_v34 (F := Ideal) (A m c main_arg0) (A m c main_arg1) (A m c main_arg2) (A m c main_arg5) (A m c main_arg6) (A m c main_arg7) (A m c main_arg8) (A m c main_arg9) := by
    show StableHlo.after hostOps1_2 (StableHlo.after hostOps1_1 (StableHlo.after hostOps1 (W4 m ρ c))) (Proc.devRef .tc main_v28) = _
    rw [keep_v28, h28]
  have e12 : (V7 m ρ c main_arg12 : S128x128.Idx → EReal) = A m c main_arg12 := by
    show StableHlo.after hostOps1_2 (StableHlo.after hostOps1_1 (StableHlo.after hostOps1 (W4 m ρ c))) (Proc.devRef .tc main_arg12) = _
    rw [keep_arg12, h12]
  have e51 : (V7 m ρ c main_v51 : S1x128.Idx → EReal)
      = shapeCast S1x128 (A m c main_arg10 : S128x1.Idx → EReal) shapeCasts_S128x1_S1x128 := by
    show StableHlo.after hostOps1_2 (StableHlo.after hostOps1_1 (StableHlo.after hostOps1 (W4 m ρ c))) (Proc.devRef .tc main_v51) = _
    rw [weightRow_eq, keep_arg10, h10]
  have e50 : (V7 m ρ c main_v50 : S1x128.Idx → EReal)
      = shapeCast S1x128 (A m c main_arg11 : S128.Idx → EReal) shapeCasts_S128_S1x128 := by
    show StableHlo.after hostOps1_2 (StableHlo.after hostOps1_1 (StableHlo.after hostOps1 (W4 m ρ c))) (Proc.devRef .tc main_v50) = _
    rw [biasRow_eq, keep_arg11, h11]
  -- the tiled layer's result, then the reference's layer
  refine (Gen.W8_arr m ρ c 5).trans ?_
  rw [Cert.KernelIdeal.Region1.arr (V7 m ρ) c, e49, e28, e51, e12, e50]
  exact (Cert.ReferenceIdeal.RefLayers12.layer2 (A m c main_arg0) (A m c main_arg1) (A m c main_arg2) (A m c main_arg3)
    (A m c main_arg5) (A m c main_arg6) (A m c main_arg7) (A m c main_arg8) (A m c main_arg9) (A m c main_arg10)
    (A m c main_arg11) (A m c main_arg12) _ _
    (fun q => Cert.Reads.shapeCast_a1_1a_apply _ _ (0 : Fin 1) q)
    (fun q => shapeCast_a_1a_apply _ _ (0 : Fin 1) q)).symm

end Cert.KernelIdeal.Stage1

end
-- ==== Proof.Region2.lean ====
/-
  Two dense layers fused in one region, computed block of rows by block of rows, read as one function of whole arrays.

  The region's row operands and its result have 100000 rows, cut into 20 blocks of 5000 consecutive rows; block t
  holds rows 5000·t … 5000·t + 4999. On one block, with a (128 columns) and x (256 columns) the two row operands
  restricted to those rows, the body computes two dense layers in a row:

      h(r, j) = max ( ((Σ_k a(r,k) · wl(j,k)) + (Σ_k x(r,k) · wr(j,k))) + b(0,j) ) 0          (hidden layer, rectified)
      z(r, q) = (Σ_j h(r,j) · w2(q,j)) + b2(0,q)                                              (projection)

  The weights are stored (output feature, input feature); the body transposes them before each product, which is why
  the sums run over the second index of a weight. Each product is accumulated into a zero block, and 0 + s = s on the
  extended reals, so a product read at an entry is the plain sum of the products of the entries. The changes of float
  format in the body are the identity on the extended reals.

  Row r of h depends on row r of a and x alone, and row r of z on row r of h alone. So the block the body writes for
  rows 5000·t … is exactly those rows of z computed from the whole arrays: the hidden layer Layers.hidden2 of the whole
  a and x, then Layers.proj of it. The 20 blocks tile the 100000 rows, each row r lying in block r / 5000, so after the
  last block has been written the result array is that function everywhere. Nothing here needs a finite entry: only
  sums, products and maxima are read, never rearranged.
-/
import proofs.«138091_j59785944760477_2_alg».proof.Proof.Gen.KernelIdeal.Frame
import proofs.«138091_j59785944760477_2_alg».proof.Proof.Layers
import Idealize.ShloMosaic.Lib.StackMember
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Idealize.ShloMosaic Idealize.ShloMosaic.ValueIdx Idealize.ShloMosaic.TcCoe Idealize.SL.Sem
open Idealize.ShloMosaic.Pipeline (Dat)

/-! ## One dense layer on a block of rows, read at an entry -/

/-- A block of rows A times the transpose of a weight W stored (output, input), accumulated into zero: entry (a, b)
    is Σ_k A(a,k) · W(b,k). -/
theorem matmul_wT_apply {m K N : Nat} {φ₁ φ₂ : FTy} (prec : Option ContractPrecision)
    (A : FVec Ideal ⟨2, ![m, K]⟩ φ₁) (W : FVec Ideal ⟨2, ![N, K]⟩ φ₂)
    (h : (⟨2, ![N, K]⟩ : Shape).Transposes [1, 0] ⟨2, ![K, N]⟩) (a : Fin m) (b : Fin N) :
    matmul (DotDims.plain m K N) prec A (transpose ⟨2, ![K, N]⟩ [1, 0] W h)
        (constant (F := Ideal) ⟨2, ![m, N]⟩ .f32 0x00000000#32) (ix2 a b)
      = ∑ k : Fin K, A (ix2 a k) * W (ix2 b k) := by
  rw [matmul_zero_eq_dotGeneral, StackMember.dotGeneral_plain_apply]
  exact Finset.sum_congr rfl fun k _ => by rw [transpose_ix2_apply]

/-- A bias row laid along every row of a block reads, at (p, q), the row's entry q. -/
theorem biasRow_apply {m N : Nat} (B : FVec Ideal ⟨2, ![1, N]⟩ .f32)
    (hs : (⟨2, ![1, N]⟩ : Shape).ShapeCasts ⟨2, ![1, N]⟩) (hb : (⟨2, ![1, N]⟩ : Shape).Broadcasts ⟨2, ![m, N]⟩)
    (p : Fin m) (q : Fin N) :
    broadcastTo ⟨2, ![m, N]⟩ (shapeCast ⟨2, ![1, N]⟩ B hs) hb (ix2 p q) = B (ix2 (0 : Fin 1) q) := by
  rw [broadcastTo_1b_ab_apply, shapeCast_self]

/-- The hidden layer on a block of m rows: two products against transposed weights, added, plus the bias row, then the
    maximum with zero. Entry (p, q) reads row p of the two row operands only. -/
theorem hidden_block {m Ka Kb : Nat} (a : FVec Ideal ⟨2, ![m, Ka]⟩ .f32) (x : FVec Ideal ⟨2, ![m, Kb]⟩ .f32)
    (wl : FVec Ideal ⟨2, ![128, Ka]⟩ .f32) (wr : FVec Ideal ⟨2, ![128, Kb]⟩ .f32) (b : FVec Ideal ⟨2, ![1, 128]⟩ .f32)
    (hlt : FTy.bits .bf16 < FTy.bits .f32)
    (hca : (⟨2, ![m, Ka]⟩ : Shape).ShapeCasts ⟨2, ![m, Ka]⟩)
    (htl : (⟨2, ![128, Ka]⟩ : Shape).Transposes [1, 0] ⟨2, ![Ka, 128]⟩)
    (htr : (⟨2, ![128, Kb]⟩ : Shape).Transposes [1, 0] ⟨2, ![Kb, 128]⟩)
    (hcb : (⟨2, ![1, 128]⟩ : Shape).ShapeCasts ⟨2, ![1, 128]⟩)
    (hbb : (⟨2, ![1, 128]⟩ : Shape).Broadcasts ⟨2, ![m, 128]⟩)
    (p : Fin m) (q : Fin 128) :
    (truncf .bf16 (maximumf (addf (addf
        (matmul (DotDims.plain m Ka 128) none (truncf .bf16 (shapeCast ⟨2, ![m, Ka]⟩ a hca) hlt)
          (transpose ⟨2, ![Ka, 128]⟩ [1, 0] (truncf .bf16 wl hlt) htl) (constant (F := Ideal) ⟨2, ![m, 128]⟩ .f32 0x00000000#32))
        (matmul (DotDims.plain m Kb 128) none (truncf .bf16 x hlt)
          (transpose ⟨2, ![Kb, 128]⟩ [1, 0] (truncf .bf16 wr hlt) htr) (constant (F := Ideal) ⟨2, ![m, 128]⟩ .f32 0x00000000#32)))
        (broadcastTo ⟨2, ![m, 128]⟩ (shapeCast ⟨2, ![1, 128]⟩ b hcb) hbb))
      (broadcast ⟨2, ![m, 128]⟩ (Scalar.ofBits (F := Ideal) .f32 0x00000000#32))) hlt : FVec Ideal ⟨2, ![m, 128]⟩ .bf16) (ix2 p q)
    = max (((∑ k : Fin Ka, a (ix2 p k) * wl (ix2 q k)) + ∑ k : Fin Kb, x (ix2 p k) * wr (ix2 q k)) + b (ix2 (0 : Fin 1) q)) 0 := by
  rw [truncf_apply, maximumf_apply, addf_apply, addf_apply, broadcast_apply, biasRow_apply, matmul_wT_apply, matmul_wT_apply]
  simp only [truncf_apply, shapeCast_self]
  exact congrArg (max _) Ideal.ofBits_zero_f32

/-- The projection on a block of m rows: one product against a transposed weight plus the bias row. Entry (p, q) reads
    row p of the hidden block only. -/
theorem proj_block {m : Nat} (H : FVec Ideal ⟨2, ![m, 128]⟩ .bf16)
    (w : FVec Ideal ⟨2, ![128, 128]⟩ .f32) (b : FVec Ideal ⟨2, ![1, 128]⟩ .f32)
    (hlt : FTy.bits .bf16 < FTy.bits .f32)
    (ht : (⟨2, ![128, 128]⟩ : Shape).Transposes [1, 0] ⟨2, ![128, 128]⟩)
    (hcb : (⟨2, ![1, 128]⟩ : Shape).ShapeCasts ⟨2, ![1, 128]⟩)
    (hbb : (⟨2, ![1, 128]⟩ : Shape).Broadcasts ⟨2, ![m, 128]⟩)
    (p : Fin m) (q : Fin 128) :
    (truncf .bf16 (addf
        (matmul (DotDims.plain m 128 128) none H
          (transpose ⟨2, ![128, 128]⟩ [1, 0] (truncf .bf16 w hlt) ht) (constant (F := Ideal) ⟨2, ![m, 128]⟩ .f32 0x00000000#32))
        (broadcastTo ⟨2, ![m, 128]⟩ (shapeCast ⟨2, ![1, 128]⟩ b hcb) hbb)) hlt : FVec Ideal ⟨2, ![m, 128]⟩ .bf16) (ix2 p q)
    = (∑ j : Fin 128, H (ix2 p j) * w (ix2 q j)) + b (ix2 (0 : Fin 1) q) := by
  rw [truncf_apply, addf_apply, biasRow_apply, matmul_wT_apply]
  simp only [truncf_apply]

/-! ## What the body stores for a block, at an entry -/

/-- The body's result for a block of 5000 rows, at entry (p, q): the projection of the hidden layer of row p of the
    block's two row operands. -/
theorem pay_apply (x0 : Vec Ideal S5000x128 .f32) (x1 : Vec Ideal S5000x256 .f32) (x2 : Vec Ideal S128x128 .f32)
    (x3 : Vec Ideal S128x256 .f32) (x4 : Vec Ideal S1x128 .f32) (x5 : Vec Ideal S128x128 .f32) (x6 : Vec Ideal S1x128 .f32)
    (p : Fin 5000) (q : Fin 128) :
    Gen.k2_pay1 (F := Ideal) x0 x1 x2 x3 x4 x5 x6 (ix2 p q)
      = (∑ j : Fin 128,
            max (((∑ k : Fin 128, x0 (ix2 p k) * x2 (ix2 j k)) + ∑ k : Fin 256, x1 (ix2 p k) * x3 (ix2 j k))
                + x4 (ix2 (0 : Fin 1) j)) 0 * x5 (ix2 q j))
          + x6 (ix2 (0 : Fin 1) q) := by
  unfold Gen.k2_pay1
  refine (proj_block _ x5 x6 _ _ _ _ p q).trans ?_
  refine congrArg (· + _) (Finset.sum_congr rfl fun j _ => congrArg (· * _) ?_)
  exact hidden_block x0 x1 x2 x3 x4 _ _ _ _ _ _ p j

/-- The same against whole arrays: when the block's row operands are the rows row p of the whole arrays A0, A1 and
    the weights and biases are the whole arrays' own, the body's result at an entry of the block is the two layers of
    the whole arrays at the corresponding entry of the whole result. -/
theorem block_eq (A0 : S100000x128.Idx → EReal) (A1 : S100000x256.Idx → EReal) (A2 : S128x128.Idx → EReal)
    (A3 : S128x256.Idx → EReal) (A4 : S1x128.Idx → EReal) (A5 : S128x128.Idx → EReal) (A6 : S1x128.Idx → EReal)
    (x0 : Vec Ideal S5000x128 .f32) (x1 : Vec Ideal S5000x256 .f32) (x2 : Vec Ideal S128x128 .f32)
    (x3 : Vec Ideal S128x256 .f32) (x4 : Vec Ideal S1x128 .f32) (x5 : Vec Ideal S128x128 .f32) (x6 : Vec Ideal S1x128 .f32)
    (row : Fin 5000 → Fin 100000)
    (h0 : ∀ p k, x0 (ix2 p k) = A0 (ix2 (row p) k)) (h1 : ∀ p k, x1 (ix2 p k) = A1 (ix2 (row p) k))
    (h2 : x2 = A2) (h3 : x3 = A3) (h4 : x4 = A4) (h5 : x5 = A5) (h6 : x6 = A6)
    (j : S5000x128.Idx) (i : S100000x128.Idx) (hi0 : (i 0).val = (row (j 0)).val) (hi1 : (i 1).val = (j 1).val) :
    Gen.k2_pay1 (F := Ideal) x0 x1 x2 x3 x4 x5 x6 j
      = Cert.Layers.proj 100000 128 (Cert.Layers.hidden2 100000 128 256 A0 A1 A2 A3 A4) A5 A6 i := by
  obtain ⟨p, q, rfl⟩ : ∃ (p : Fin 5000) (q : Fin 128), j = ix2 p q := ⟨j 0, j 1, eq_ix2 j⟩
  obtain rfl : i = ix2 (row p) q := by
    rw [eq_ix2 i]; exact congrArg₂ ix2 (Fin.ext hi0) (Fin.ext hi1)
  subst h2 h3 h4 h5 h6
  rw [pay_apply, Cert.Layers.proj_ix2]
  refine congrArg (· + _) (Finset.sum_congr rfl fun j _ => congrArg (· * _) ?_)
  rw [Cert.Layers.hidden2_ix2]
  simp only [h0, h1]

/-! ## The blocks of the eight windows at a point -/

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every point, decided over the 20 points: the two row operands and the result
    move down one block of rows per point; the weights and biases stay at their one block. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row p of block t is row 5000·t + p of the whole array. -/
def rowOf (t : Fin cfg2.N) (p : Fin 5000) : Fin 100000 :=
  ⟨t.val * 5000 + p.val, by
    have hN : cfg2.N = 20 := Gen.N_2
    have ht := t.isLt
    have hp := p.isLt
    omega⟩

/-- Block t of the first row operand is rows 5000·t … of its array. -/
theorem rows0 (c : Dev nD) (t : Fin cfg2.N) (p : Fin 5000) (k : Fin 128) :
    (Gen.iblk2 V c 0 t : Vec Ideal S5000x128 .f32) (ix2 p k)
      = (V c main_v75 : S100000x128.Idx → EReal) (ix2 (rowOf t p) k) := by
  obtain ⟨e0, e1, -⟩ := index_facts t
  unfold Gen.iblk2
  rw [View.read_apply]
  show V c main_v75 _ = V c main_v75 _
  refine congrArg (V c main_v75) ?_
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- Block t of the second row operand is rows 5000·t … of its array. -/
theorem rows1 (c : Dev nD) (t : Fin cfg2.N) (p : Fin 5000) (k : Fin 256) :
    (Gen.iblk2 V c 1 t : Vec Ideal S5000x256 .f32) (ix2 p k)
      = (V c main_arg1 : S100000x256.Idx → EReal) (ix2 (rowOf t p) k) := by
  obtain ⟨-, -, e0, e1, -⟩ := index_facts t
  unfold Gen.iblk2
  rw [View.read_apply]
  show V c main_arg1 _ = V c main_arg1 _
  refine congrArg (V c main_arg1) ?_
  funext a; apply Fin.ext
  match a with
  | ⟨0, _⟩ => show win2_1.index t (0 : Fin 2) * 5000 + 1 * p.val = t.val * 5000 + p.val; rw [e0]; omega
  | ⟨1, _⟩ => show win2_1.index t (1 : Fin 2) * 256 + 1 * k.val = k.val; rw [e1]; omega

/-- The first weight's one block is the whole array, at every point. -/
theorem whole2 (c : Dev nD) (t : Fin cfg2.N) :
    (Gen.iblk2 V c 2 t : Vec Ideal S128x128 .f32) = (V c main_arg13 : S128x128.Idx → EReal) := by
  obtain ⟨-, -, -, -, e0, e1, -⟩ := index_facts t
  funext y
  unfold Gen.iblk2
  rw [View.read_apply]
  show V c main_arg13 _ = V c main_arg13 y
  refine congrArg (V c main_arg13) ?_
  funext a; apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The second weight's one block is the whole array, at every point. -/
theorem whole3 (c : Dev nD) (t : Fin cfg2.N) :
    (Gen.iblk2 V c 3 t : Vec Ideal S128x256 .f32) = (V c main_arg15 : S128x256.Idx → EReal) := by
  obtain ⟨-, -, -, -, -, -, e0, e1, -⟩ := index_facts t
  funext y
  unfold Gen.iblk2
  rw [View.read_apply]
  show V c main_arg15 _ = V c main_arg15 y
  refine congrArg (V c main_arg15) ?_
  funext a; apply Fin.ext
  match a with
  | ⟨0, _⟩ => show win2_3.index t (0 : Fin 2) * 128 + 1 * (y 0).val = (y 0).val; rw [e0]; omega
  | ⟨1, _⟩ => show win2_3.index t (1 : Fin 2) * 256 + 1 * (y 1).val = (y 1).val; rw [e1]; omega

/-- The hidden layer's bias row is the whole array, at every point. -/
theorem whole4 (c : Dev nD) (t : Fin cfg2.N) :
    (Gen.iblk2 V c 4 t : Vec Ideal S1x128 .f32) = (V c main_v76 : S1x128.Idx → EReal) := by
  obtain ⟨-, -, -, -, -, -, -, -, e0, e1, -⟩ := index_facts t
  funext y
  unfold Gen.iblk2
  rw [View.read_apply]
  show V c main_v76 _ = V c main_v76 y
  refine congrArg (V c main_v76) ?_
  funext a; apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The projection's weight is the whole array, at every point. -/
theorem whole5 (c : Dev nD) (t : Fin cfg2.N) :
    (Gen.iblk2 V c 5 t : Vec Ideal S128x128 .f32) = (V c main_arg16 : S128x128.Idx → EReal) := by
  obtain ⟨-, -, -, -, -, -, -, -, -, -, e0, e1, -⟩ := index_facts t
  funext y
  unfold Gen.iblk2
  rw [View.read_apply]
  show V c main_arg16 _ = V c main_arg16 y
  refine congrArg (V c main_arg16) ?_
  funext a; apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

/-- The projection's bias row is the whole array, at every point. -/
theorem whole6 (c : Dev nD) (t : Fin cfg2.N) :
    (Gen.iblk2 V c 6 t : Vec Ideal S1x128 .f32) = (V c main_v77 : S1x128.Idx → EReal) := by
  obtain ⟨-, -, -, -, -, -, -, -, -, -, -, -, e0, e1, -⟩ := index_facts t
  funext y
  unfold Gen.iblk2
  rw [View.read_apply]
  show V c main_v77 _ = V c main_v77 y
  refine congrArg (V c main_v77) ?_
  funext a; apply Fin.ext
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-! ## What a point writes back, and the array after the last point -/

/-- The two layers of the whole arrays as the region finds them. -/
abbrev layers (c : Dev nD) : S100000x128.Idx → EReal :=
  Cert.Layers.proj 100000 128
    (Cert.Layers.hidden2 100000 128 256 (V c main_v75) (V c main_arg1) (V c main_arg13) (V c main_arg15) (V c main_v76))
    (V c main_arg16) (V c main_v77)

/-- Point t writes back rows 5000·t … of the two layers of the whole arrays. -/
theorem flushed_eq (c : Dev nD) (t : Fin cfg2.N) :
    (Gen.dat2 (F := Ideal) V c).flushed 7 t = ((cfg2.win 7).blk t).view.read (Elt Ideal) (layers V c) := by
  show (cfg2.win 7).cut (grid2.coords t) ((Gen.dat2 V c).after 7 t) = _
  rw [Gen.after2_7]
  unfold Gen.out2_7
  rw [View.canon_unit_zero zero_offsets]
  simp only [View.ld_unit_zero (S := S5000x128) zero_offsets, View.ld_unit_zero (S := S5000x256) zero_offsets,
    View.ld_unit_zero (S := S128x128) zero_offsets, View.ld_unit_zero (S := S128x256) zero_offsets,
    View.ld_unit_zero (S := S1x128) zero_offsets]
  obtain ⟨-, -, -, -, -, -, -, -, -, -, -, -, -, -, e0, e1⟩ := index_facts t
  refine funext fun (j : S5000x128.Idx) => ?_
  refine block_eq (V c main_v75) (V c main_arg1) (V c main_arg13) (V c main_arg15) (V c main_v76) (V c main_arg16) (V c main_v77)
    (Gen.iblk2 V c 0 t) (Gen.iblk2 V c 1 t) (Gen.iblk2 V c 2 t) (Gen.iblk2 V c 3 t) (Gen.iblk2 V c 4 t) (Gen.iblk2 V c 5 t) (Gen.iblk2 V c 6 t)
    (rowOf t) (rows0 V c t) (rows1 V c t) (whole2 V c t) (whole3 V c t) (whole4 V c t) (whole5 V c t) (whole6 V c t)
    j (((cfg2.win 7).blk t).view.emb j) ?_ ?_
  · show win2_7.index t (0 : Fin 2) * 5000 + 1 * (j 0).val = t.val * 5000 + (j 0).val
    rw [e0]; omega
  · show win2_7.index t (1 : Fin 2) * 128 + 1 * (j 1).val = (j 1).val
    rw [e1]; omega

/-- A row of the result lies in point t's block iff, on each axis, it lies in the block's range. -/
theorem mem_blk (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v78).slice (win2_7.rect t)).set ↔ _
  rw [View.set_slice_whole, Rect.mem_set_unit]
  exact Iff.rfl

/-- The blocks tile the rows: row r lies in the block of point r / 5000, and every point writes its block back. -/
theorem cover (i : S100000x128.Idx) :
    ∃ t : Fin cfg2.N, (cfg2.win 7).flush t = true ∧ i ∈ ((cfg2.win 7).blk t).view.set := by
  have hN : cfg2.N = 20 := Gen.N_2
  have hi0 : (i 0).val < 100000 := (i 0).isLt
  have hi1 : (i 1).val < 128 := (i 1).isLt
  have ht : (i 0).val / 5000 < cfg2.N := by rw [hN]; omega
  obtain ⟨-, -, -, -, -, -, -, -, -, -, -, -, -, -, e0, e1⟩ := index_facts ⟨(i 0).val / 5000, ht⟩
  refine ⟨⟨(i 0).val / 5000, ht⟩, Gen.flush2_7 _, ?_⟩
  rw [mem_blk]
  intro a
  match a with
  | ⟨0, _⟩ =>
    show win2_7.index ⟨(i 0).val / 5000, ht⟩ (0 : Fin 2) * 5000 ≤ (i 0).val
      ∧ (i 0).val < win2_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_7.index ⟨(i 0).val / 5000, ht⟩ (1 : Fin 2) * 128 ≤ (i 1).val
      ∧ (i 1).val < win2_7.index ⟨(i 0).val / 5000, ht⟩ (1 : Fin 2) * 128 + 128
    rw [e1]; omega

/-- After the region, the result array is the projection of the hidden layer of the whole arrays the region found. -/
theorem arr (c : Dev nD) :
    (Gen.dat2 (F := Ideal) V c).arrAt 7 cfg2.N
      = Cert.Layers.proj 100000 128
          (Cert.Layers.hidden2 100000 128 256 (V c main_v75) (V c main_arg1) (V c main_arg13) (V c main_arg15) (V c main_v76))
          (V c main_arg16) (V c main_v77) :=
  (Gen.dat2 V c).arrAt_eq_of_cover 7 (layers V c) (fun t _ => flushed_eq V c t) cover

end Cert.KernelIdeal.Region2

end
-- ==== Proof.RefLayers3D.lean ====
/-
  The reference program's last node layer and its edge decoder, identified with the layer functions.

  Node layer three. With m the mean-aggregated neighbour features (one row of 128 per node) and x the node features
  (one row of 256 per node), the program forms m · Wlᵀ, adds the bias row, adds x · Wrᵀ, rectifies, and applies one
  more dense layer with its own bias row. Entry (r, q) of the rectified array is

      max ( ((Σ_k m(r,k) · Wl(q,k)) + bl(q)) + Σ_k x(r,k) · Wr(q,k) ) 0,

  which is the layer `hidden2` once the bias is moved to the end: (A + c) + B = (A + B) + c in any commutative
  additive monoid, so nothing need be finite. The dense layer on top is `proj` as it stands.

  Edge decoder. Each edge carries the rows of its two end nodes, laid side by side: columns 0 … 127 are the first
  end's row, columns 128 … 255 the second's. A product of that 256-wide row with a weight matrix of 256 columns is
  a sum over 256 terms, which is the sum over the first 128 columns plus the sum over the last 128: the first
  against the weight's columns 0 … 127, the second against its columns 128 … 255. That is `hidden2` with the two
  gathered arrays as its two branches. The output layer has one row of weights, so its result has one column, and its
  bias is a single number.
-/
import proofs.«138091_j59785944760477_2_alg».proof.Proof.Gen.ReferenceIdeal.Read
import proofs.«138091_j59785944760477_2_alg».proof.Proof.Layers
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefLayers3D

open Cert.ReferenceIdeal Cert.ReferenceIdeal.Gen Idealize.ShloMosaic Idealize.ShloMosaic.ValueIdx
  Idealize.ShloMosaic.StableHlo

variable
  (x0 : (⟨S1x4096, .f32⟩ : BufTy).Contents (Elt Ideal))
  (x1 : (⟨S100000x256, .f32⟩ : BufTy).Contents (Elt Ideal))
  (x2 : (⟨S2x500000, .i32⟩ : BufTy).Contents (Elt Ideal))
  (x3 : (⟨S2x500000, .i32⟩ : BufTy).Contents (Elt Ideal))
  (x4 : (⟨S2x800000, .i32⟩ : BufTy).Contents (Elt Ideal))
  (x5 : (⟨S1024x4096, .f32⟩ : BufTy).Contents (Elt Ideal))
  (x6 : (⟨S1024, .f32⟩ : BufTy).Contents (Elt Ideal))
  (x7 : (⟨S128x1, .f32⟩ : BufTy).Contents (Elt Ideal))
  (x8 : (⟨S128, .f32⟩ : BufTy).Contents (Elt Ideal))
  (x9 : (⟨S128x256, .f32⟩ : BufTy).Contents (Elt Ideal))
  (x10 : (⟨S128x1, .f32⟩ : BufTy).Contents (Elt Ideal))
  (x11 : (⟨S128, .f32⟩ : BufTy).Contents (Elt Ideal))
  (x12 : (⟨S128x128, .f32⟩ : BufTy).Contents (Elt Ideal))
  (x13 : (⟨S128x128, .f32⟩ : BufTy).Contents (Elt Ideal))
  (x14 : (⟨S128, .f32⟩ : BufTy).Contents (Elt Ideal))
  (x15 : (⟨S128x256, .f32⟩ : BufTy).Contents (Elt Ideal))
  (x16 : (⟨S128x128, .f32⟩ : BufTy).Contents (Elt Ideal))
  (x17 : (⟨S128, .f32⟩ : BufTy).Contents (Elt Ideal))
  (x18 : (⟨S128x256, .f32⟩ : BufTy).Contents (Elt Ideal))
  (x19 : (⟨S128, .f32⟩ : BufTy).Contents (Elt Ideal))
  (x20 : (⟨S1x128, .f32⟩ : BufTy).Contents (Elt Ideal))
  (x21 : (⟨S1, .f32⟩ : BufTy).Contents (Elt Ideal))

/-! ## Node layer three -/

/-- The aggregate branch: entry (r, q) of m · Wlᵀ. -/
theorem v88_ix2 (r : Fin 100000) (q : Fin 128) :
    Read.val_main_v88 (F := Ideal) x0 x1 x2 x3 x4 x5 x6 x7 x8 x9 x10 x11 x12 x13 (ix2 r q)
      = ∑ k : Fin 128, Read.val_main_v86 (F := Ideal) x0 x1 x2 x3 x4 x5 x6 x7 x8 x9 x10 x11 x12 (ix2 r k) * x13 (ix2 q k) := by
  rw [Read.val_main_v88_apply]
  refine Finset.sum_congr rfl fun k _ => ?_
  rw [Read.val_main_v87_apply]
  have e1 : Read.lidx_main_v88 (ix2 r q) k = ix2 r k := funext fun a => Fin.ext (by match a with | ⟨0, _⟩ => rfl | ⟨1, _⟩ => rfl)
  have e2 : Read.idx_main_v87 (Read.ridx_main_v88 (ix2 r q) k) = ix2 q k := funext fun a => Fin.ext (by match a with | ⟨0, _⟩ => rfl | ⟨1, _⟩ => rfl)
  rw [e1, e2]

/-- The feature branch: entry (r, q) of x · Wrᵀ. -/
theorem v93_ix2 (r : Fin 100000) (q : Fin 128) :
    Read.val_main_v93 (F := Ideal) x1 x15 (ix2 r q) = ∑ k : Fin 256, x1 (ix2 r k) * x15 (ix2 q k) := by
  rw [Read.val_main_v93_apply]
  refine Finset.sum_congr rfl fun k _ => ?_
  rw [Read.val_main_v92_apply]
  have e1 : Read.lidx_main_v93 (ix2 r q) k = ix2 r k := funext fun a => Fin.ext (by match a with | ⟨0, _⟩ => rfl | ⟨1, _⟩ => rfl)
  have e2 : Read.idx_main_v92 (Read.ridx_main_v93 (ix2 r q) k) = ix2 q k := funext fun a => Fin.ext (by match a with | ⟨0, _⟩ => rfl | ⟨1, _⟩ => rfl)
  rw [e1, e2]

/-- The first bias row, broadcast down the rows. -/
theorem v90_ix2 (r : Fin 100000) (q : Fin 128) :
    Read.val_main_v90 (F := Ideal) x14 (ix2 r q) = x14 (ix1 q) := by
  rw [Read.val_main_v90_apply, Read.val_main_v89_apply]
  exact congrArg x14 (funext fun a => Fin.ext (by match a with | ⟨0, _⟩ => rfl))

/-- The rectifier's constant is zero. -/
theorem zero5_ix2 (r : Fin 100000) (q : Fin 128) :
    Read.val_main_call5_v0 (F := Ideal) (ix2 r q) = (0 : EReal) := by
  rw [Read.val_main_call5_v0_apply, Read.val_main_call5_cst_apply, Ideal.ofBits_def, Ideal.ofBits_zero_f32]

/-- The rectified array is the layer `hidden2`, entry by entry. -/
theorem hidden3_ix2 (b : S1x128.Idx → EReal) (hb : ∀ q : Fin 128, b (ix2 (0 : Fin 1) q) = x14 (ix1 q))
    (r : Fin 100000) (q : Fin 128) :
    Read.val_main_v95 (F := Ideal) x0 x1 x2 x3 x4 x5 x6 x7 x8 x9 x10 x11 x12 x13 x14 x15 (ix2 r q)
      = Cert.Layers.hidden2 100000 128 256 (Read.val_main_v86 (F := Ideal) x0 x1 x2 x3 x4 x5 x6 x7 x8 x9 x10 x11 x12) x1 x13 x15 b (ix2 r q) := by
  rw [Cert.Layers.hidden2_ix2, Read.val_main_v95_apply, Read.val_main_v94_apply, Read.val_main_v91_apply,
    v88_ix2, v93_ix2, v90_ix2, zero5_ix2, Ideal.maximumf_def, Ideal.addf_def, Ideal.addf_def, hb q, add_right_comm]

/-- The second bias row, broadcast down the rows. -/
theorem v99_ix2 (r : Fin 100000) (q : Fin 128) :
    Read.val_main_v99 (F := Ideal) x17 (ix2 r q) = x17 (ix1 q) := by
  rw [Read.val_main_v99_apply, Read.val_main_v98_apply]
  exact congrArg x17 (funext fun a => Fin.ext (by match a with | ⟨0, _⟩ => rfl))

/-- The dense layer on top: entry (r, q) of h · Wᵀ, h the rectified array. -/
theorem v97_ix2 (r : Fin 100000) (q : Fin 128) :
    Read.val_main_v97 (F := Ideal) x0 x1 x2 x3 x4 x5 x6 x7 x8 x9 x10 x11 x12 x13 x14 x15 x16 (ix2 r q)
      = ∑ k : Fin 128, Read.val_main_v95 (F := Ideal) x0 x1 x2 x3 x4 x5 x6 x7 x8 x9 x10 x11 x12 x13 x14 x15 (ix2 r k) * x16 (ix2 q k) := by
  rw [Read.val_main_v97_apply]
  refine Finset.sum_congr rfl fun k _ => ?_
  rw [Read.val_main_v96_apply]
  have e1 : Read.lidx_main_v97 (ix2 r q) k = ix2 r k := funext fun a => Fin.ext (by match a with | ⟨0, _⟩ => rfl | ⟨1, _⟩ => rfl)
  have e2 : Read.idx_main_v96 (Read.ridx_main_v97 (ix2 r q) k) = ix2 q k := funext fun a => Fin.ext (by match a with | ⟨0, _⟩ => rfl | ⟨1, _⟩ => rfl)
  rw [e1, e2]

/-- Node layer three of the reference is `proj` of `hidden2` of the mean aggregate and the node features. -/
theorem layer3 (b b2 : S1x128.Idx → EReal)
    (hb : ∀ q : Fin 128, b (ix2 (0 : Fin 1) q) = x14 (ix1 q))
    (hb2 : ∀ q : Fin 128, b2 (ix2 (0 : Fin 1) q) = x17 (ix1 q)) :
    Read.val_main_v100 (F := Ideal) x0 x1 x2 x3 x4 x5 x6 x7 x8 x9 x10 x11 x12 x13 x14 x15 x16 x17
      = Cert.Layers.proj 100000 128
          (Cert.Layers.hidden2 100000 128 256 (Read.val_main_v86 (F := Ideal) x0 x1 x2 x3 x4 x5 x6 x7 x8 x9 x10 x11 x12) x1 x13 x15 b) x16 b2 := by
  funext i
  obtain ⟨r, q, rfl⟩ : ∃ (r : Fin 100000) (q : Fin 128), i = ix2 r q := ⟨i 0, i 1, eq_ix2 i⟩
  rw [Cert.Layers.proj_ix2, Read.val_main_v100_apply, v97_ix2, v99_ix2, Ideal.addf_def, hb2 q]
  refine congrArg (· + x17 (ix1 q)) (Finset.sum_congr rfl fun k _ => ?_)
  rw [hidden3_ix2 x0 x1 x2 x3 x4 x5 x6 x7 x8 x9 x10 x11 x12 x13 x14 x15 b hb r k]

/-! ## The edge decoder -/

/-- The side-by-side array at a column of its first half is the first end's array at that column. -/
theorem concat_left (e : Fin 800000) (k : Fin 128) (kk : Fin 256) (hk : kk.val = k.val) :
    Read.val_main_v119 (F := Ideal) x0 x1 x2 x3 x4 x5 x6 x7 x8 x9 x10 x11 x12 x13 x14 x15 x16 x17 (ix2 e kk)
      = Read.val_main_v111 (F := Ideal) x0 x1 x2 x3 x4 x5 x6 x7 x8 x9 x10 x11 x12 x13 x14 x15 x16 x17 (ix2 e k) := by
  unfold Read.val_main_v119
  generalize Read.val_main_v111 (F := Ideal) x0 x1 x2 x3 x4 x5 x6 x7 x8 x9 x10 x11 x12 x13 x14 x15 x16 x17 = y1
  generalize Read.val_main_v118 (F := Ideal) x0 x1 x2 x3 x4 x5 x6 x7 x8 x9 x10 x11 x12 x13 x14 x15 x16 x17 = y2
  exact concatenate_pair_apply_left _ y1 y2 _ (ix2 e kk) rfl (ix2 e k)
    (fun b => match b with
      | ⟨0, _⟩ => rfl
      | ⟨1, _⟩ => hk.symm)

/-- The side-by-side array at a column of its second half is the second end's array, 128 columns back. -/
theorem concat_right (e : Fin 800000) (k : Fin 128) (kk : Fin 256) (hk : kk.val = 128 + k.val) :
    Read.val_main_v119 (F := Ideal) x0 x1 x2 x3 x4 x5 x6 x7 x8 x9 x10 x11 x12 x13 x14 x15 x16 x17 (ix2 e kk)
      = Read.val_main_v118 (F := Ideal) x0 x1 x2 x3 x4 x5 x6 x7 x8 x9 x10 x11 x12 x13 x14 x15 x16 x17 (ix2 e k) := by
  unfold Read.val_main_v119
  generalize Read.val_main_v111 (F := Ideal) x0 x1 x2 x3 x4 x5 x6 x7 x8 x9 x10 x11 x12 x13 x14 x15 x16 x17 = y1
  generalize Read.val_main_v118 (F := Ideal) x0 x1 x2 x3 x4 x5 x6 x7 x8 x9 x10 x11 x12 x13 x14 x15 x16 x17 = y2
  exact concatenate_pair_apply_right _ y1 y2 _ (ix2 e kk) rfl rfl (ix2 e k)
    (fun b => match b with
      | ⟨0, _⟩ => fun _ => rfl
      | ⟨1, _⟩ => fun h => absurd rfl h)
    (by show k.val + 128 = kk.val; omega)

/-- The decoder's first product, over the 256 columns of the side-by-side array. -/
theorem v121_ix2 (e : Fin 800000) (q : Fin 128) :
    Read.val_main_v121 (F := Ideal) x0 x1 x2 x3 x4 x5 x6 x7 x8 x9 x10 x11 x12 x13 x14 x15 x16 x17 x18 (ix2 e q)
      = ∑ k : Fin 256, Read.val_main_v119 (F := Ideal) x0 x1 x2 x3 x4 x5 x6 x7 x8 x9 x10 x11 x12 x13 x14 x15 x16 x17 (ix2 e k) * x18 (ix2 q k) := by
  rw [Read.val_main_v121_apply]
  refine Finset.sum_congr rfl fun k _ => ?_
  rw [Read.val_main_v120_apply]
  have e1 : Read.lidx_main_v121 (ix2 e q) k = ix2 e k := funext fun a => Fin.ext (by match a with | ⟨0, _⟩ => rfl | ⟨1, _⟩ => rfl)
  have e2 : Read.idx_main_v120 (Read.ridx_main_v121 (ix2 e q) k) = ix2 q k := funext fun a => Fin.ext (by match a with | ⟨0, _⟩ => rfl | ⟨1, _⟩ => rfl)
  rw [e1, e2]

/-- The sum over 256 columns is the sum over the first end's 128 plus the sum over the second end's 128. -/
theorem v121_split (w1r w1c : S128x128.Idx → EReal)
    (hr : ∀ j k : Fin 128, w1r (ix2 j k) = x18 (ix2 j (⟨k.val, by have := k.isLt; omega⟩ : Fin 256)))
    (hc : ∀ j k : Fin 128, w1c (ix2 j k) = x18 (ix2 j (⟨128 + k.val, by have := k.isLt; omega⟩ : Fin 256)))
    (e : Fin 800000) (q : Fin 128) :
    Read.val_main_v121 (F := Ideal) x0 x1 x2 x3 x4 x5 x6 x7 x8 x9 x10 x11 x12 x13 x14 x15 x16 x17 x18 (ix2 e q)
      = (∑ k : Fin 128, Read.val_main_v111 (F := Ideal) x0 x1 x2 x3 x4 x5 x6 x7 x8 x9 x10 x11 x12 x13 x14 x15 x16 x17 (ix2 e k) * w1r (ix2 q k))
        + ∑ k : Fin 128, Read.val_main_v118 (F := Ideal) x0 x1 x2 x3 x4 x5 x6 x7 x8 x9 x10 x11 x12 x13 x14 x15 x16 x17 (ix2 e k) * w1c (ix2 q k) := by
  rw [v121_ix2]
  refine (Fin.sum_univ_add (a := 128) (b := 128)
    (fun k : Fin 256 => Read.val_main_v119 (F := Ideal) x0 x1 x2 x3 x4 x5 x6 x7 x8 x9 x10 x11 x12 x13 x14 x15 x16 x17 (ix2 e k) * x18 (ix2 q k))).trans ?_
  refine congrArg₂ (· + ·) (Finset.sum_congr rfl fun k _ => ?_) (Finset.sum_congr rfl fun k _ => ?_)
  · exact congrArg₂ (· * ·) (concat_left x0 x1 x2 x3 x4 x5 x6 x7 x8 x9 x10 x11 x12 x13 x14 x15 x16 x17 e k (Fin.castAdd 128 k) rfl) (hr q k).symm
  · exact congrArg₂ (· * ·) (concat_right x0 x1 x2 x3 x4 x5 x6 x7 x8 x9 x10 x11 x12 x13 x14 x15 x16 x17 e k (Fin.natAdd 128 k) rfl) (hc q k).symm

/-- The decoder's first bias row, broadcast down the rows. -/
theorem v123_ix2 (e : Fin 800000) (q : Fin 128) :
    Read.val_main_v123 (F := Ideal) x19 (ix2 e q) = x19 (ix1 q) := by
  rw [Read.val_main_v123_apply, Read.val_main_v122_apply]
  exact congrArg x19 (funext fun a => Fin.ext (by match a with | ⟨0, _⟩ => rfl))

/-- The decoder's rectifier constant is zero. -/
theorem zero6_ix2 (e : Fin 800000) (q : Fin 128) :
    Read.val_main_call6_v0 (F := Ideal) (ix2 e q) = (0 : EReal) := by
  rw [Read.val_main_call6_v0_apply, Read.val_main_call6_cst_apply, Ideal.ofBits_def, Ideal.ofBits_zero_f32]

/-- The decoder's rectified array is the layer `hidden2` of the two gathered arrays, entry by entry. -/
theorem hiddenDec_ix2 (w1r w1c : S128x128.Idx → EReal) (b1 : S1x128.Idx → EReal)
    (hr : ∀ j k : Fin 128, w1r (ix2 j k) = x18 (ix2 j (⟨k.val, by have := k.isLt; omega⟩ : Fin 256)))
    (hc : ∀ j k : Fin 128, w1c (ix2 j k) = x18 (ix2 j (⟨128 + k.val, by have := k.isLt; omega⟩ : Fin 256)))
    (hb1 : ∀ q : Fin 128, b1 (ix2 (0 : Fin 1) q) = x19 (ix1 q))
    (e : Fin 800000) (q : Fin 128) :
    Read.val_main_v125 (F := Ideal) x0 x1 x2 x3 x4 x5 x6 x7 x8 x9 x10 x11 x12 x13 x14 x15 x16 x17 x18 x19 (ix2 e q)
      = Cert.Layers.hidden2 800000 128 128 (Read.val_main_v111 (F := Ideal) x0 x1 x2 x3 x4 x5 x6 x7 x8 x9 x10 x11 x12 x13 x14 x15 x16 x17) (Read.val_main_v118 (F := Ideal) x0 x1 x2 x3 x4 x5 x6 x7 x8 x9 x10 x11 x12 x13 x14 x15 x16 x17) w1r w1c b1 (ix2 e q) := by
  rw [Cert.Layers.hidden2_ix2, Read.val_main_v125_apply, Read.val_main_v124_apply,
    v121_split x0 x1 x2 x3 x4 x5 x6 x7 x8 x9 x10 x11 x12 x13 x14 x15 x16 x17 x18 w1r w1c hr hc e q, v123_ix2, zero6_ix2, Ideal.maximumf_def, Ideal.addf_def, hb1 q]

/-- The output layer's product: one row of weights, so one column of results. -/
theorem v127_ix2 (e : Fin 800000) (q : Fin 1) :
    Read.val_main_v127 (F := Ideal) x0 x1 x2 x3 x4 x5 x6 x7 x8 x9 x10 x11 x12 x13 x14 x15 x16 x17 x18 x19 x20 (ix2 e q)
      = ∑ k : Fin 128, Read.val_main_v125 (F := Ideal) x0 x1 x2 x3 x4 x5 x6 x7 x8 x9 x10 x11 x12 x13 x14 x15 x16 x17 x18 x19 (ix2 e k) * x20 (ix2 q k) := by
  rw [Read.val_main_v127_apply]
  refine Finset.sum_congr rfl fun k _ => ?_
  rw [Read.val_main_v126_apply]
  have e1 : Read.lidx_main_v127 (ix2 e q) k = ix2 e k := funext fun a => Fin.ext (by match a with | ⟨0, _⟩ => rfl | ⟨1, _⟩ => rfl)
  have e2 : Read.idx_main_v126 (Read.ridx_main_v127 (ix2 e q) k) = ix2 q k := funext fun a => Fin.ext (by match a with | ⟨0, _⟩ => rfl | ⟨1, _⟩ => rfl)
  rw [e1, e2]

/-- The output layer's bias, one number, broadcast to every edge. -/
theorem v129_ix2 (e : Fin 800000) (q : Fin 1) :
    Read.val_main_v129 (F := Ideal) x21 (ix2 e q) = x21 (ix1 (0 : Fin 1)) := by
  rw [Read.val_main_v129_apply, Read.val_main_v128_apply]
  exact congrArg x21 (funext fun a => Fin.ext (by match a with | ⟨0, _⟩ => rfl))

/-- The reference's decoder is `proj` of `hidden2` of the two gathered arrays. -/
theorem decoder (w1r w1c : S128x128.Idx → EReal) (b1 : S1x128.Idx → EReal) (b2 : S1x1.Idx → EReal)
    (hr : ∀ j k : Fin 128, w1r (ix2 j k) = x18 (ix2 j (⟨k.val, by have := k.isLt; omega⟩ : Fin 256)))
    (hc : ∀ j k : Fin 128, w1c (ix2 j k) = x18 (ix2 j (⟨128 + k.val, by have := k.isLt; omega⟩ : Fin 256)))
    (hb1 : ∀ q : Fin 128, b1 (ix2 (0 : Fin 1) q) = x19 (ix1 q))
    (hb2 : b2 (ix2 (0 : Fin 1) (0 : Fin 1)) = x21 (ix1 (0 : Fin 1))) :
    Read.val_main_v130 (F := Ideal) x0 x1 x2 x3 x4 x5 x6 x7 x8 x9 x10 x11 x12 x13 x14 x15 x16 x17 x18 x19 x20 x21
      = Cert.Layers.proj 800000 1
          (Cert.Layers.hidden2 800000 128 128 (Read.val_main_v111 (F := Ideal) x0 x1 x2 x3 x4 x5 x6 x7 x8 x9 x10 x11 x12 x13 x14 x15 x16 x17) (Read.val_main_v118 (F := Ideal) x0 x1 x2 x3 x4 x5 x6 x7 x8 x9 x10 x11 x12 x13 x14 x15 x16 x17) w1r w1c b1)
          x20 b2 := by
  funext i
  obtain ⟨e, q, rfl⟩ : ∃ (e : Fin 800000) (q : Fin 1), i = ix2 e q := ⟨i 0, i 1, eq_ix2 i⟩
  obtain rfl : q = 0 := Subsingleton.elim _ _
  rw [Cert.Layers.proj_ix2, Read.val_main_v130_apply, v127_ix2, v129_ix2, Ideal.addf_def, hb2]
  refine congrArg (· + x21 (ix1 (0 : Fin 1))) (Finset.sum_congr rfl fun k _ => ?_)
  rw [hiddenDec_ix2 x0 x1 x2 x3 x4 x5 x6 x7 x8 x9 x10 x11 x12 x13 x14 x15 x16 x17 x18 x19 w1r w1c b1 hr hc hb1 e k]

end Cert.ReferenceIdeal.RefLayers3D

end
-- ==== Proof.Stage2.lean ====
/-
  From the second region's result to the third region's result.

  Between the two regions the program forms, from the second region's result h (100000 rows of 128) and an integer
  array with two rows of 800000 entries, an average of rows of h: entry e of the first integer row (a negative
  entry counted from the end, by adding 100000) names a row of h to take, entry e of the second integer row names the
  row of a zero array that the taken row is added into; the same is done with the number 1 in place of the taken row,
  which counts how many rows were added into each row; the counts are replaced by 1 where they are smaller; and each
  row of sums is divided by its count, entry by entry. These are the reference's own operations on the same arrays in
  the same order. The one difference is in formats: the program keeps h in a narrower float format and widens the
  taken rows before adding them, and on the extended reals a change of float format is the identity. So the third
  region finds as its first row operand what the reference calls its third averaged array, provided the second
  region's result was the reference's second layer (the hypothesis on h below).

  The region's other operands are arguments of the program that nothing before it writes, two of them bias vectors
  laid out as one-row matrices. Its result is the two dense layers of its operands as whole arrays (module Region2),
  and that function of those arrays is the reference's third layer (module RefLayers3D).

  Each stretch of operations is read one result at a time, over arbitrary contents of the buffers before it, so that
  every comparison is between two short terms; the results are then chained.
-/
import proofs.«138091_j59785944760477_2_alg».proof.Proof.Gen.KernelIdeal.Frame
import proofs.«138091_j59785944760477_2_alg».proof.Proof.Gen.ReferenceIdeal.Read
import proofs.«138091_j59785944760477_2_alg».proof.Proof.FoldBase
import proofs.«138091_j59785944760477_2_alg».proof.Proof.Region2
import proofs.«138091_j59785944760477_2_alg».proof.Proof.RefLayers3D
import Idealize.ShloMosaic.Lib.ValueIdx
import Idealize.ShloMosaic.Lib.ValueLayout

set_option maxRecDepth 16384

noncomputable section

namespace Cert.KernelIdeal.Stage2

open Cert.KernelIdeal Cert.KernelIdeal.Gen Cert.KernelIdeal.Fold
open Idealize.ShloMosaic Idealize.ShloMosaic.TcCoe Idealize.SL.Sem Idealize.ShloMosaic.StableHlo Idealize.ShloMosaic.ValueIdx

/-! ## The host operations between the second and the third region, one result at a time -/

/-- After the first stretch, the counts: 1 added into a zero vector at the rows the second integer row names. -/
theorem count (Wp : Valuation τ sig (Elt Ideal)) :
    (StableHlo.after hostOps2 Wp (Proc.devRef .tc main_v71) : S100000.Idx → EReal)
      = Cert.ReferenceIdeal.Read.val_main_v82 (F := Ideal) (Wp (Proc.devRef .tc main_arg4)) := by
  after_results_simp; rfl

/-- After the first stretch, the number the counts are compared with: 1. -/
theorem one (Wp : Valuation τ sig (Elt Ideal)) :
    (StableHlo.after hostOps2 Wp (Proc.devRef .tc main_cst_15) : S_.Idx → EReal)
      = Cert.ReferenceIdeal.Read.val_main_cst_15 (F := Ideal) := by
  after_results_simp; rfl

/-- After the first stretch, the sums: the rows of the second region's result that the first integer row names, each
    added into the row of a zero array that the second integer row names. Widening the taken rows changes nothing. -/
theorem numer (Wp : Valuation τ sig (Elt Ideal)) :
    (StableHlo.after hostOps2 Wp (Proc.devRef .tc main_v67) : S100000x128.Idx → EReal)
      = Host.scatterAdd (F := Ideal) (φ := .f32) Cert.ReferenceIdeal.scatter_S100000x128_S800000x1_S800000x128_1_0_0_1
          (Cert.ReferenceIdeal.Read.val_main_v76 (F := Ideal))
          (Cert.ReferenceIdeal.Read.val_main_v77 (F := Ideal) (Wp (Proc.devRef .tc main_arg4)))
          (Host.gather Cert.ReferenceIdeal.gather_S100000x128_S800000x1_S800000x128_1_0_n_n_0_1_1128
            (Wp (Proc.devRef .tc main_v52) : S100000x128.Idx → EReal)
            (Cert.ReferenceIdeal.Read.val_main_v74 (F := Ideal) (Wp (Proc.devRef .tc main_arg4)))) := by
  after_results_simp; rfl

/-- After the second stretch, the counts replaced by 1 where smaller: the maximum with 1 laid along the vector. -/
theorem clip (Wp : Valuation τ sig (Elt Ideal)) :
    (StableHlo.after hostOps2_1 Wp (Proc.devRef .tc main_v72) : S100000.Idx → EReal)
      = maximumf (F := Ideal) (φ := .f32)
          (broadcastInDim S100000 ![] bcast_S_S100000 (Wp (Proc.devRef .tc main_cst_15) : S_.Idx → EReal))
          (Wp (Proc.devRef .tc main_v71) : S100000.Idx → EReal) := by
  after_results_simp; rfl

/-- After the third stretch, the averages: the sums divided, entry by entry, by the clipped counts laid along each row. -/
theorem quot (Wp : Valuation τ sig (Elt Ideal)) :
    (StableHlo.after hostOps2_2 Wp (Proc.devRef .tc main_v75) : S100000x128.Idx → EReal)
      = Host.divf (F := Ideal) (φ := .f32) (Wp (Proc.devRef .tc main_v67) : S100000x128.Idx → EReal)
          (broadcastInDim S100000x128 ![0, 1] bcast_S100000x1_S100000x128_0_1
            (broadcastInDim S100000x1 ![0] bcast_S100000_S100000x1_0 (Wp (Proc.devRef .tc main_v72) : S100000.Idx → EReal))) := by
  after_results_simp

/-- The second stretch leaves the sums as they were. -/
theorem keep1_v67 (Wp : Valuation τ sig (Elt Ideal)) :
    StableHlo.after hostOps2_1 Wp (Proc.devRef .tc main_v67) = Wp (Proc.devRef .tc main_v67) := by
  after_results_simp

/-- After the third stretch, the first bias vector as a one-row matrix. -/
theorem bias1 (Wp : Valuation τ sig (Elt Ideal)) :
    (StableHlo.after hostOps2_2 Wp (Proc.devRef .tc main_v76) : S1x128.Idx → EReal)
      = shapeCast S1x128 (Wp (Proc.devRef .tc main_arg14) : S128.Idx → EReal) shapeCasts_S128_S1x128 := by
  after_results_simp <;> rfl

/-- After the third stretch, the second bias vector as a one-row matrix. -/
theorem bias2 (Wp : Valuation τ sig (Elt Ideal)) :
    (StableHlo.after hostOps2_2 Wp (Proc.devRef .tc main_v77) : S1x128.Idx → EReal)
      = shapeCast S1x128 (Wp (Proc.devRef .tc main_arg17) : S128.Idx → EReal) shapeCasts_S128_S1x128 := by
  after_results_simp <;> rfl

/-- The three stretches leave the second row operand as it was. -/
theorem keep_arg1 (Wp : Valuation τ sig (Elt Ideal)) :
    StableHlo.after hostOps2_2 (StableHlo.after hostOps2_1 (StableHlo.after hostOps2 Wp)) (Proc.devRef .tc main_arg1)
      = Wp (Proc.devRef .tc main_arg1) := by
  after_results_simp

/-- The three stretches leave the first weight as it was. -/
theorem keep_arg13 (Wp : Valuation τ sig (Elt Ideal)) :
    StableHlo.after hostOps2_2 (StableHlo.after hostOps2_1 (StableHlo.after hostOps2 Wp)) (Proc.devRef .tc main_arg13)
      = Wp (Proc.devRef .tc main_arg13) := by
  after_results_simp

/-- The three stretches leave the second weight as it was. -/
theorem keep_arg15 (Wp : Valuation τ sig (Elt Ideal)) :
    StableHlo.after hostOps2_2 (StableHlo.after hostOps2_1 (StableHlo.after hostOps2 Wp)) (Proc.devRef .tc main_arg15)
      = Wp (Proc.devRef .tc main_arg15) := by
  after_results_simp

/-- The three stretches leave the third weight as it was. -/
theorem keep_arg16 (Wp : Valuation τ sig (Elt Ideal)) :
    StableHlo.after hostOps2_2 (StableHlo.after hostOps2_1 (StableHlo.after hostOps2 Wp)) (Proc.devRef .tc main_arg16)
      = Wp (Proc.devRef .tc main_arg16) := by
  after_results_simp

/-- The first two stretches leave the first bias vector as it was. -/
theorem keep01_arg14 (Wp : Valuation τ sig (Elt Ideal)) :
    StableHlo.after hostOps2_1 (StableHlo.after hostOps2 Wp) (Proc.devRef .tc main_arg14)
      = Wp (Proc.devRef .tc main_arg14) := by
  after_results_simp

/-- The first two stretches leave the second bias vector as it was. -/
theorem keep01_arg17 (Wp : Valuation τ sig (Elt Ideal)) :
    StableHlo.after hostOps2_1 (StableHlo.after hostOps2 Wp) (Proc.devRef .tc main_arg17)
      = Wp (Proc.devRef .tc main_arg17) := by
  after_results_simp

/-! ## The third region's entry values -/

/-- The third region's first row operand is the reference's third averaged array, when the second region's result is
    the reference's second layer and the integer array is the argument. -/
theorem entry_mean (m : (ℓ : Loc nD τ sig) → Buf (Elt Ideal) ℓ) (ρ : Dev nD → PrngReg) (c : Dev nD)
    (h52 : W8 m ρ c (Proc.devRef .tc main_v52) = Cert.ReferenceIdeal.Read.val_main_v64 (F := Ideal) (A m c main_arg0) (A m c main_arg1) (A m c main_arg2) (A m c main_arg3) (A m c main_arg5) (A m c main_arg6) (A m c main_arg7) (A m c main_arg8) (A m c main_arg9) (A m c main_arg10) (A m c main_arg11) (A m c main_arg12))
    (h4 : W8 m ρ c (Proc.devRef .tc main_arg4) = A m c main_arg4) :
    V11 m ρ c main_v75 = Cert.ReferenceIdeal.Read.val_main_v86 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) := by
  show StableHlo.after hostOps2_2 (StableHlo.after hostOps2_1 (StableHlo.after hostOps2 (W8 m ρ c))) (Proc.devRef .tc main_v75) = _
  rw [quot, keep1_v67, clip, numer, count, one, h52, h4]
  unfold Cert.ReferenceIdeal.Read.val_main_v86 Cert.ReferenceIdeal.Read.val_main_v78 Cert.ReferenceIdeal.Read.val_main_v75
    Cert.ReferenceIdeal.Read.val_main_v85 Cert.ReferenceIdeal.Read.val_main_v84 Cert.ReferenceIdeal.Read.val_main_v83
    Cert.ReferenceIdeal.Read.val_main_call4_v1 Cert.ReferenceIdeal.Read.val_main_call4_v0
  rfl

/-- The third region's second row operand is the argument. -/
theorem entry_arg1 (m : (ℓ : Loc nD τ sig) → Buf (Elt Ideal) ℓ) (ρ : Dev nD → PrngReg) (c : Dev nD)
    (h1 : W8 m ρ c (Proc.devRef .tc main_arg1) = A m c main_arg1) : V11 m ρ c main_arg1 = A m c main_arg1 := by
  show StableHlo.after hostOps2_2 (StableHlo.after hostOps2_1 (StableHlo.after hostOps2 (W8 m ρ c))) (Proc.devRef .tc main_arg1) = _
  rw [keep_arg1, h1]

/-- The third region's first weight is the argument. -/
theorem entry_arg13 (m : (ℓ : Loc nD τ sig) → Buf (Elt Ideal) ℓ) (ρ : Dev nD → PrngReg) (c : Dev nD)
    (h13 : W8 m ρ c (Proc.devRef .tc main_arg13) = A m c main_arg13) : V11 m ρ c main_arg13 = A m c main_arg13 := by
  show StableHlo.after hostOps2_2 (StableHlo.after hostOps2_1 (StableHlo.after hostOps2 (W8 m ρ c))) (Proc.devRef .tc main_arg13) = _
  rw [keep_arg13, h13]

/-- The third region's second weight is the argument. -/
theorem entry_arg15 (m : (ℓ : Loc nD τ sig) → Buf (Elt Ideal) ℓ) (ρ : Dev nD → PrngReg) (c : Dev nD)
    (h15 : W8 m ρ c (Proc.devRef .tc main_arg15) = A m c main_arg15) : V11 m ρ c main_arg15 = A m c main_arg15 := by
  show StableHlo.after hostOps2_2 (StableHlo.after hostOps2_1 (StableHlo.after hostOps2 (W8 m ρ c))) (Proc.devRef .tc main_arg15) = _
  rw [keep_arg15, h15]

/-- The third region's third weight is the argument. -/
theorem entry_arg16 (m : (ℓ : Loc nD τ sig) → Buf (Elt Ideal) ℓ) (ρ : Dev nD → PrngReg) (c : Dev nD)
    (h16 : W8 m ρ c (Proc.devRef .tc main_arg16) = A m c main_arg16) : V11 m ρ c main_arg16 = A m c main_arg16 := by
  show StableHlo.after hostOps2_2 (StableHlo.after hostOps2_1 (StableHlo.after hostOps2 (W8 m ρ c))) (Proc.devRef .tc main_arg16) = _
  rw [keep_arg16, h16]

/-- The third region's first bias row reads, at column q, entry q of the bias vector. -/
theorem entry_bias1 (m : (ℓ : Loc nD τ sig) → Buf (Elt Ideal) ℓ) (ρ : Dev nD → PrngReg) (c : Dev nD)
    (h14 : W8 m ρ c (Proc.devRef .tc main_arg14) = A m c main_arg14) (q : Fin 128) :
    (V11 m ρ c main_v76 : S1x128.Idx → EReal) (ix2 (0 : Fin 1) q) = (A m c main_arg14 : S128.Idx → EReal) (ix1 q) := by
  have e : (V11 m ρ c main_v76 : S1x128.Idx → EReal)
      = shapeCast S1x128 (A m c main_arg14 : S128.Idx → EReal) shapeCasts_S128_S1x128 := by
    show StableHlo.after hostOps2_2 (StableHlo.after hostOps2_1 (StableHlo.after hostOps2 (W8 m ρ c))) (Proc.devRef .tc main_v76) = _
    rw [bias1, keep01_arg14, h14]
  rw [e, shapeCast_a_1a_apply]

/-- The third region's second bias row reads, at column q, entry q of the bias vector. -/
theorem entry_bias2 (m : (ℓ : Loc nD τ sig) → Buf (Elt Ideal) ℓ) (ρ : Dev nD → PrngReg) (c : Dev nD)
    (h17 : W8 m ρ c (Proc.devRef .tc main_arg17) = A m c main_arg17) (q : Fin 128) :
    (V11 m ρ c main_v77 : S1x128.Idx → EReal) (ix2 (0 : Fin 1) q) = (A m c main_arg17 : S128.Idx → EReal) (ix1 q) := by
  have e : (V11 m ρ c main_v77 : S1x128.Idx → EReal)
      = shapeCast S1x128 (A m c main_arg17 : S128.Idx → EReal) shapeCasts_S128_S1x128 := by
    show StableHlo.after hostOps2_2 (StableHlo.after hostOps2_1 (StableHlo.after hostOps2 (W8 m ρ c))) (Proc.devRef .tc main_v77) = _
    rw [bias2, keep01_arg17, h17]
  rw [e, shapeCast_a_1a_apply]

/-! ## The third region's result -/

/-- The third region's result is the reference's third layer of the arguments, when the second region's result is the
    reference's second layer and the arguments the third stage reads are still as launched. -/
theorem out2 (m : (ℓ : Loc nD τ sig) → Buf (Elt Ideal) ℓ) (ρ : Dev nD → PrngReg) (c : Dev nD)
    (h52 : W8 m ρ c (Proc.devRef .tc main_v52) = Cert.ReferenceIdeal.Read.val_main_v64 (F := Ideal) (A m c main_arg0) (A m c main_arg1) (A m c main_arg2) (A m c main_arg3) (A m c main_arg5) (A m c main_arg6) (A m c main_arg7) (A m c main_arg8) (A m c main_arg9) (A m c main_arg10) (A m c main_arg11) (A m c main_arg12))
    (h1 : W8 m ρ c (Proc.devRef .tc main_arg1) = A m c main_arg1) (h4 : W8 m ρ c (Proc.devRef .tc main_arg4) = A m c main_arg4)
    (h13 : W8 m ρ c (Proc.devRef .tc main_arg13) = A m c main_arg13) (h14 : W8 m ρ c (Proc.devRef .tc main_arg14) = A m c main_arg14)
    (h15 : W8 m ρ c (Proc.devRef .tc main_arg15) = A m c main_arg15) (h16 : W8 m ρ c (Proc.devRef .tc main_arg16) = A m c main_arg16)
    (h17 : W8 m ρ c (Proc.devRef .tc main_arg17) = A m c main_arg17) :
    W12 m ρ c (Proc.devRef .tc main_v78) = Cert.ReferenceIdeal.Read.val_main_v100 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) := by
  refine (Gen.W12_arr m ρ c 7).trans ?_
  rw [Cert.KernelIdeal.Region2.arr (V11 m ρ) c, entry_mean m ρ c h52 h4, entry_arg1 m ρ c h1, entry_arg13 m ρ c h13,
    entry_arg15 m ρ c h15, entry_arg16 m ρ c h16]
  exact (Cert.ReferenceIdeal.RefLayers3D.layer3 (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17)
    (V11 m ρ c main_v76) (V11 m ρ c main_v77) (entry_bias1 m ρ c h14) (entry_bias2 m ρ c h17)).symm

end Cert.KernelIdeal.Stage2

end
-- ==== Proof.Region3.lean ====
/-
  The edge decoder's result array as one function of the arrays it reads, on the extended reals.

  The decoder works through the 800000 edges in a hundred blocks of 8000. For the edges of a block it forms the hidden layer

      h = max ((zr · w1rᵀ + zc · w1cᵀ) + b1) 0

  from the rows zr, zc of the two endpoint-feature arrays that belong to the block, and then one score per edge,

      out = h · w2ᵀ + b2,

  with w2 a single row of 128 weights and b2 a single number. Row r of h, and so of out, depends on row r of zr and of zc
  alone, and the weights and biases are the same at every block. So block t of the result is rows 8000 t … 8000 t + 7999
  of the two layers applied to the WHOLE arrays, and since the hundred blocks tile the 800000 rows (row r lies in block
  r / 8000) the result array is `proj (hidden2 zr zc w1r w1c b1) w2 b2` (`arr`).

  In order: the block computation at an entry, as sums, products and one maximum of the entries of the blocks it reads
  (`pay_apply`), which is the layers' formula at the block's row of the whole arrays (`pay_rows`); each block the
  computation reads as rows of its array, or as the whole array for the weights and biases (`zrBlock_rows` …
  `b2Block_whole`); what a block writes back (`writeBack_eq`); every row is in some block (`rows_covered`); the array
  (`arr`). Only sums, products and maxima of extended reals occur; nothing is assumed finite.
-/
import proofs.«138091_j59785944760477_2_alg».proof.Proof.Gen.KernelIdeal.Frame
import proofs.«138091_j59785944760477_2_alg».proof.Proof.Layers
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal

/-! ## The block computation at an entry -/

/-- A matrix product A·B accumulated into zero, at entry (a, b): the sum over the contracted coordinate c of
    A(a,c) · B(c,b). -/
theorem matmul_plain_apply {m K N : Nat} {φ₁ φ₂ : FTy} (prec : Option ContractPrecision)
    (A : FVec Ideal ⟨2, ![m, K]⟩ φ₁) (B : FVec Ideal ⟨2, ![K, N]⟩ φ₂) (a : Fin m) (b : Fin N) :
    matmul (DotDims.plain m K N) prec A B (constant (F := Ideal) ⟨2, ![m, N]⟩ .f32 0x00000000#32) (ix2 a b)
      = ∑ c : Fin K, A (ix2 a c) * B (ix2 c b) := by
  rw [matmul_zero_eq_dotGeneral, StackMember.dotGeneral_plain_apply]

/-- The hidden layer's two products contract the last axis of the left operand with the first of the right. -/
theorem dotHidden_eq : dot_S8000x128_S128x128_S8000x128_1_0_0_1_n_n = DotDims.plain 8000 128 128 := rfl

/-- So does the score's product, whose right operand is one column. -/
theorem dotOut_eq : dot_S8000x128_S128x1_S8000x1_1_0_0_1_n_n = DotDims.plain 8000 128 1 := rfl

/-- Entry (p, q) of the block computation: the score of the block's row p. The hidden unit j of that row is
    max ((Σ_k x0(p,k) · x2(j,k) + Σ_k x1(p,k) · x3(j,k)) + x4(0,j)) 0 — the weights are transposed before each
    product, which swaps the coordinates they are read at —, and the score is Σ_j hidden(j) · x5(q,j) + x6(0,q). The
    roundings to the narrower format are the identity on the extended reals. -/
theorem pay_apply (x0 x1 : Vec Ideal S8000x128 .bf16) (x2 x3 : Vec Ideal S128x128 .f32)
    (x4 x5 : Vec Ideal S1x128 .f32) (x6 : Vec Ideal S1x1 .f32) (p : Fin 8000) (q : Fin 1) :
    Gen.k3_pay1 x0 x1 x2 x3 x4 x5 x6 (ix2 p q)
      = (∑ j : Fin 128, max (((∑ k : Fin 128, x0 (ix2 p k) * x2 (ix2 j k))
            + ∑ k : Fin 128, x1 (ix2 p k) * x3 (ix2 j k)) + x4 (ix2 (0 : Fin 1) j)) 0 * x5 (ix2 q j))
          + x6 (ix2 (0 : Fin 1) q) := by
  unfold Gen.k3_pay1
  simp only [shapeCast_self]
  rw [addf_apply, dotOut_eq, matmul_plain_apply, broadcastTo_1b_ab_apply]
  refine congrArg₂ (· + ·) (Finset.sum_congr rfl fun j _ => ?_) rfl
  rw [truncf_apply, maximumf_apply, addf_apply, addf_apply, dotHidden_eq, matmul_plain_apply, matmul_plain_apply,
    broadcastTo_1b_ab_apply, broadcast_apply, transpose_ix2_apply, truncf_apply]
  refine congrArg₂ (· * ·) (congrArg₂ max (congrArg₂ (· + ·) (congrArg₂ (· + ·)
    (Finset.sum_congr rfl fun c _ => ?_) (Finset.sum_congr rfl fun c _ => ?_)) rfl) Ideal.ofBits_zero_f32) rfl
  · rw [transpose_ix2_apply, truncf_apply]
  · rw [transpose_ix2_apply, truncf_apply]

/-- The block computation on rows `row p` of the arrays A0, A1, with the weights and biases the arrays W2 … W6, gives
    at (p, q) the two layers of the whole arrays at (`row p`, q): both are the same sums of the same products. -/
theorem pay_rows (x0 x1 : Vec Ideal S8000x128 .bf16) (x2 x3 : Vec Ideal S128x128 .f32)
    (x4 x5 : Vec Ideal S1x128 .f32) (x6 : Vec Ideal S1x1 .f32)
    (A0 A1 : S800000x128.Idx → EReal) (W2 W3 : S128x128.Idx → EReal) (W4 W5 : S1x128.Idx → EReal)
    (W6 : S1x1.Idx → EReal) (row : Fin 8000 → Fin 800000)
    (h0 : ∀ p k, x0 (ix2 p k) = A0 (ix2 (row p) k)) (h1 : ∀ p k, x1 (ix2 p k) = A1 (ix2 (row p) k))
    (h2 : x2 = W2) (h3 : x3 = W3) (h4 : x4 = W4) (h5 : x5 = W5) (h6 : x6 = W6) (p : Fin 8000) (q : Fin 1) :
    Gen.k3_pay1 x0 x1 x2 x3 x4 x5 x6 (ix2 p q)
      = Cert.Layers.proj 800000 1 (Cert.Layers.hidden2 800000 128 128 A0 A1 W2 W3 W4) W5 W6 (ix2 (row p) q) := by
  subst h2 h3 h4 h5 h6
  rw [pay_apply, Cert.Layers.proj_ix2]
  refine congrArg₂ (· + ·) (Finset.sum_congr rfl fun j _ => ?_) rfl
  rw [Cert.Layers.hidden2_ix2]
  simp only [h0, h1]

/-! ## The blocks as rows of the arrays -/

theorem offsets_zero : (![0, 0] : Fin 2 → Nat) = fun _ => 0 := funext fun a => by fin_cases a <;> rfl

/-- The block indices at every point of the grid: the two feature arrays and the result move one block of rows per
    point and stay in their one block of columns; the weights and biases stay at their one block. -/
theorem blockIndices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- There are a hundred points. -/
theorem point_lt (t : Fin cfg3.N) : t.val < 100 := Nat.lt_of_lt_of_eq t.isLt Gen.N_3

/-- Row `p` of the block of point `t` is row `8000 t + p` of the array. -/
def blockRow (t : Fin cfg3.N) (p : Fin 8000) : Fin 800000 :=
  ⟨t.val * 8000 + p.val, by have := point_lt t; have := p.isLt; omega⟩

variable (V : (c : Dev nD) → (b : Ref sig .tc) → Buf (Elt Ideal) ((c : Thread nD τ).loc b))

/-- The block of the first feature array at point `t` is its rows `8000 t … 8000 t + 7999`, all 128 columns. -/
theorem zrBlock_rows (c : Dev nD) (t : Fin cfg3.N) (p : Fin 8000) (k : Fin 128) :
    (Gen.iblk3 (F := Ideal) V c 0 t : Vec Ideal S8000x128 .bf16) (ix2 p k)
      = (V c main_v89 : S800000x128.Idx → EReal) (ix2 (blockRow t p) k) := by
  obtain ⟨e0, e1, -⟩ := blockIndices t
  show (V c main_v89 : S800000x128.Idx → EReal) (((cfg3.win 0).blk t).view.emb (ix2 p k)) = _
  refine congrArg _ (funext fun a => Fin.ext ?_)
  match a with
  | ⟨0, _⟩ => show win3_0.index t (0 : Fin 2) * 8000 + 1 * p.val = t.val * 8000 + p.val; rw [e0]; omega
  | ⟨1, _⟩ => show win3_0.index t (1 : Fin 2) * 128 + 1 * k.val = k.val; rw [e1]; omega

/-- The block of the second feature array at point `t` is the same rows of it. -/
theorem zcBlock_rows (c : Dev nD) (t : Fin cfg3.N) (p : Fin 8000) (k : Fin 128) :
    (Gen.iblk3 (F := Ideal) V c 1 t : Vec Ideal S8000x128 .bf16) (ix2 p k)
      = (V c main_v96 : S800000x128.Idx → EReal) (ix2 (blockRow t p) k) := by
  obtain ⟨-, -, e0, e1, -⟩ := blockIndices t
  show (V c main_v96 : S800000x128.Idx → EReal) (((cfg3.win 1).blk t).view.emb (ix2 p k)) = _
  refine congrArg _ (funext fun a => Fin.ext ?_)
  match a with
  | ⟨0, _⟩ => show win3_1.index t (0 : Fin 2) * 8000 + 1 * p.val = t.val * 8000 + p.val; rw [e0]; omega
  | ⟨1, _⟩ => show win3_1.index t (1 : Fin 2) * 128 + 1 * k.val = k.val; rw [e1]; omega

/-- The block of the first hidden weight at every point is the whole weight. -/
theorem w1rBlock_whole (c : Dev nD) (t : Fin cfg3.N) :
    (Gen.iblk3 (F := Ideal) V c 2 t : Vec Ideal S128x128 .f32) = (V c main_v97 : S128x128.Idx → EReal) := by
  obtain ⟨-, -, -, -, e0, e1, -⟩ := blockIndices t
  funext y
  show (V c main_v97 : S128x128.Idx → EReal) (((cfg3.win 2).blk t).view.emb y) = _
  refine congrArg _ (funext fun a => Fin.ext ?_)
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

/-- The block of the second hidden weight at every point is the whole weight. -/
theorem w1cBlock_whole (c : Dev nD) (t : Fin cfg3.N) :
    (Gen.iblk3 (F := Ideal) V c 3 t : Vec Ideal S128x128 .f32) = (V c main_v98 : S128x128.Idx → EReal) := by
  obtain ⟨-, -, -, -, -, -, e0, e1, -⟩ := blockIndices t
  funext y
  show (V c main_v98 : S128x128.Idx → EReal) (((cfg3.win 3).blk t).view.emb y) = _
  refine congrArg _ (funext fun a => Fin.ext ?_)
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- The block of the hidden bias at every point is the whole row. -/
theorem b1Block_whole (c : Dev nD) (t : Fin cfg3.N) :
    (Gen.iblk3 (F := Ideal) V c 4 t : Vec Ideal S1x128 .f32) = (V c main_v99 : S1x128.Idx → EReal) := by
  obtain ⟨-, -, -, -, -, -, -, -, e0, e1, -⟩ := blockIndices t
  funext y
  show (V c main_v99 : S1x128.Idx → EReal) (((cfg3.win 4).blk t).view.emb y) = _
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- The block of the score's weight at every point is the whole row. -/
theorem w2Block_whole (c : Dev nD) (t : Fin cfg3.N) :
    (Gen.iblk3 (F := Ideal) V c 5 t : Vec Ideal S1x128 .f32) = (V c main_arg20 : S1x128.Idx → EReal) := by
  obtain ⟨-, -, -, -, -, -, -, -, -, -, e0, e1, -⟩ := blockIndices t
  funext y
  show (V c main_arg20 : S1x128.Idx → EReal) (((cfg3.win 5).blk t).view.emb y) = _
  refine congrArg _ (funext fun a => Fin.ext ?_)
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-- The block of the score's bias at every point is the one number. -/
theorem b2Block_whole (c : Dev nD) (t : Fin cfg3.N) :
    (Gen.iblk3 (F := Ideal) V c 6 t : Vec Ideal S1x1 .f32) = (V c main_v100 : S1x1.Idx → EReal) := by
  obtain ⟨-, -, -, -, -, -, -, -, -, -, -, -, e0, e1, -⟩ := blockIndices t
  funext y
  show (V c main_v100 : S1x1.Idx → EReal) (((cfg3.win 6).blk t).view.emb y) = _
  refine congrArg _ (funext fun a => Fin.ext ?_)
  match a with
  | ⟨0, _⟩ => show win3_6.index t (0 : Fin 2) * 1 + 1 * (y 0).val = (y 0).val; rw [e0]; omega
  | ⟨1, _⟩ => show win3_6.index t (1 : Fin 2) * 1 + 1 * (y 1).val = (y 1).val; rw [e1]; omega

/-! ## From the blocks to the array -/

/-- The decoder's two layers of the arrays as the region is entered. -/
abbrev decoded (c : Dev nD) : S800000x1.Idx → EReal :=
  Cert.Layers.proj 800000 1
    (Cert.Layers.hidden2 800000 128 128 (V c main_v89) (V c main_v96) (V c main_v97) (V c main_v98) (V c main_v99))
    (V c main_arg20) (V c main_v100)

/-- What point `t` writes back is block `t` of the two layers of the whole arrays: entry (p, q) of the block
    computation on the point's blocks is the layers' value at row `8000 t + p`, which is where entry (p, q) of the
    result's block `t` sits. -/
theorem writeBack_eq (c : Dev nD) (t : Fin cfg3.N) :
    (Gen.dat3 (F := Ideal) V c).flushed 7 t = ((cfg3.win 7).blk t).view.read (Elt Ideal) (decoded V c) := by
  show (cfg3.win 7).cut (grid3.coords t) ((Gen.dat3 (F := Ideal) V c).after 7 t) = _
  rw [Gen.after3_7]
  unfold Gen.out3_7
  rw [View.canon_unit_zero offsets_zero]
  simp only [View.ld_unit_zero (S := S8000x128) offsets_zero, View.ld_unit_zero (S := S128x128) offsets_zero,
    View.ld_unit_zero (S := S1x128) offsets_zero, View.ld_unit_zero (S := S1x1) offsets_zero]
  obtain ⟨-, -, -, -, -, -, -, -, -, -, -, -, -, -, e0, e1⟩ := blockIndices t
  funext j
  obtain ⟨p, q, rfl⟩ : ∃ (p : Fin 8000) (q : Fin 1), j = ix2 p q := ⟨j 0, j 1, eq_ix2 j⟩
  refine (pay_rows (Gen.iblk3 (F := Ideal) V c 0 t) (Gen.iblk3 (F := Ideal) V c 1 t) (Gen.iblk3 (F := Ideal) V c 2 t)
    (Gen.iblk3 (F := Ideal) V c 3 t) (Gen.iblk3 (F := Ideal) V c 4 t) (Gen.iblk3 (F := Ideal) V c 5 t)
    (Gen.iblk3 (F := Ideal) V c 6 t) (V c main_v89) (V c main_v96) (V c main_v97) (V c main_v98) (V c main_v99)
    (V c main_arg20) (V c main_v100) (blockRow t) (zrBlock_rows V c t) (zcBlock_rows V c t) (w1rBlock_whole V c t)
    (w1cBlock_whole V c t) (b1Block_whole V c t) (w2Block_whole V c t) (b2Block_whole V c t) p q).trans ?_
  show decoded V c (ix2 (blockRow t p) q) = decoded V c (((cfg3.win 7).blk t).view.emb (ix2 p q))
  refine congrArg _ (funext fun a => Fin.ext ?_)
  match a with
  | ⟨0, _⟩ => show t.val * 8000 + p.val = win3_7.index t (0 : Fin 2) * 8000 + 1 * p.val; rw [e0]; omega
  | ⟨1, _⟩ => show q.val = win3_7.index t (1 : Fin 2) * 1 + 1 * q.val; rw [e1]; omega

/-- An index of the result array is in the block of point `t` iff each coordinate is in the block's range. -/
theorem mem_block (t : Fin cfg3.N) (i : S800000x1.Idx) :
    i ∈ ((cfg3.win 7).blk t).view.set
      ↔ ∀ a : Fin 2, win3_7.index t a * S8000x1.size a ≤ (i a).val
          ∧ (i a).val < win3_7.index t a * S8000x1.size a + S8000x1.size a := by
  show i ∈ ((View.whole main_v101).slice (win3_7.rect t)).set ↔ _
  rw [View.set_slice_whole, Rect.mem_set_unit]
  exact Iff.rfl

/-- Row `r` of the result is written back by point `r / 8000`: `(r / 8000) · 8000 ≤ r < (r / 8000) · 8000 + 8000`. -/
theorem rows_covered (i : S800000x1.Idx) :
    ∃ t : Fin cfg3.N, (cfg3.win 7).flush t = true ∧ i ∈ ((cfg3.win 7).blk t).view.set := by
  have hi0 : (i 0).val < 800000 := (i 0).isLt
  have hi1 : (i 1).val < 1 := (i 1).isLt
  have ht : (i 0).val / 8000 < grid3.N := Nat.lt_of_lt_of_eq (by omega) Gen.N_3.symm
  obtain ⟨-, -, -, -, -, -, -, -, -, -, -, -, -, -, e0, e1⟩ := blockIndices ⟨(i 0).val / 8000, ht⟩
  refine ⟨⟨(i 0).val / 8000, ht⟩, Gen.flush3_7 _, ?_⟩
  rw [mem_block]
  intro a
  match a with
  | ⟨0, _⟩ =>
    show win3_7.index ⟨(i 0).val / 8000, ht⟩ (0 : Fin 2) * 8000 ≤ (i 0).val
      ∧ (i 0).val < win3_7.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win3_7.index ⟨(i 0).val / 8000, ht⟩ (1 : Fin 2) * 1 ≤ (i 1).val
      ∧ (i 1).val < win3_7.index ⟨(i 0).val / 8000, ht⟩ (1 : Fin 2) * 1 + 1
    rw [e1]; omega

/-- The result array after the region: the decoder's two layers of the arrays as the region is entered. -/
theorem arr (c : Dev nD) :
    (Gen.dat3 (F := Ideal) V c).arrAt 7 cfg3.N
      = Cert.Layers.proj 800000 1
          (Cert.Layers.hidden2 800000 128 128 (V c main_v89) (V c main_v96) (V c main_v97) (V c main_v98) (V c main_v99))
          (V c main_arg20) (V c main_v100) :=
  (Gen.dat3 (F := Ideal) V c).arrAt_eq_of_cover 7 (decoded V c) (fun t _ => writeBack_eq V c t) rows_covered

end Cert.KernelIdeal.Region3

end
-- ==== Proof.Stage3.lean ====
/-
  The value the program returns, read off its run and identified with the reference's last value.

  The run ends with one reshape: the returned vector [800000] is the decoder region's result [800000, 1] with the
  unit axis dropped. The decoder region's result is the two decoder layers of the seven arrays it reads (the hidden
  layer max ((zr · w1rᵀ + zc · w1cᵀ) + b1) 0, then one score per edge). Those seven arrays are what the stretch of
  host operations before the region computes from the node array and four arguments:

    zr, zc   rows of the node array, chosen by the first and by the second row of the edge list (an index below zero
             counts from the end), which is how the reference gathers the two ends of every edge;
    w1r, w1c the columns 0 … 127 and 128 … 255 of the hidden weight [128, 256], which is what multiplying the
             side-by-side rows (zr | zc) by the whole weight amounts to;
    b1, b2   the two bias vectors with a unit axis in front; the output weight is an argument as it stands.

  So once the node array is the reference's third node layer, the region's result is the reference's decoder, and the
  returned vector is the reference's, which ends with the same reshape.
-/
import proofs.«138091_j59785944760477_2_alg».proof.Proof.Gen.KernelIdeal.Frame
import proofs.«138091_j59785944760477_2_alg».proof.Proof.Gen.ReferenceIdeal.Read
import proofs.«138091_j59785944760477_2_alg».proof.Proof.FoldBase
import proofs.«138091_j59785944760477_2_alg».proof.Proof.Reads
import proofs.«138091_j59785944760477_2_alg».proof.Proof.Layers
import proofs.«138091_j59785944760477_2_alg».proof.Proof.Region3
import proofs.«138091_j59785944760477_2_alg».proof.Proof.RefLayers3D
import Idealize.ShloMosaic.Lib.ValueIdx
import Idealize.ShloMosaic.Lib.ValueLayout
import Idealize.ShloMosaic.Lib.StableHlo.Run

set_option maxRecDepth 16384

noncomputable section

namespace Cert.KernelIdeal.Stage3

open Cert.KernelIdeal Cert.KernelIdeal.Gen
open Idealize.ShloMosaic Idealize.ShloMosaic.TcCoe Idealize.SL.Sem Idealize.ShloMosaic.StableHlo

/-! ## The decoder's inputs, as the last stretch of host operations before it leaves them

Each is read off the list of operations over an arbitrary starting valuation: the two gathered arrays are rows of the
node array chosen by the two rows of the edge list (negative entries wrapped round by the number of nodes), the two
hidden weights are the left and right halves of the columns of one weight matrix, and the two biases are vectors
given a leading unit axis. -/

section Entry

variable (Wp : Valuation τ sig (Elt Ideal))

/-- The first gathered array: rows of the node array chosen by the edge list's first row. -/
theorem zr_of :
    (StableHlo.after hostOps3 Wp (Proc.devRef .tc main_v89) : S800000x128.Idx → EReal)
      = Host.gather gather_S100000x128_S800000x1_S800000x128_1_0_n_n_0_1_1128 (Wp (Proc.devRef .tc main_v78) : S100000x128.Idx → EReal)
          (Cert.ReferenceIdeal.Read.val_main_v110 (F := Ideal) (Wp (Proc.devRef .tc main_arg4))) := by
  after_results_simp <;> rfl

/-- The second gathered array: rows of the node array chosen by the edge list's second row. -/
theorem zc_of :
    (StableHlo.after hostOps3 Wp (Proc.devRef .tc main_v96) : S800000x128.Idx → EReal)
      = Host.gather gather_S100000x128_S800000x1_S800000x128_1_0_n_n_0_1_1128 (Wp (Proc.devRef .tc main_v78) : S100000x128.Idx → EReal)
          (Cert.ReferenceIdeal.Read.val_main_v117 (F := Ideal) (Wp (Proc.devRef .tc main_arg4))) := by
  after_results_simp <;> rfl

/-- The first hidden weight: columns 0 … 127 of the weight matrix. -/
theorem w1r_of :
    (StableHlo.after hostOps3 Wp (Proc.devRef .tc main_v97) : S128x128.Idx → EReal)
      = extractStridedSlice S128x128 ![0, 0] (Wp (Proc.devRef .tc main_arg18) : S128x256.Idx → EReal)
          slices_S128x256_S128x128_0_0 := by
  after_results_simp <;> rfl

/-- The second hidden weight: columns 128 … 255 of the weight matrix. -/
theorem w1c_of :
    (StableHlo.after hostOps3 Wp (Proc.devRef .tc main_v98) : S128x128.Idx → EReal)
      = extractStridedSlice S128x128 ![0, 128] (Wp (Proc.devRef .tc main_arg18) : S128x256.Idx → EReal)
          slices_S128x256_S128x128_0_128 := by
  after_results_simp <;> rfl

/-- The hidden bias as one row. -/
theorem b1_of :
    (StableHlo.after hostOps3 Wp (Proc.devRef .tc main_v99) : S1x128.Idx → EReal)
      = shapeCast S1x128 (Wp (Proc.devRef .tc main_arg19) : S128.Idx → EReal) shapeCasts_S128_S1x128 := by
  after_results_simp <;> rfl

/-- The output weight is an argument, which the stretch does not write. -/
theorem w2_of :
    (StableHlo.after hostOps3 Wp (Proc.devRef .tc main_arg20) : S1x128.Idx → EReal)
      = (Wp (Proc.devRef .tc main_arg20) : S1x128.Idx → EReal) := by
  after_results_simp <;> rfl

/-- The output bias as a one-by-one matrix. -/
theorem b2_of :
    (StableHlo.after hostOps3 Wp (Proc.devRef .tc main_v100) : S1x1.Idx → EReal)
      = shapeCast S1x1 (Wp (Proc.devRef .tc main_arg21) : S1.Idx → EReal) shapeCasts_S1_S1x1 := by
  after_results_simp <;> rfl

/-- The returned vector is the decoder's one-column result with the unit axis dropped. -/
theorem ret_of :
    (StableHlo.after hostOps4 Wp (Proc.devRef .tc main_v102) : S800000.Idx → EReal)
      = shapeCast S800000 (Wp (Proc.devRef .tc main_v101) : S800000x1.Idx → EReal) shapeCasts_S800000x1_S800000 := by
  after_results_simp <;> rfl

end Entry

/-! ## The returned vector -/

open Cert.KernelIdeal.Fold Idealize.ShloMosaic.ValueIdx

/-- The program returns the reference's last value, given that the node array entering the decoder is the reference's
    third node layer and that the arguments the decoder's inputs are cut from are still as launched.

    The returned vector is the decoder's one-column result with its unit axis dropped. That result is the two decoder
    layers applied to the arrays the last stretch of host operations leaves: the two gathered arrays, which are the
    reference's own two gathers of the node array; the two halves of the columns of the hidden weight; and the two
    biases with a unit axis in front. Those are the reference's decoder, and the reference too ends by dropping the
    unit axis. -/
theorem out3 (m : (ℓ : Loc nD τ sig) → Buf (Elt Ideal) ℓ) (ρ : Dev nD → PrngReg) (c : Dev nD)
    (h78 : W12 m ρ c (Proc.devRef .tc main_v78) = Cert.ReferenceIdeal.Read.val_main_v100 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17))
    (h4 : W12 m ρ c (Proc.devRef .tc main_arg4) = A m c main_arg4) (h18 : W12 m ρ c (Proc.devRef .tc main_arg18) = A m c main_arg18)
    (h19 : W12 m ρ c (Proc.devRef .tc main_arg19) = A m c main_arg19) (h20 : W12 m ρ c (Proc.devRef .tc main_arg20) = A m c main_arg20)
    (h21 : W12 m ρ c (Proc.devRef .tc main_arg21) = A m c main_arg21) :
    W15 m ρ c (Proc.devRef .tc main_v102) = Cert.ReferenceIdeal.Read.val_main_v131 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) := by
  -- the decoder's seven inputs, as the stretch before it leaves them
  have e89 : (V13 m ρ c main_v89 : S800000x128.Idx → EReal) = Cert.ReferenceIdeal.Read.val_main_v111 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) := by
    refine (zr_of (W12 m ρ c)).trans ?_
    rw [h78, h4]; rfl
  have e96 : (V13 m ρ c main_v96 : S800000x128.Idx → EReal) = Cert.ReferenceIdeal.Read.val_main_v118 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) := by
    refine (zc_of (W12 m ρ c)).trans ?_
    rw [h78, h4]; rfl
  have e97 : (V13 m ρ c main_v97 : S128x128.Idx → EReal)
      = extractStridedSlice S128x128 ![0, 0] (A m c main_arg18 : S128x256.Idx → EReal) slices_S128x256_S128x128_0_0 := by
    refine (w1r_of (W12 m ρ c)).trans ?_
    rw [h18]
  have e98 : (V13 m ρ c main_v98 : S128x128.Idx → EReal)
      = extractStridedSlice S128x128 ![0, 128] (A m c main_arg18 : S128x256.Idx → EReal) slices_S128x256_S128x128_0_128 := by
    refine (w1c_of (W12 m ρ c)).trans ?_
    rw [h18]
  have e99 : (V13 m ρ c main_v99 : S1x128.Idx → EReal)
      = shapeCast S1x128 (A m c main_arg19 : S128.Idx → EReal) shapeCasts_S128_S1x128 := by
    refine (b1_of (W12 m ρ c)).trans ?_
    rw [h19]
  have e20 : (V13 m ρ c main_arg20 : S1x128.Idx → EReal) = (A m c main_arg20 : S1x128.Idx → EReal) :=
    (w2_of (W12 m ρ c)).trans h20
  have e100 : (V13 m ρ c main_v100 : S1x1.Idx → EReal)
      = shapeCast S1x1 (A m c main_arg21 : S1.Idx → EReal) shapeCasts_S1_S1x1 := by
    refine (b2_of (W12 m ρ c)).trans ?_
    rw [h21]
  -- the weights and biases at an index
  have hr : ∀ j k : Fin 128,
      extractStridedSlice S128x128 ![0, 0] (A m c main_arg18 : S128x256.Idx → EReal) slices_S128x256_S128x128_0_0 (ix2 j k)
        = (A m c main_arg18 : S128x256.Idx → EReal) (ix2 j (⟨k.val, by have := k.isLt; omega⟩ : Fin 256)) :=
    fun j k => Cert.Reads.slice_cols_apply 0 _ _ j k _ (Nat.zero_add _).symm
  have hc : ∀ j k : Fin 128,
      extractStridedSlice S128x128 ![0, 128] (A m c main_arg18 : S128x256.Idx → EReal) slices_S128x256_S128x128_0_128 (ix2 j k)
        = (A m c main_arg18 : S128x256.Idx → EReal) (ix2 j (⟨128 + k.val, by have := k.isLt; omega⟩ : Fin 256)) :=
    fun j k => Cert.Reads.slice_cols_apply 128 _ _ j k _ rfl
  have hb1 : ∀ q : Fin 128,
      shapeCast S1x128 (A m c main_arg19 : S128.Idx → EReal) shapeCasts_S128_S1x128 (ix2 (0 : Fin 1) q)
        = (A m c main_arg19 : S128.Idx → EReal) (ix1 q) :=
    fun q => shapeCast_a_1a_apply _ _ 0 q
  have hb2 : shapeCast S1x1 (A m c main_arg21 : S1.Idx → EReal) shapeCasts_S1_S1x1 (ix2 (0 : Fin 1) (0 : Fin 1))
      = (A m c main_arg21 : S1.Idx → EReal) (ix1 (0 : Fin 1)) :=
    shapeCast_a_1a_apply _ _ 0 0
  calc W15 m ρ c (Proc.devRef .tc main_v102)
      = shapeCast S800000 (W14 m ρ c (Proc.devRef .tc main_v101) : S800000x1.Idx → EReal) shapeCasts_S800000x1_S800000 :=
        ret_of (W14 m ρ c)
    _ = shapeCast S800000 ((Gen.dat3 (F := Ideal) (V13 m ρ) c).arrAt 7 cfg3.N : S800000x1.Idx → EReal)
          shapeCasts_S800000x1_S800000 :=
        congrArg (fun z : S800000x1.Idx → EReal => shapeCast S800000 z shapeCasts_S800000x1_S800000) (Gen.W14_arr m ρ c 7)
    _ = shapeCast S800000 (Cert.ReferenceIdeal.Read.val_main_v130 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21)) shapeCasts_S800000x1_S800000 := by
        rw [Cert.KernelIdeal.Region3.arr (V13 m ρ) c, e89, e96, e97, e98, e99, e20, e100,
          ← Cert.ReferenceIdeal.RefLayers3D.decoder (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) _ _ _ _ hr hc hb1 hb2]
    _ = Cert.ReferenceIdeal.Read.val_main_v131 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) := rfl

end Cert.KernelIdeal.Stage3

end
-- ==== Proof.FoldArgs.lean ====
/-
  The buffers that the kernel regions leave untouched, read back through the run to the launch contents.

  The run alternates stretches of host operations with kernel regions. A host operation changes only the buffer it
  writes, and a region changes only its result array: an array it only reads, and any buffer that is none of its
  arrays, holds after the region what it held before. None of the program's arguments is ever written, so at the exit
  of each region an argument still holds its launch contents `A m c k`; and the buffer `%4`, written once by the
  first stretch from three arguments (a matrix-vector product plus a bias, reshaped to a column) and never again, holds
  at the exit of the first region the reference's own `val_main_v4` of those arguments.

  Each statement walks back one level: through the region (untouched buffer, or array that is only read), then through
  the host operations before it (none of which writes the buffer), down to the previous region's exit or the launch.
-/
import proofs.«138091_j59785944760477_2_alg».proof.Proof.Gen.KernelIdeal.Frame
import proofs.«138091_j59785944760477_2_alg».proof.Proof.Gen.ReferenceIdeal.Read
import proofs.«138091_j59785944760477_2_alg».proof.Proof.FoldBase

set_option maxRecDepth 16384

noncomputable section

namespace Cert.KernelIdeal.FoldArgs

open Cert.KernelIdeal Cert.KernelIdeal.Gen Cert.KernelIdeal.Fold
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the exit of the first region -/

/-- `%4` is written by the first stretch from the arguments 0, 5, 6 and by nothing after. -/
theorem W4_v4 : W4 m ρ c (Proc.devRef .tc main_v4)
    = Cert.ReferenceIdeal.Read.val_main_v4 (F := Ideal) (A m c main_arg0) (A m c main_arg5) (A m c main_arg6) := by
  refine (W4_of_ne m ρ c main_v4 (by decide)).trans ?_
  show after hostOps0_2 (after hostOps0_1 (after hostOps0 (W0 m ρ c))) (Proc.devRef .tc main_v4) = _
  after_results_simp
  rfl

/-- Argument 1 is an array the first region only reads. -/
theorem W4_arg1 : W4 m ρ c (Proc.devRef .tc main_arg1) = A m c main_arg1 := by
  refine ((W4_arr m ρ c 1).trans (((dat0 (V3 m ρ) c).arrAt_in 1 rfl _).trans (A_eq0 (V3 m ρ) c 1))).trans ?_
  show after hostOps0_2 (after hostOps0_1 (after hostOps0 (W0 m ρ c))) (Proc.devRef .tc main_arg1) = _
  after_results_simp

theorem W4_arg3 : W4 m ρ c (Proc.devRef .tc main_arg3) = A m c main_arg3 := by
  refine (W4_of_ne m ρ c main_arg3 (by decide)).trans ?_
  show after hostOps0_2 (after hostOps0_1 (after hostOps0 (W0 m ρ c))) (Proc.devRef .tc main_arg3) = _
  after_results_simp

theorem W4_arg4 : W4 m ρ c (Proc.devRef .tc main_arg4) = A m c main_arg4 := by
  refine (W4_of_ne m ρ c main_arg4 (by decide)).trans ?_
  show after hostOps0_2 (after hostOps0_1 (after hostOps0 (W0 m ρ c))) (Proc.devRef .tc main_arg4) = _
  after_results_simp

theorem W4_arg10 : W4 m ρ c (Proc.devRef .tc main_arg10) = A m c main_arg10 := by
  refine (W4_of_ne m ρ c main_arg10 (by decide)).trans ?_
  show after hostOps0_2 (after hostOps0_1 (after hostOps0 (W0 m ρ c))) (Proc.devRef .tc main_arg10) = _
  after_results_simp

theorem W4_arg11 : W4 m ρ c (Proc.devRef .tc main_arg11) = A m c main_arg11 := by
  refine (W4_of_ne m ρ c main_arg11 (by decide)).trans ?_
  show after hostOps0_2 (after hostOps0_1 (after hostOps0 (W0 m ρ c))) (Proc.devRef .tc main_arg11) = _
  after_results_simp

theorem W4_arg12 : W4 m ρ c (Proc.devRef .tc main_arg12) = A m c main_arg12 := by
  refine (W4_of_ne m ρ c main_arg12 (by decide)).trans ?_
  show after hostOps0_2 (after hostOps0_1 (after hostOps0 (W0 m ρ c))) (Proc.devRef .tc main_arg12) = _
  after_results_simp

theorem W4_arg13 : W4 m ρ c (Proc.devRef .tc main_arg13) = A m c main_arg13 := by
  refine (W4_of_ne m ρ c main_arg13 (by decide)).trans ?_
  show after hostOps0_2 (after hostOps0_1 (after hostOps0 (W0 m ρ c))) (Proc.devRef .tc main_arg13) = _
  after_results_simp

theorem W4_arg14 : W4 m ρ c (Proc.devRef .tc main_arg14) = A m c main_arg14 := by
  refine (W4_of_ne m ρ c main_arg14 (by decide)).trans ?_
  show after hostOps0_2 (after hostOps0_1 (after hostOps0 (W0 m ρ c))) (Proc.devRef .tc main_arg14) = _
  after_results_simp

theorem W4_arg15 : W4 m ρ c (Proc.devRef .tc main_arg15) = A m c main_arg15 := by
  refine (W4_of_ne m ρ c main_arg15 (by decide)).trans ?_
  show after hostOps0_2 (after hostOps0_1 (after hostOps0 (W0 m ρ c))) (Proc.devRef .tc main_arg15) = _
  after_results_simp

theorem W4_arg16 : W4 m ρ c (Proc.devRef .tc main_arg16) = A m c main_arg16 := by
  refine (W4_of_ne m ρ c main_arg16 (by decide)).trans ?_
  show after hostOps0_2 (after hostOps0_1 (after hostOps0 (W0 m ρ c))) (Proc.devRef .tc main_arg16) = _
  after_results_simp

theorem W4_arg17 : W4 m ρ c (Proc.devRef .tc main_arg17) = A m c main_arg17 := by
  refine (W4_of_ne m ρ c main_arg17 (by decide)).trans ?_
  show after hostOps0_2 (after hostOps0_1 (after hostOps0 (W0 m ρ c))) (Proc.devRef .tc main_arg17) = _
  after_results_simp

theorem W4_arg18 : W4 m ρ c (Proc.devRef .tc main_arg18) = A m c main_arg18 := by
  refine (W4_of_ne m ρ c main_arg18 (by decide)).trans ?_
  show after hostOps0_2 (after hostOps0_1 (after hostOps0 (W0 m ρ c))) (Proc.devRef .tc main_arg18) = _
  after_results_simp

theorem W4_arg19 : W4 m ρ c (Proc.devRef .tc main_arg19) = A m c main_arg19 := by
  refine (W4_of_ne m ρ c main_arg19 (by decide)).trans ?_
  show after hostOps0_2 (after hostOps0_1 (after hostOps0 (W0 m ρ c))) (Proc.devRef .tc main_arg19) = _
  after_results_simp

theorem W4_arg20 : W4 m ρ c (Proc.devRef .tc main_arg20) = A m c main_arg20 := by
  refine (W4_of_ne m ρ c main_arg20 (by decide)).trans ?_
  show after hostOps0_2 (after hostOps0_1 (after hostOps0 (W0 m ρ c))) (Proc.devRef .tc main_arg20) = _
  after_results_simp

theorem W4_arg21 : W4 m ρ c (Proc.devRef .tc main_arg21) = A m c main_arg21 := by
  refine (W4_of_ne m ρ c main_arg21 (by decide)).trans ?_
  show after hostOps0_2 (after hostOps0_1 (after hostOps0 (W0 m ρ c))) (Proc.devRef .tc main_arg21) = _
  after_results_simp

/-! ## At the exit of the second region -/

theorem W8_arg1 : W8 m ρ c (Proc.devRef .tc main_arg1) = A m c main_arg1 := by
  refine (W8_of_ne m ρ c main_arg1 (by decide)).trans ?_
  show after hostOps1_2 (after hostOps1_1 (after hostOps1 (W4 m ρ c))) (Proc.devRef .tc main_arg1) = _
  after_results_simp
  exact W4_arg1 m ρ c

theorem W8_arg4 : W8 m ρ c (Proc.devRef .tc main_arg4) = A m c main_arg4 := by
  refine (W8_of_ne m ρ c main_arg4 (by decide)).trans ?_
  show after hostOps1_2 (after hostOps1_1 (after hostOps1 (W4 m ρ c))) (Proc.devRef .tc main_arg4) = _
  after_results_simp
  exact W4_arg4 m ρ c

theorem W8_arg13 : W8 m ρ c (Proc.devRef .tc main_arg13) = A m c main_arg13 := by
  refine (W8_of_ne m ρ c main_arg13 (by decide)).trans ?_
  show after hostOps1_2 (after hostOps1_1 (after hostOps1 (W4 m ρ c))) (Proc.devRef .tc main_arg13) = _
  after_results_simp
  exact W4_arg13 m ρ c

theorem W8_arg14 : W8 m ρ c (Proc.devRef .tc main_arg14) = A m c main_arg14 := by
  refine (W8_of_ne m ρ c main_arg14 (by decide)).trans ?_
  show after hostOps1_2 (after hostOps1_1 (after hostOps1 (W4 m ρ c))) (Proc.devRef .tc main_arg14) = _
  after_results_simp
  exact W4_arg14 m ρ c

theorem W8_arg15 : W8 m ρ c (Proc.devRef .tc main_arg15) = A m c main_arg15 := by
  refine (W8_of_ne m ρ c main_arg15 (by decide)).trans ?_
  show after hostOps1_2 (after hostOps1_1 (after hostOps1 (W4 m ρ c))) (Proc.devRef .tc main_arg15) = _
  after_results_simp
  exact W4_arg15 m ρ c

theorem W8_arg16 : W8 m ρ c (Proc.devRef .tc main_arg16) = A m c main_arg16 := by
  refine (W8_of_ne m ρ c main_arg16 (by decide)).trans ?_
  show after hostOps1_2 (after hostOps1_1 (after hostOps1 (W4 m ρ c))) (Proc.devRef .tc main_arg16) = _
  after_results_simp
  exact W4_arg16 m ρ c

theorem W8_arg17 : W8 m ρ c (Proc.devRef .tc main_arg17) = A m c main_arg17 := by
  refine (W8_of_ne m ρ c main_arg17 (by decide)).trans ?_
  show after hostOps1_2 (after hostOps1_1 (after hostOps1 (W4 m ρ c))) (Proc.devRef .tc main_arg17) = _
  after_results_simp
  exact W4_arg17 m ρ c

theorem W8_arg18 : W8 m ρ c (Proc.devRef .tc main_arg18) = A m c main_arg18 := by
  refine (W8_of_ne m ρ c main_arg18 (by decide)).trans ?_
  show after hostOps1_2 (after hostOps1_1 (after hostOps1 (W4 m ρ c))) (Proc.devRef .tc main_arg18) = _
  after_results_simp
  exact W4_arg18 m ρ c

theorem W8_arg19 : W8 m ρ c (Proc.devRef .tc main_arg19) = A m c main_arg19 := by
  refine (W8_of_ne m ρ c main_arg19 (by decide)).trans ?_
  show after hostOps1_2 (after hostOps1_1 (after hostOps1 (W4 m ρ c))) (Proc.devRef .tc main_arg19) = _
  after_results_simp
  exact W4_arg19 m ρ c

theorem W8_arg20 : W8 m ρ c (Proc.devRef .tc main_arg20) = A m c main_arg20 := by
  refine (W8_of_ne m ρ c main_arg20 (by decide)).trans ?_
  show after hostOps1_2 (after hostOps1_1 (after hostOps1 (W4 m ρ c))) (Proc.devRef .tc main_arg20) = _
  after_results_simp
  exact W4_arg20 m ρ c

theorem W8_arg21 : W8 m ρ c (Proc.devRef .tc main_arg21) = A m c main_arg21 := by
  refine (W8_of_ne m ρ c main_arg21 (by decide)).trans ?_
  show after hostOps1_2 (after hostOps1_1 (after hostOps1 (W4 m ρ c))) (Proc.devRef .tc main_arg21) = _
  after_results_simp
  exact W4_arg21 m ρ c

/-! ## At the exit of the third region -/

theorem W12_arg4 : W12 m ρ c (Proc.devRef .tc main_arg4) = A m c main_arg4 := by
  refine (W12_of_ne m ρ c main_arg4 (by decide)).trans ?_
  show after hostOps2_2 (after hostOps2_1 (after hostOps2 (W8 m ρ c))) (Proc.devRef .tc main_arg4) = _
  after_results_simp
  exact W8_arg4 m ρ c

theorem W12_arg18 : W12 m ρ c (Proc.devRef .tc main_arg18) = A m c main_arg18 := by
  refine (W12_of_ne m ρ c main_arg18 (by decide)).trans ?_
  show after hostOps2_2 (after hostOps2_1 (after hostOps2 (W8 m ρ c))) (Proc.devRef .tc main_arg18) = _
  after_results_simp
  exact W8_arg18 m ρ c

theorem W12_arg19 : W12 m ρ c (Proc.devRef .tc main_arg19) = A m c main_arg19 := by
  refine (W12_of_ne m ρ c main_arg19 (by decide)).trans ?_
  show after hostOps2_2 (after hostOps2_1 (after hostOps2 (W8 m ρ c))) (Proc.devRef .tc main_arg19) = _
  after_results_simp
  exact W8_arg19 m ρ c

theorem W12_arg20 : W12 m ρ c (Proc.devRef .tc main_arg20) = A m c main_arg20 := by
  refine (W12_of_ne m ρ c main_arg20 (by decide)).trans ?_
  show after hostOps2_2 (after hostOps2_1 (after hostOps2 (W8 m ρ c))) (Proc.devRef .tc main_arg20) = _
  after_results_simp
  exact W8_arg20 m ρ c

theorem W12_arg21 : W12 m ρ c (Proc.devRef .tc main_arg21) = A m c main_arg21 := by
  refine (W12_of_ne m ρ c main_arg21 (by decide)).trans ?_
  show after hostOps2_2 (after hostOps2_1 (after hostOps2 (W8 m ρ c))) (Proc.devRef .tc main_arg21) = _
  after_results_simp
  exact W8_arg21 m ρ c

end Cert.KernelIdeal.FoldArgs

end
-- ==== Proof.KernelValue.lean ====
/-
  What the idealized kernel returns, as a function of its arguments: the reference's own result function.

  The kernel's run is a fold through four regions and the host operations between them. Each region's output
  array is a layer of the network applied to the arrays the region entered with (a rank-one aggregate plus a dense
  branch, twice; two dense branches followed by a projection; the edge decoder), and the reference computes the same
  layers with whole-array host operations. Between the regions both programs run the same host operations — the
  article encoder, the three mean aggregations (gather, scatter-add, count, divide), the two row gathers for the
  decoder — on the same arguments. So stage by stage the kernel's buffers hold the reference's stage values: the
  first hidden layer after region 0, the second after region 1, the projected third layer after region 2, the
  decoder's column after region 3, and its reshape to a vector at the end. Each stage is proved from the one before
  it; here they are chained.
-/
import proofs.«138091_j59785944760477_2_alg».proof.Proof.Stage0
import proofs.«138091_j59785944760477_2_alg».proof.Proof.Stage1
import proofs.«138091_j59785944760477_2_alg».proof.Proof.Stage2
import proofs.«138091_j59785944760477_2_alg».proof.Proof.Stage3
import proofs.«138091_j59785944760477_2_alg».proof.Proof.FoldArgs

set_option maxRecDepth 16384

noncomputable section

namespace Cert.KernelIdeal.KernelValue

open Idealize.ShloMosaic Idealize.ShloMosaic.TcCoe Idealize.SL.Sem
open Cert.KernelIdeal Cert.KernelIdeal.Gen

/-- The returned array at the end of the fold is the reference's result function of the launch contents of the
    twenty-two arguments. -/
theorem kernel_value (m : (ℓ : Loc nD τ sig) → Buf (Elt Ideal) ℓ) (ρ : Dev nD → PrngReg) (c : Dev nD) :
    W15 m ρ c (Proc.devRef .tc main_v102) = Cert.ReferenceIdeal.Read.val_main_v131 (F := Ideal) (Fold.A m c main_arg0) (Fold.A m c main_arg1) (Fold.A m c main_arg2) (Fold.A m c main_arg3) (Fold.A m c main_arg4) (Fold.A m c main_arg5) (Fold.A m c main_arg6) (Fold.A m c main_arg7) (Fold.A m c main_arg8) (Fold.A m c main_arg9) (Fold.A m c main_arg10) (Fold.A m c main_arg11) (Fold.A m c main_arg12) (Fold.A m c main_arg13) (Fold.A m c main_arg14) (Fold.A m c main_arg15) (Fold.A m c main_arg16) (Fold.A m c main_arg17) (Fold.A m c main_arg18) (Fold.A m c main_arg19) (Fold.A m c main_arg20) (Fold.A m c main_arg21) :=
  Stage3.out3 m ρ c
    (Stage2.out2 m ρ c
      (Stage1.out1 m ρ c (Stage0.out0 m ρ c) (FoldArgs.W4_v4 m ρ c) (FoldArgs.W4_arg3 m ρ c) (FoldArgs.W4_arg10 m ρ c)
        (FoldArgs.W4_arg11 m ρ c) (FoldArgs.W4_arg12 m ρ c))
      (FoldArgs.W8_arg1 m ρ c) (FoldArgs.W8_arg4 m ρ c) (FoldArgs.W8_arg13 m ρ c) (FoldArgs.W8_arg14 m ρ c)
      (FoldArgs.W8_arg15 m ρ c) (FoldArgs.W8_arg16 m ρ c) (FoldArgs.W8_arg17 m ρ c))
    (FoldArgs.W12_arg4 m ρ c) (FoldArgs.W12_arg18 m ρ c) (FoldArgs.W12_arg19 m ρ c) (FoldArgs.W12_arg20 m ρ c)
    (FoldArgs.W12_arg21 m ρ c)

end Cert.KernelIdeal.KernelValue

end
-- ==== Proof.lean ====
/-
  The certificate of a three-layer graph network with an edge decoder, tiled into four kernels, against its
  whole-array reference.

  The network: an article encoder art = x·W₁ᵀ + b₁ (one row, reshaped to a column); three graph-convolution layers,
  each h = max(mean·Wlᵀ + bl + x·Wrᵀ, 0), where mean is the average over a node's incoming edges of the source
  features (a gather, a scatter-add, an edge count clipped below at one, a division); a projection z = h₃·W₂ᵀ + b₂;
  and an edge decoder max(zz·Wd₁ᵀ + bd₁, 0)·Wd₂ᵀ + bd₂ on zz = the two end points' rows of z side by side.

  The kernel program computes the mean aggregations and the gathers with the same host operations as the
  reference and runs the dense parts in four tiled kernels, a block of rows per grid point: layers 1 and 2 with the
  one-column aggregate's product written as a broadcast multiply, a sum of one term; layer 3 fused with the
  projection; the decoder with Wd₁ split into its two column halves, so that the sum over 256 columns of zz is the
  sum over the first end point's 128 plus the sum over the second's. On the extended reals, where a change of float
  format is the identity, every difference between the two programs is a regrouping of a finite sum or of three
  summands, which holds at the infinities too: no entry is assumed finite anywhere.

  The pieces: each region's output array as a layer function of the arrays it entered with (Region0 … Region3); the
  reference's stages as the same layer functions (RefLayers12, RefLayers3D); the kernel's run with every surviving
  buffer's final contents named (Run); the fold through the run, stage by stage, each stage's buffers at the
  reference's stage values (Stage0 … Stage3, FoldArgs, KernelValue). Both programs then end at one and the same
  function of the arguments, and arguments that agree give equal results.
-/
import proofs.«138091_j59785944760477_2_alg».proof.Defs
import proofs.«138091_j59785944760477_2_alg».proof.Proof.Gen.Kernel
import proofs.«138091_j59785944760477_2_alg».proof.Proof.Gen.Kernel.Skeleton
import proofs.«138091_j59785944760477_2_alg».proof.Proof.Gen.Kernel.Launch
import proofs.«138091_j59785944760477_2_alg».proof.Proof.Gen.Kernel.Points
import proofs.«138091_j59785944760477_2_alg».proof.Proof.Gen.Kernel.Frame
import proofs.«138091_j59785944760477_2_alg».proof.Proof.Gen.KernelIdeal
import proofs.«138091_j59785944760477_2_alg».proof.Proof.Gen.KernelIdeal.Skeleton
import proofs.«138091_j59785944760477_2_alg».proof.Proof.Gen.KernelIdeal.Launch
import proofs.«138091_j59785944760477_2_alg».proof.Proof.Gen.KernelIdeal.Points
import proofs.«138091_j59785944760477_2_alg».proof.Proof.Gen.KernelIdeal.Frame
import proofs.«138091_j59785944760477_2_alg».proof.Proof.Gen.ReferenceIdeal
import proofs.«138091_j59785944760477_2_alg».proof.Proof.Gen.ReferenceIdeal.Run
import proofs.«138091_j59785944760477_2_alg».proof.Proof.Gen.ReferenceIdeal.Read
import proofs.«138091_j59785944760477_2_alg».proof.Proof.Gen.Pre_finite_inputs
import proofs.«138091_j59785944760477_2_alg».proof.Proof.Run
import proofs.«138091_j59785944760477_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal Cert.KernelIdeal.Gen

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a host program: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's result function of those
    arguments: the kernel by the fold through its run, the reference by its own run. -/
theorem algebraic : Cert.algebraic_KernelIdeal_ReferenceIdeal := by
  intro m ρ m' ρ' _ hagree
  refine ⟨fun c => Cert.ReferenceIdeal.Read.val_main_v131 (F := Ideal) (Fold.A m c main_arg0) (Fold.A m c main_arg1) (Fold.A m c main_arg2) (Fold.A m c main_arg3) (Fold.A m c main_arg4) (Fold.A m c main_arg5) (Fold.A m c main_arg6) (Fold.A m c main_arg7) (Fold.A m c main_arg8) (Fold.A m c main_arg9) (Fold.A m c main_arg10) (Fold.A m c main_arg11) (Fold.A m c main_arg12) (Fold.A m c main_arg13) (Fold.A m c main_arg14) (Fold.A m c main_arg15) (Fold.A m c main_arg16) (Fold.A m c main_arg17) (Fold.A m c main_arg18) (Fold.A m c main_arg19) (Fold.A m c main_arg20) (Fold.A m c main_arg21), ?_, ?_⟩
  · exact (θ_run Cert.KernelIdeal.defs _ _).mono
      (fun r h c => ⟨(h c).1.trans (Cert.KernelIdeal.KernelValue.kernel_value m ρ c), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14, h15, h16, h17, h18, h19, h20, h21⟩ := hagree c
    rw [(h c).1, Cert.ReferenceIdeal.Read.val_main_v131_eq, h0, h1, h2, h3, h4, h5, h6, h7, h8, h9, h10, h11, h12, h13, h14, h15, h16, h17, h18, h19, h20, h21]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
